-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S_ : Shape := ⟨0, ![]⟩

class Facts : Prop where
  bcast_S_S15000x768 : S_.BroadcastsInDim S15000x768 (![] : Fin 0 → Fin S15000x768.rank)
  reducesTo_S15000x768_S_d0_1 : S15000x768.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S768x10 : S_.BroadcastsInDim S768x10 (![] : Fin 0 → Fin S768x10.rank)
  reducesTo_S768x10_S_d0_1 : S768x10.ReducesTo [0, 1] S_
  bcast_S_S10 : S_.BroadcastsInDim S10 (![] : Fin 0 → Fin S10.rank)
  reducesTo_S10_S_d0 : S10.ReducesTo [0] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S512x1024 : S_.BroadcastsInDim S512x1024 (![] : Fin 0 → Fin S512x1024.rank)
  reducesTo_S512x1024_S_d0_1 : S512x1024.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x128 .f32) (main_arg8 : FVec F S512 .f32) (main_arg9 : FVec F S512 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S10x128 .f32) (main_arg5 : FVec F S128 .f32) (main_arg6 : FVec F S512x1024 .f32) (main_arg7 : FVec F S512x128 .f32) (main_arg8 : FVec F S512 .f32) (main_arg9 : FVec F S512 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S15000x768 .f32) (main_arg1 : FVec F S100000x768 .f32) (main_arg2 : FVec F S768x10 .f32) (main_arg3 : FVec F S10 .f32) (main_arg4 : FVec F S10x128 .f32) (main_arg5 : FVec F S128 .f32) (main_arg6 : FVec F S512x1024 .f32) (main_arg7 : FVec F S512x128 .f32) (main_arg8 : FVec F S512 .f32) (main_arg9 : FVec F S512 .f32) (main_arg10 : IVec S2x200000 32) (main_arg11 : IVec S100000x3 32) : IVec S_ 1 :=
  let main_v0 : FVec F S15000x768 .f32 := Host.absf main_arg0
  let main_cst : FVec F S_ .f32 := constant S_ .f32 0x7F800000#32
  let main_v1 : FVec F S15000x768 .f32 := broadcastInDim S15000x768 ![] bcast_S_S15000x768 main_cst
  let main_v2 : IVec S15000x768 1 := cmpf .olt main_v0 main_v1
  let main_c : IVec S_ 1 := constantI S_ 1 1#1
  let main_v3 : IVec S_ 1 := (fun x v => Host.reduce IntOp.andi x v reducesTo_S15000x768_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S768x10 .f32 := Host.absf main_arg2
  let main_cst_2 : FVec F S_ .f32 := constant S_ .f32 0x7F800000#32
  let main_v10 : FVec F S768x10 .f32 := broadcastInDim S768x10 ![] bcast_S_S768x10 main_cst_2
  let main_v11 : IVec S768x10 1 := cmpf .olt main_v9 main_v10
  let main_c_3 : IVec S_ 1 := constantI S_ 1 1#1
  let main_v12 : IVec S_ 1 := (fun x v => Host.reduce IntOp.andi x v reducesTo_S768x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_arg8 main_arg9 main_v13 main_v16
-- ==== Kernel.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S15000 : Shape := ⟨1, ![15000]⟩
abbrev S1x200000 : Shape := ⟨2, ![1, 200000]⟩
abbrev S200000 : Shape := ⟨1, ![200000]⟩
abbrev S215000 : Shape := ⟨1, ![215000]⟩
abbrev S_ : Shape := ⟨0, ![]⟩
abbrev S215000x1 : Shape := ⟨2, ![215000, 1]⟩
abbrev S15000x10 : Shape := ⟨2, ![15000, 10]⟩
abbrev S1000x768 : Shape := ⟨2, ![1000, 768]⟩
abbrev S1000x10 : Shape := ⟨2, ![1000, 10]⟩
abbrev S215000x10 : Shape := ⟨2, ![215000, 10]⟩
abbrev S1x10 : Shape := ⟨2, ![1, 10]⟩
abbrev S15000x128 : Shape := ⟨2, ![15000, 128]⟩
abbrev S1000x128 : Shape := ⟨2, ![1000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S128x512 : Shape := ⟨2, ![128, 512]⟩
abbrev S512x768 : Shape := ⟨2, ![512, 768]⟩
abbrev S768x512 : Shape := ⟨2, ![768, 512]⟩
abbrev S1x512 : Shape := ⟨2, ![1, 512]⟩
abbrev S2048x128 : Shape := ⟨2, ![2048, 128]⟩
abbrev S2048x768 : Shape := ⟨2, ![2048, 768]⟩
abbrev S2048 : Shape := ⟨1, ![2048]⟩
abbrev S2048x512 : Shape := ⟨2, ![2048, 512]⟩

abbrev nBuf : Space → Nat
  | .hbm => 127
  | .vmem => 22
  | .smem => 0
  | _ => 0

abbrev bufTy : (tb : Table) → Fin (tcTables nBuf tb) → BufTy
  | .hbm, ⟨0, _⟩ => ⟨S15000x768, .f32⟩
  | .hbm, ⟨1, _⟩ => ⟨S100000x768, .f32⟩
  | .hbm, ⟨2, _⟩ => ⟨S768x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S512x1024, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S2x200000, .i32⟩
  | .hbm, ⟨11, _⟩ => ⟨S100000x3, .i32⟩
  | .hbm, ⟨12, _⟩ => ⟨S15000, .i32⟩
  | .hbm, ⟨13, _⟩ => ⟨S1x200000, .i32⟩
  | .hbm, ⟨14, _⟩ => ⟨S200000, .i32⟩
  | .hbm, ⟨15, _⟩ => ⟨S215000, .i32⟩
  | .hbm, ⟨16, _⟩ => ⟨S1x200000, .i32⟩
  | .hbm, ⟨17, _⟩ => ⟨S200000, .i32⟩
  | .hbm, ⟨18, _⟩ => ⟨S215000, .i32⟩
  | .hbm, ⟨19, _⟩ => ⟨S_, .f32⟩
  | .hbm, ⟨20, _⟩ => ⟨S215000, .f32⟩
  | .hbm, ⟨21, _⟩ => ⟨S_, .f32⟩
  | .hbm, ⟨22, _⟩ => ⟨S15000, .f32⟩
  | .hbm, ⟨23, _⟩ => ⟨S215000x1, .i32⟩
  | .hbm, ⟨24, _⟩ => ⟨S15000, .f32⟩
  | .hbm, ⟨25, _⟩ => ⟨S_, .f32⟩
  | .hbm, ⟨26, _⟩ => ⟨S15000, .f32⟩
  | .hbm, ⟨27, _⟩ => ⟨S15000, .i1⟩
  | .hbm, ⟨28, _⟩ => ⟨S15000, .f32⟩
  | .hbm, ⟨29, _⟩ => ⟨S_, .f32⟩
  | .hbm, ⟨30, _⟩ => ⟨S_, .f32⟩
  | .hbm, ⟨31, _⟩ => ⟨S15000, .f32⟩
  | .hbm, ⟨32, _⟩ => ⟨S15000, .f32⟩
  | .hbm, ⟨33, _⟩ => ⟨S_, .i32⟩
  | .hbm, ⟨34, _⟩ => ⟨S215000, .i32⟩
  | .hbm, ⟨35, _⟩ => ⟨S215000, .i1⟩
  | .hbm, ⟨36, _⟩ => ⟨S_, .i32⟩
  | .hbm, ⟨37, _⟩ => ⟨S215000, .i32⟩
  | .hbm, ⟨38, _⟩ => ⟨S215000, .i32⟩
  | .hbm, ⟨39, _⟩ => ⟨S215000, .i32⟩
  | .hbm, ⟨40, _⟩ => ⟨S215000x1, .i32⟩
  | .hbm, ⟨41, _⟩ => ⟨S215000, .f32⟩
  | .hbm, ⟨42, _⟩ => ⟨S_, .i32⟩
  | .hbm, ⟨43, _⟩ => ⟨S215000, .i32⟩
  | .hbm, ⟨44, _⟩ => ⟨S215000, .i1⟩
  | .hbm, ⟨45, _⟩ => ⟨S_, .i32⟩
  | .hbm, ⟨46, _⟩ => ⟨S215000, .i32⟩
  | .hbm, ⟨47, _⟩ => ⟨S215000, .i32⟩
  | .hbm, ⟨48, _⟩ => ⟨S215000, .i32⟩
  | .hbm, ⟨49, _⟩ => ⟨S215000x1, .i32⟩
  | .hbm, ⟨50, _⟩ => ⟨S215000, .f32⟩
  | .hbm, ⟨51, _⟩ => ⟨S215000, .f32⟩
  | .hbm, ⟨52, _⟩ => ⟨S15000x10, .f32⟩
  | .hbm, ⟨53, _⟩ => ⟨S_, .i32⟩
  | .hbm, ⟨54, _⟩ => ⟨S215000, .i32⟩
  | .hbm, ⟨55, _⟩ => ⟨S215000, .i1⟩
  | .hbm, ⟨56, _⟩ => ⟨S_, .i32⟩
  | .hbm, ⟨57, _⟩ => ⟨S215000, .i32⟩
  | .hbm, ⟨58, _⟩ => ⟨S215000, .i32⟩
  | .hbm, ⟨59, _⟩ => ⟨S215000, .i32⟩
  | .hbm, ⟨60, _⟩ => ⟨S215000x1, .i32⟩
  | .hbm, ⟨61, _⟩ => ⟨S215000x10, .f32⟩
  | .hbm, ⟨62, _⟩ => ⟨S215000x1, .f32⟩
  | .hbm, ⟨63, _⟩ => ⟨S215000x10, .f32⟩
  | .hbm, ⟨64, _⟩ => ⟨S215000x10, .f32⟩
  | .hbm, ⟨65, _⟩ => ⟨S_, .f32⟩
  | .hbm, ⟨66, _⟩ => ⟨S15000x10, .f32⟩
  | .hbm, ⟨67, _⟩ => ⟨S215000x1, .i32⟩
  | .hbm, ⟨68, _⟩ => ⟨S15000x10, .f32⟩
  | .hbm, ⟨69, _⟩ => ⟨S1x10, .f32⟩
  | .hbm, ⟨70, _⟩ => ⟨S15000x10, .f32⟩
  | .hbm, ⟨71, _⟩ => ⟨S15000x10, .f32⟩
  | .hbm, ⟨72, _⟩ => ⟨S_, .f32⟩
  | .hbm, ⟨73, _⟩ => ⟨S15000x10, .f32⟩
  | .hbm, ⟨74, _⟩ => ⟨S15000x10, .f32⟩
  | .hbm, ⟨75, _⟩ => ⟨S_, .i32⟩
  | .hbm, ⟨76, _⟩ => ⟨S215000, .i32⟩
  | .hbm, ⟨77, _⟩ => ⟨S215000, .i1⟩
  | .hbm, ⟨78, _⟩ => ⟨S_, .i32⟩
  | .hbm, ⟨79, _⟩ => ⟨S215000, .i32⟩
  | .hbm, ⟨80, _⟩ => ⟨S215000, .i32⟩
  | .hbm, ⟨81, _⟩ => ⟨S215000, .i32⟩
  | .hbm, ⟨82, _⟩ => ⟨S215000x1, .i32⟩
  | .hbm, ⟨83, _⟩ => ⟨S215000x10, .f32⟩
  | .hbm, ⟨84, _⟩ => ⟨S215000x1, .f32⟩
  | .hbm, ⟨85, _⟩ => ⟨S215000x10, .f32⟩
  | .hbm, ⟨86, _⟩ => ⟨S215000x10, .f32⟩
  | .hbm, ⟨87, _⟩ => ⟨S_, .f32⟩
  | .hbm, ⟨88, _⟩ => ⟨S15000x10, .f32⟩
  | .hbm, ⟨89, _⟩ => ⟨S215000x1, .i32⟩
  | .hbm, ⟨90, _⟩ => ⟨S15000x10, .f32⟩
  | .hbm, ⟨91, _⟩ => ⟨S15000x128, .f32⟩
  | .hbm, ⟨92, _⟩ => ⟨S1x128, .f32⟩
  | .hbm, ⟨93, _⟩ => ⟨S15000x128, .f32⟩
  | .hbm, ⟨94, _⟩ => ⟨S15000x128, .f32⟩
  | .hbm, ⟨95, _⟩ => ⟨S15000x128, .bf16⟩
  | .hbm, ⟨96, _⟩ => ⟨S100000x1, .i32⟩
  | .hbm, ⟨97, _⟩ => ⟨S100000, .i32⟩
  | .hbm, ⟨98, _⟩ => ⟨S_, .i32⟩
  | .hbm, ⟨99, _⟩ => ⟨S100000, .i32⟩
  | .hbm, ⟨100, _⟩ => ⟨S100000, .i1⟩
  | .hbm, ⟨101, _⟩ => ⟨S_, .i32⟩
  | .hbm, ⟨102, _⟩ => ⟨S100000, .i32⟩
  | .hbm, ⟨103, _⟩ => ⟨S100000, .i32⟩
  | .hbm, ⟨104, _⟩ => ⟨S100000, .i32⟩
  | .hbm, ⟨105, _⟩ => ⟨S100000x1, .i32⟩
  | .hbm, ⟨106, _⟩ => ⟨S100000x128, .bf16⟩
  | .hbm, ⟨107, _⟩ => ⟨S100000x1, .i32⟩
  | .hbm, ⟨108, _⟩ => ⟨S100000, .i32⟩
  | .hbm, ⟨109, _⟩ => ⟨S_, .i32⟩
  | .hbm, ⟨110, _⟩ => ⟨S100000, .i32⟩
  | .hbm, ⟨111, _⟩ => ⟨S100000, .i1⟩
  | .hbm, ⟨112, _⟩ => ⟨S_, .i32⟩
  | .hbm, ⟨113, _⟩ => ⟨S100000, .i32⟩
  | .hbm, ⟨114, _⟩ => ⟨S100000, .i32⟩
  | .hbm, ⟨115, _⟩ => ⟨S100000, .i32⟩
  | .hbm, ⟨116, _⟩ => ⟨S100000x1, .i32⟩
  | .hbm, ⟨117, _⟩ => ⟨S100000x128, .bf16⟩
  | .hbm, ⟨118, _⟩ => ⟨S512x128, .f32⟩
  | .hbm, ⟨119, _⟩ => ⟨S128x512, .f32⟩
  | .hbm, ⟨120, _⟩ => ⟨S512x768, .f32⟩
  | .hbm, ⟨121, _⟩ => ⟨S768x512, .f32⟩
  | .hbm, ⟨122, _⟩ => ⟨S512x128, .f32⟩
  | .hbm, ⟨123, _⟩ => ⟨S128x512, .f32⟩
  | .hbm, ⟨124, _⟩ => ⟨S512, .f32⟩
  | .hbm, ⟨125, _⟩ => ⟨S1x512, .f32⟩
  | .hbm, ⟨126, _⟩ => ⟨S100000, .f32⟩
  | .local _ .vmem, ⟨0, _⟩ => ⟨S1000x768, .f32⟩
  | .local _ .vmem, ⟨1, _⟩ => ⟨S1000x768, .f32⟩
  | .local _ .vmem, ⟨2, _⟩ => ⟨S768x10, .f32⟩
  | .local _ .vmem, ⟨3, _⟩ => ⟨S1000x10, .f32⟩
  | .local _ .vmem, ⟨4, _⟩ => ⟨S1000x10, .f32⟩
  | .local _ .vmem, ⟨5, _⟩ => ⟨S1000x10, .f32⟩
  | .local _ .vmem, ⟨6, _⟩ => ⟨S1000x10, .f32⟩
  | .local _ .vmem, ⟨7, _⟩ => ⟨S10x128, .f32⟩
  | .local _ .vmem, ⟨8, _⟩ => ⟨S1000x128, .f32⟩
  | .local _ .vmem, ⟨9, _⟩ => ⟨S1000x128, .f32⟩
  | .local _ .vmem, ⟨10, _⟩ => ⟨S2048x128, .bf16⟩
  | .local _ .vmem, ⟨11, _⟩ => ⟨S2048x128, .bf16⟩
  | .local _ .vmem, ⟨12, _⟩ => ⟨S2048x768, .f32⟩
  | .local _ .vmem, ⟨13, _⟩ => ⟨S2048x768, .f32⟩
  | .local _ .vmem, ⟨14, _⟩ => ⟨S2048x128, .bf16⟩
  | .local _ .vmem, ⟨15, _⟩ => ⟨S2048x128, .bf16⟩
  | .local _ .vmem, ⟨16, _⟩ => ⟨S128x512, .f32⟩
  | .local _ .vmem, ⟨17, _⟩ => ⟨S768x512, .f32⟩
  | .local _ .vmem, ⟨18, _⟩ => ⟨S128x512, .f32⟩
  | .local _ .vmem, ⟨19, _⟩ => ⟨S1x512, .f32⟩
  | .local _ .vmem, ⟨20, _⟩ => ⟨S2048, .f32⟩
  | .local _ .vmem, ⟨21, _⟩ => ⟨S2048, .f32⟩
  | _, _ => ⟨S15000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x200000_S1x200000_0_0 : S2x200000.Slices ![0, 0] S1x200000
  shapeCasts_S1x200000_S200000 : S1x200000.ShapeCasts S200000
  concatenates_S200000_S15000_S215000_d0 : Shape.Concatenates [S200000, S15000] S215000 0
  slices_S2x200000_S1x200000_1_0 : S2x200000.Slices ![1, 0] S1x200000
  bcast_S_S215000 : S_.BroadcastsInDim S215000 (![] : Fin 0 → Fin S215000.rank)
  bcast_S_S15000 : S_.BroadcastsInDim S15000 (![] : Fin 0 → Fin S15000.rank)
  bcast_S215000_S215000x1_0 : S215000.BroadcastsInDim S215000x1 (![0] : Fin 1 → Fin S215000x1.rank)
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x10_S768x10_0_0 : ∀ a, (![0, 0] : Fin 2 → Nat) a + S768x10.size a ≤ S768x10.size a
  h_S768x10 : 0 < S768x10.numel
  inb_S1000x10_S1000x10_0_0 : ∀ a, (![0, 0] : Fin 2 → Nat) a + S1000x10.size a ≤ S1000x10.size a
  h_S1000x10 : 0 < S1000x10.numel
  bcast_S215000x1_S215000x10_0_1 : S215000x1.BroadcastsInDim S215000x10 (![0, 1] : Fin 2 → Fin S215000x10.rank)
  bcast_S_S15000x10 : S_.BroadcastsInDim S15000x10 (![] : Fin 0 → Fin S15000x10.rank)
  bcast_S10_S1x10_1 : S10.BroadcastsInDim S1x10 (![1] : Fin 1 → Fin S1x10.rank)
  bcast_S1x10_S15000x10_0_1 : S1x10.BroadcastsInDim S15000x10 (![0, 1] : Fin 2 → Fin S15000x10.rank)
  shapeCasts_S1000x10_S1000x10 : S1000x10.ShapeCasts S1000x10
  inb_S10x128_S10x128_0_0 : ∀ a, (![0, 0] : Fin 2 → Nat) a + S10x128.size a ≤ S10x128.size a
  h_S10x128 : 0 < S10x128.numel
  inb_S1000x128_S1000x128_0_0 : ∀ a, (![0, 0] : Fin 2 → Nat) a + S1000x128.size a ≤ S1000x128.size a
  h_S1000x128 : 0 < S1000x128.numel
  bcast_S128_S1x128_1 : S128.BroadcastsInDim S1x128 (![1] : Fin 1 → Fin S1x128.rank)
  bcast_S1x128_S15000x128_0_1 : S1x128.BroadcastsInDim S15000x128 (![0, 1] : Fin 2 → Fin S15000x128.rank)
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_2 : S100000x3.Slices ![0, 2] S100000x1
  slices_S512x1024_S512x128_0_0 : S512x1024.Slices ![0, 0] S512x128
  transposes_S512x128_S128x512_1_0 : S512x128.Transposes [1, 0] S128x512
  slices_S512x1024_S512x768_0_128 : S512x1024.Slices ![0, 128] S512x768
  transposes_S512x768_S768x512_1_0 : S512x768.Transposes [1, 0] S768x512
  slices_S512x1024_S512x128_0_896 : S512x1024.Slices ![0, 896] S512x128
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x768_S2048x768_0_0 : ∀ a, (![0, 0] : Fin 2 → Nat) a + S2048x768.size a ≤ S2048x768.size a
  h_S2048x768 : 0 < S2048x768.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_256_S2048x128 : S2048x512.Slices ![0, 256] S2048x128
  slices_S2048x512_o0_384_S2048x128 : S2048x512.Slices ![0, 384] S2048x128
  reduces_S2048x128_S2048 : S2048x128.Reduces [1] S2048
  inb_S2048_S2048_0 : ∀ a, (![0] : Fin 1 → Nat) a + S2048.size a ≤ S2048.size a
  h_S2048 : 0 < S2048.numel
  scatter_S15000_S215000x1_S215000_n_0_0_1_wf : ScatterDims.WF S15000 S215000x1 S215000 [] [0] [0] 1
  gather_S15000_S215000x1_S215000_n_0_n_n_0_1_1_wf : GatherDims.WF S15000 S215000x1 S215000 [] [0] [] [0] [] 1 ![1]
  dot_S1000x768_S768x10_S1000x10_1_0_0_1_n_n_wf : DotDims.WF S1000x768 S768x10 S1000x10 [1] [0] [0] [1] [] []
  gather_S15000x10_S215000x1_S215000x10_1_0_n_n_0_1_110_wf : GatherDims.WF S15000x10 S215000x1 S215000x10 [1] [0] [] [0] [] 1 ![1, 10]
  scatter_S15000x10_S215000x1_S215000x10_1_0_0_1_wf : ScatterDims.WF S15000x10 S215000x1 S215000x10 [1] [0] [0] 1
  dot_S1000x10_S10x128_S1000x128_1_0_0_1_n_n_wf : DotDims.WF S1000x10 S10x128 S1000x128 [1] [0] [0] [1] [] []
  gather_S15000x128_S100000x1_S100000x128_1_0_n_n_0_1_1128_wf : GatherDims.WF S15000x128 S100000x1 S100000x128 [1] [0] [] [0] [] 1 ![1, 128]
  dot_S2048x128_S128x512_S2048x512_1_0_0_1_n_n_wf : DotDims.WF S2048x128 S128x512 S2048x512 [1] [0] [0] [1] [] []
  dot_S2048x768_S768x512_S2048x512_1_0_0_1_n_n_wf : DotDims.WF S2048x768 S768x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S15000x768.size a
  hwx0_0 : ∀ i : grid0.Coords, EltTy.bits .f32 = 32 ∨ (Rect.block (s := S15000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x10.size a ≤ S768x10.size a
  hwx0_1 : ∀ i : grid0.Coords, EltTy.bits .f32 = 32 ∨ (Rect.block (s := S768x10) S768x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x10.size a ≤ S15000x10.size a
  hwx0_2 : ∀ i : grid0.Coords, EltTy.bits .f32 = 32 ∨ (Rect.block (s := S15000x10) S1000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10.size a ≤ S15000x10.size a
  hwx1_0 : ∀ i : grid1.Coords, EltTy.bits .f32 = 32 ∨ (Rect.block (s := S15000x10) S1000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x128.size a ≤ S10x128.size a
  hwx1_1 : ∀ i : grid1.Coords, EltTy.bits .f32 = 32 ∨ (Rect.block (s := S10x128) S10x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S15000x128.size a
  hwx1_2 : ∀ i : grid1.Coords, EltTy.bits .f32 = 32 ∨ (Rect.block (s := S15000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S2048x128.size a < S100000x128.size a
  hwx2_0 : ∀ i : grid2.Coords, EltTy.bits .bf16 = 32 ∨ (Rect.unit (s := S100000x128) (fun a => cc2_transform_0 i a * S2048x128.size a) (fun a => (Pipeline.Clip.of (cc2_transform_0 i a) (S2048x128.size a) (S100000x128.size a)).extent (S2048x128.size a)) fun a => Pipeline.Clip.inb (Pipeline.Clip.ok_of (hstart2_0 i a))).WholeWords (EltTy.packing .bf16)
  hwxs2_0 : ∀ i : grid2.Coords, EltTy.bits .bf16 = 32 ∨ (Rect.unit (s := S2048x128) (fun _ => 0) (fun a => (Pipeline.Clip.of (cc2_transform_0 i a) (S2048x128.size a) (S100000x128.size a)).extent (S2048x128.size a)) fun a => (Nat.zero_add _).trans_le (Pipeline.Clip.extent_le (Pipeline.Clip.ok_of (hstart2_0 i a)))).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x768.size a < S100000x768.size a
  hwx2_1 : ∀ i : grid2.Coords, EltTy.bits .f32 = 32 ∨ (Rect.unit (s := S100000x768) (fun a => cc2_transform_1 i a * S2048x768.size a) (fun a => (Pipeline.Clip.of (cc2_transform_1 i a) (S2048x768.size a) (S100000x768.size a)).extent (S2048x768.size a)) fun a => Pipeline.Clip.inb (Pipeline.Clip.ok_of (hstart2_1 i a))).WholeWords (EltTy.packing .f32)
  hwxs2_1 : ∀ i : grid2.Coords, EltTy.bits .f32 = 32 ∨ (Rect.unit (s := S2048x768) (fun _ => 0) (fun a => (Pipeline.Clip.of (cc2_transform_1 i a) (S2048x768.size a) (S100000x768.size a)).extent (S2048x768.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2048x128.size a < S100000x128.size a
  hwx2_2 : ∀ i : grid2.Coords, EltTy.bits .bf16 = 32 ∨ (Rect.unit (s := S100000x128) (fun a => cc2_transform_2 i a * S2048x128.size a) (fun a => (Pipeline.Clip.of (cc2_transform_2 i a) (S2048x128.size a) (S100000x128.size a)).extent (S2048x128.size a)) fun a => Pipeline.Clip.inb (Pipeline.Clip.ok_of (hstart2_2 i a))).WholeWords (EltTy.packing .bf16)
  hwxs2_2 : ∀ i : grid2.Coords, EltTy.bits .bf16 = 32 ∨ (Rect.unit (s := S2048x128) (fun _ => 0) (fun a => (Pipeline.Clip.of (cc2_transform_2 i a) (S2048x128.size a) (S100000x128.size a)).extent (S2048x128.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S128x512.size a
  hwx2_3 : ∀ i : grid2.Coords, EltTy.bits .f32 = 32 ∨ (Rect.block (s := S128x512) S128x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768x512.size a ≤ S768x512.size a
  hwx2_4 : ∀ i : grid2.Coords, EltTy.bits .f32 = 32 ∨ (Rect.block (s := S768x512) S768x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S128x512.size a
  hwx2_5 : ∀ i : grid2.Coords, EltTy.bits .f32 = 32 ∨ (Rect.block (s := S128x512) S128x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hstart2_7 : ∀ (i : grid2.Coords) a, cc2_transform_7 i a * S2048.size a < S100000.size a
  hwx2_7 : ∀ i : grid2.Coords, EltTy.bits .f32 = 32 ∨ (Rect.unit (s := S100000) (fun a => cc2_transform_7 i a * S2048.size a) (fun a => (Pipeline.Clip.of (cc2_transform_7 i a) (S2048.size a) (S100000.size a)).extent (S2048.size a)) fun a => Pipeline.Clip.inb (Pipeline.Clip.ok_of (hstart2_7 i a))).WholeWords (EltTy.packing .f32)
  hwxs2_7 : ∀ i : grid2.Coords, EltTy.bits .f32 = 32 ∨ (Rect.unit (s := S2048) (fun _ => 0) (fun a => (Pipeline.Clip.of (cc2_transform_7 i a) (S2048.size a) (S100000.size a)).extent (S2048.size a)) fun a => (Nat.zero_add _).trans_le (Pipeline.Clip.extent_le (Pipeline.Clip.ok_of (hstart2_7 i a)))).WholeWords (EltTy.packing .f32)

variable [Facts₀]

def scatter_S15000_S215000x1_S215000_n_0_0_1 : ScatterDims S15000 S215000x1 S215000 where
  updateWindowDims := []
  insertedWindowDims := [0]
  scatterDimsToOperandDims := [0]
  indexVectorDim := 1
  wf := scatter_S15000_S215000x1_S215000_n_0_0_1_wf
def gather_S15000_S215000x1_S215000_n_0_n_n_0_1_1 : GatherDims S15000 S215000x1 S215000 where
  offsetDims := []
  collapsedSliceDims := [0]
  operandBatchingDims := []
  startIndicesBatchingDims := []
  startIndexMap := [0]
  indexVectorDim := 1
  sliceSizes := ![1]
  wf := gather_S15000_S215000x1_S215000_n_0_n_n_0_1_1_wf
def dot_S1000x768_S768x10_S1000x10_1_0_0_1_n_n : DotDims S1000x768 S768x10 S1000x10 where
  lhsContracting := [1]
  rhsContracting := [0]
  lhsNonContracting := [0]
  rhsNonContracting := [1]
  lhsBatch := []
  rhsBatch := []
  wf := dot_S1000x768_S768x10_S1000x10_1_0_0_1_n_n_wf
def gather_S15000x10_S215000x1_S215000x10_1_0_n_n_0_1_110 : GatherDims S15000x10 S215000x1 S215000x10 where
  offsetDims := [1]
  collapsedSliceDims := [0]
  operandBatchingDims := []
  startIndicesBatchingDims := []
  startIndexMap := [0]
  indexVectorDim := 1
  sliceSizes := ![1, 10]
  wf := gather_S15000x10_S215000x1_S215000x10_1_0_n_n_0_1_110_wf
def scatter_S15000x10_S215000x1_S215000x10_1_0_0_1 : ScatterDims S15000x10 S215000x1 S215000x10 where
  updateWindowDims := [1]
  insertedWindowDims := [0]
  scatterDimsToOperandDims := [0]
  indexVectorDim := 1
  wf := scatter_S15000x10_S215000x1_S215000x10_1_0_0_1_wf
def dot_S1000x10_S10x128_S1000x128_1_0_0_1_n_n : DotDims S1000x10 S10x128 S1000x128 where
  lhsContracting := [1]
  rhsContracting := [0]
  lhsNonContracting := [0]
  rhsNonContracting := [1]
  lhsBatch := []
  rhsBatch := []
  wf := dot_S1000x10_S10x128_S1000x128_1_0_0_1_n_n_wf
def gather_S15000x128_S100000x1_S100000x128_1_0_n_n_0_1_1128 : GatherDims S15000x128 S100000x1 S100000x128 where
  offsetDims := [1]
  collapsedSliceDims := [0]
  operandBatchingDims := []
  startIndicesBatchingDims := []
  startIndexMap := [0]
  indexVectorDim := 1
  sliceSizes := ![1, 128]
  wf := gather_S15000x128_S100000x1_S100000x128_1_0_n_n_0_1_1128_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S1000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v74) S2048x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_arg1) S2048x768.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v83) S2048x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v85) S128x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S768x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S128x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v91) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpecClip (Memref.whole main_v92) S2048.size cc2_transform_7 reads2_7 true false 2 stage2_7 sem2_7
    hrank2 hreads2_7 hstart2_7 nbuf2_7 (Memref.isWhole_whole _) hwx2_7 hwxs2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S15000x768 : Shape := ⟨2, ![15000, 768]⟩
abbrev S100000x768 : Shape := ⟨2, ![100000, 768]⟩
abbrev S768x10 : Shape := ⟨2, ![768, 10]⟩
abbrev S10 : Shape := ⟨1, ![10]⟩
abbrev S10x128 : Shape := ⟨2, ![10, 128]⟩
abbrev S128 : Shape := ⟨1, ![128]⟩
abbrev S512x1024 : Shape := ⟨2, ![512, 1024]⟩
abbrev S512x128 : Shape := ⟨2, ![512, 128]⟩
abbrev S512 : Shape := ⟨1, ![512]⟩
abbrev S2x200000 : Shape := ⟨2, ![2, 200000]⟩
abbrev S100000x3 : Shape := ⟨2, ![100000, 3]⟩
abbrev S15000 : Shape := ⟨1, ![15000]⟩
abbrev S1x200000 : Shape := ⟨2, ![1, 200000]⟩
abbrev S200000 : Shape := ⟨1, ![200000]⟩
abbrev S215000 : Shape := ⟨1, ![215000]⟩
abbrev S_ : Shape := ⟨0, ![]⟩
abbrev S215000x1 : Shape := ⟨2, ![215000, 1]⟩
abbrev S15000x10 : Shape := ⟨2, ![15000, 10]⟩
abbrev S215000x10 : Shape := ⟨2, ![215000, 10]⟩
abbrev S1x10 : Shape := ⟨2, ![1, 10]⟩
abbrev S15000x128 : Shape := ⟨2, ![15000, 128]⟩
abbrev S215000x128 : Shape := ⟨2, ![215000, 128]⟩
abbrev S1x128 : Shape := ⟨2, ![1, 128]⟩
abbrev S100000x1 : Shape := ⟨2, ![100000, 1]⟩
abbrev S100000 : Shape := ⟨1, ![100000]⟩
abbrev S100000x128 : Shape := ⟨2, ![100000, 128]⟩
abbrev S100000x1024 : Shape := ⟨2, ![100000, 1024]⟩
abbrev S1024x512 : Shape := ⟨2, ![1024, 512]⟩
abbrev S100000x512 : Shape := ⟨2, ![100000, 512]⟩
abbrev S1x512 : Shape := ⟨2, ![1, 512]⟩

abbrev nBuf : Space → Nat
  | .hbm => 158
  | .vmem => 0
  | .smem => 0
  | _ => 0

abbrev hbmTy0_0 (i : Nat) : BufTy := match i % 128 with
  | 0 => ⟨S15000x768, .f32⟩
  | 1 => ⟨S100000x768, .f32⟩
  | 2 => ⟨S768x10, .f32⟩
  | 3 => ⟨S10, .f32⟩
  | 4 => ⟨S10x128, .f32⟩
  | 5 => ⟨S128, .f32⟩
  | 6 => ⟨S512x1024, .f32⟩
  | 7 => ⟨S512x128, .f32⟩
  | 8 => ⟨S512, .f32⟩
  | 9 => ⟨S512, .f32⟩
  | 10 => ⟨S2x200000, .i32⟩
  | 11 => ⟨S100000x3, .i32⟩
  | 12 => ⟨S15000, .i32⟩
  | 13 => ⟨S1x200000, .i32⟩
  | 14 => ⟨S200000, .i32⟩
  | 15 => ⟨S215000, .i32⟩
  | 16 => ⟨S1x200000, .i32⟩
  | 17 => ⟨S200000, .i32⟩
  | 18 => ⟨S215000, .i32⟩
  | 19 => ⟨S_, .f32⟩
  | 20 => ⟨S215000, .f32⟩
  | 21 => ⟨S_, .f32⟩
  | 22 => ⟨S15000, .f32⟩
  | 23 => ⟨S215000x1, .i32⟩
  | 24 => ⟨S15000, .f32⟩
  | 25 => ⟨S_, .f32⟩
  | 26 => ⟨S15000, .f32⟩
  | 27 => ⟨S15000, .i1⟩
  | 28 => ⟨S15000, .f32⟩
  | 29 => ⟨S_, .f32⟩
  | 30 => ⟨S_, .f32⟩
  | 31 => ⟨S15000, .f32⟩
  | 32 => ⟨S15000, .f32⟩
  | 33 => ⟨S_, .i32⟩
  | 34 => ⟨S215000, .i32⟩
  | 35 => ⟨S215000, .i1⟩
  | 36 => ⟨S_, .i32⟩
  | 37 => ⟨S215000, .i32⟩
  | 38 => ⟨S215000, .i32⟩
  | 39 => ⟨S215000, .i32⟩
  | 40 => ⟨S215000x1, .i32⟩
  | 41 => ⟨S215000, .f32⟩
  | 42 => ⟨S_, .i32⟩
  | 43 => ⟨S215000, .i32⟩
  | 44 => ⟨S215000, .i1⟩
  | 45 => ⟨S_, .i32⟩
  | 46 => ⟨S215000, .i32⟩
  | 47 => ⟨S215000, .i32⟩
  | 48 => ⟨S215000, .i32⟩
  | 49 => ⟨S215000x1, .i32⟩
  | 50 => ⟨S215000, .f32⟩
  | 51 => ⟨S215000, .f32⟩
  | 52 => ⟨S15000x10, .f32⟩
  | 53 => ⟨S_, .i32⟩
  | 54 => ⟨S215000, .i32⟩
  | 55 => ⟨S215000, .i1⟩
  | 56 => ⟨S_, .i32⟩
  | 57 => ⟨S215000, .i32⟩
  | 58 => ⟨S215000, .i32⟩
  | 59 => ⟨S215000, .i32⟩
  | 60 => ⟨S215000x1, .i32⟩
  | 61 => ⟨S215000x10, .f32⟩
  | 62 => ⟨S215000x1, .f32⟩
  | 63 => ⟨S215000x10, .f32⟩
  | 64 => ⟨S215000x10, .f32⟩
  | 65 => ⟨S_, .f32⟩
  | 66 => ⟨S15000x10, .f32⟩
  | 67 => ⟨S215000x1, .i32⟩
  | 68 => ⟨S15000x10, .f32⟩
  | 69 => ⟨S1x10, .f32⟩
  | 70 => ⟨S15000x10, .f32⟩
  | 71 => ⟨S15000x10, .f32⟩
  | 72 => ⟨S_, .f32⟩
  | 73 => ⟨S15000x10, .f32⟩
  | 74 => ⟨S15000x10, .f32⟩
  | 75 => ⟨S15000x128, .f32⟩
  | 76 => ⟨S_, .i32⟩
  | 77 => ⟨S215000, .i32⟩
  | 78 => ⟨S215000, .i1⟩
  | 79 => ⟨S_, .i32⟩
  | 80 => ⟨S215000, .i32⟩
  | 81 => ⟨S215000, .i32⟩
  | 82 => ⟨S215000, .i32⟩
  | 83 => ⟨S215000x1, .i32⟩
  | 84 => ⟨S215000x128, .f32⟩
  | 85 => ⟨S215000x1, .f32⟩
  | 86 => ⟨S215000x128, .f32⟩
  | 87 => ⟨S215000x128, .f32⟩
  | 88 => ⟨S_, .f32⟩
  | 89 => ⟨S15000x128, .f32⟩
  | 90 => ⟨S215000x1, .i32⟩
  | 91 => ⟨S15000x128, .f32⟩
  | 92 => ⟨S1x128, .f32⟩
  | 93 => ⟨S15000x128, .f32⟩
  | 94 => ⟨S15000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x1, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x128, .f32⟩
  | 117 => ⟨S100000x1024, .f32⟩
  | 118 => ⟨S1024x512, .f32⟩
  | 119 => ⟨S100000x512, .f32⟩
  | 120 => ⟨S512, .f32⟩
  | 121 => ⟨S1x512, .f32⟩
  | 122 => ⟨S100000x512, .f32⟩
  | 123 => ⟨S100000x512, .f32⟩
  | 124 => ⟨S100000x128, .f32⟩
  | 125 => ⟨S100000x128, .f32⟩
  | 126 => ⟨S100000x128, .f32⟩
  | 127 => ⟨S100000x128, .f32⟩
  | _ => ⟨S15000x768, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | _ => ⟨S15000x768, .f32⟩

abbrev hbmTy (i : Nat) : BufTy := match i / 128 with
  | 0 => hbmTy0_0 i
  | 1 => hbmTy0_1 i
  | _ => ⟨S15000x768, .f32⟩

abbrev bufTy : (tb : Table) → Fin (tcTables nBuf tb) → BufTy
  | .hbm, ⟨i, _⟩ => hbmTy i
  | _, _ => ⟨S15000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_16 : Ref sig .tc := ⟨.hbm, 130, rfl⟩
abbrev main_v96 : Ref sig .tc := ⟨.hbm, 131, rfl⟩
abbrev main_v97 : Ref sig .tc := ⟨.hbm, 132, rfl⟩
abbrev main_cst_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S15000_S215000_d0 : Shape.Concatenates [S200000, S15000] S215000 0
  slices_S2x200000_S1x200000_1_0 : S2x200000.Slices ![1, 0] S1x200000
  bcast_S_S215000 : S_.BroadcastsInDim S215000 (![] : Fin 0 → Fin S215000.rank)
  bcast_S_S15000 : S_.BroadcastsInDim S15000 (![] : Fin 0 → Fin S15000.rank)
  bcast_S215000_S215000x1_0 : S215000.BroadcastsInDim S215000x1 (![0] : Fin 1 → Fin S215000x1.rank)
  bcast_S215000x1_S215000x10_0_1 : S215000x1.BroadcastsInDim S215000x10 (![0, 1] : Fin 2 → Fin S215000x10.rank)
  bcast_S_S15000x10 : S_.BroadcastsInDim S15000x10 (![] : Fin 0 → Fin S15000x10.rank)
  bcast_S10_S1x10_1 : S10.BroadcastsInDim S1x10 (![1] : Fin 1 → Fin S1x10.rank)
  bcast_S1x10_S15000x10_0_1 : S1x10.BroadcastsInDim S15000x10 (![0, 1] : Fin 2 → Fin S15000x10.rank)
  bcast_S215000x1_S215000x128_0_1 : S215000x1.BroadcastsInDim S215000x128 (![0, 1] : Fin 2 → Fin S215000x128.rank)
  bcast_S_S15000x128 : S_.BroadcastsInDim S15000x128 (![] : Fin 0 → Fin S15000x128.rank)
  bcast_S128_S1x128_1 : S128.BroadcastsInDim S1x128 (![1] : Fin 1 → Fin S1x128.rank)
  bcast_S1x128_S15000x128_0_1 : S1x128.BroadcastsInDim S15000x128 (![0, 1] : Fin 2 → Fin S15000x128.rank)
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_2 : S100000x3.Slices ![0, 2] S100000x1
  concatenates_S100000x128_S100000x768_S100000x128_S100000x1024_d1 : Shape.Concatenates [S100000x128, S100000x768, S100000x128] S100000x1024 1
  transposes_S512x1024_S1024x512_1_0 : S512x1024.Transposes [1, 0] S1024x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  bcast_S_S100000x128 : S_.BroadcastsInDim S100000x128 (![] : Fin 0 → Fin S100000x128.rank)
  reducesTo_S100000x128_S100000_d1 : S100000x128.ReducesTo [1] S100000
  h_S_ : 0 < S_.numel
  scatter_S15000_S215000x1_S215000_n_0_0_1_wf : ScatterDims.WF S15000 S215000x1 S215000 [] [0] [0] 1
  gather_S15000_S215000x1_S215000_n_0_n_n_0_1_1_wf : GatherDims.WF S15000 S215000x1 S215000 [] [0] [] [0] [] 1 ![1]
  dot_S15000x768_S768x10_S15000x10_1_0_0_1_n_n_wf : DotDims.WF S15000x768 S768x10 S15000x10 [1] [0] [0] [1] [] []
  gather_S15000x10_S215000x1_S215000x10_1_0_n_n_0_1_110_wf : GatherDims.WF S15000x10 S215000x1 S215000x10 [1] [0] [] [0] [] 1 ![1, 10]
  scatter_S15000x10_S215000x1_S215000x10_1_0_0_1_wf : ScatterDims.WF S15000x10 S215000x1 S215000x10 [1] [0] [0] 1
  dot_S15000x10_S10x128_S15000x128_1_0_0_1_n_n_wf : DotDims.WF S15000x10 S10x128 S15000x128 [1] [0] [0] [1] [] []
  gather_S15000x128_S215000x1_S215000x128_1_0_n_n_0_1_1128_wf : GatherDims.WF S15000x128 S215000x1 S215000x128 [1] [0] [] [0] [] 1 ![1, 128]
  scatter_S15000x128_S215000x1_S215000x128_1_0_0_1_wf : ScatterDims.WF S15000x128 S215000x1 S215000x128 [1] [0] [0] 1
  gather_S15000x128_S100000x1_S100000x128_1_0_n_n_0_1_1128_wf : GatherDims.WF S15000x128 S100000x1 S100000x128 [1] [0] [] [0] [] 1 ![1, 128]
  dot_S100000x1024_S1024x512_S100000x512_1_0_0_1_n_n_wf : DotDims.WF S100000x1024 S1024x512 S100000x512 [1] [0] [0] [1] [] []

variable [Facts₀]

def scatter_S15000_S215000x1_S215000_n_0_0_1 : ScatterDims S15000 S215000x1 S215000 where
  updateWindowDims := []
  insertedWindowDims := [0]
  scatterDimsToOperandDims := [0]
  indexVectorDim := 1
  wf := scatter_S15000_S215000x1_S215000_n_0_0_1_wf
def gather_S15000_S215000x1_S215000_n_0_n_n_0_1_1 : GatherDims S15000 S215000x1 S215000 where
  offsetDims := []
  collapsedSliceDims := [0]
  operandBatchingDims := []
  startIndicesBatchingDims := []
  startIndexMap := [0]
  indexVectorDim := 1
  sliceSizes := ![1]
  wf := gather_S15000_S215000x1_S215000_n_0_n_n_0_1_1_wf
def dot_S15000x768_S768x10_S15000x10_1_0_0_1_n_n : DotDims S15000x768 S768x10 S15000x10 where
  lhsContracting := [1]
  rhsContracting := [0]
  lhsNonContracting := [0]
  rhsNonContracting := [1]
  lhsBatch := []
  rhsBatch := []
  wf := dot_S15000x768_S768x10_S15000x10_1_0_0_1_n_n_wf
def gather_S15000x10_S215000x1_S215000x10_1_0_n_n_0_1_110 : GatherDims S15000x10 S215000x1 S215000x10 where
  offsetDims := [1]
  collapsedSliceDims := [0]
  operandBatchingDims := []
  startIndicesBatchingDims := []
  startIndexMap := [0]
  indexVectorDim := 1
  sliceSizes := ![1, 10]
  wf := gather_S15000x10_S215000x1_S215000x10_1_0_n_n_0_1_110_wf
def scatter_S15000x10_S215000x1_S215000x10_1_0_0_1 : ScatterDims S15000x10 S215000x1 S215000x10 where
  updateWindowDims := [1]
  insertedWindowDims := [0]
  scatterDimsToOperandDims := [0]
  indexVectorDim := 1
  wf := scatter_S15000x10_S215000x1_S215000x10_1_0_0_1_wf
def dot_S15000x10_S10x128_S15000x128_1_0_0_1_n_n : DotDims S15000x10 S10x128 S15000x128 where
  lhsContracting := [1]
  rhsContracting := [0]
  lhsNonContracting := [0]
  rhsNonContracting := [1]
  lhsBatch := []
  rhsBatch := []
  wf := dot_S15000x10_S10x128_S15000x128_1_0_0_1_n_n_wf
def gather_S15000x128_S215000x1_S215000x128_1_0_n_n_0_1_1128 : GatherDims S15000x128 S215000x1 S215000x128 where
  offsetDims := [1]
  collapsedSliceDims := [0]
  operandBatchingDims := []
  startIndicesBatchingDims := []
  startIndexMap := [0]
  indexVectorDim := 1
  sliceSizes := ![1, 128]
  wf := gather_S15000x128_S215000x1_S215000x128_1_0_n_n_0_1_1128_wf
def scatter_S15000x128_S215000x1_S215000x128_1_0_0_1 : ScatterDims S15000x128 S215000x1 S215000x128 where
  updateWindowDims := [1]
  insertedWindowDims := [0]
  scatterDimsToOperandDims := [0]
  indexVectorDim := 1
  wf := scatter_S15000x128_S215000x1_S215000x128_1_0_0_1_wf
def gather_S15000x128_S100000x1_S100000x128_1_0_n_n_0_1_1128 : GatherDims S15000x128 S100000x1 S100000x128 where
  offsetDims := [1]
  collapsedSliceDims := [0]
  operandBatchingDims := []
  startIndicesBatchingDims := []
  startIndexMap := [0]
  indexVectorDim := 1
  sliceSizes := ![1, 128]
  wf := gather_S15000x128_S100000x1_S100000x128_1_0_n_n_0_1_1128_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf

class Facts : Prop extends Facts₀ where

variable [Facts]
-- ==== Proof.KRegionData.lean ====
/-
  What each of the three kernel regions leaves behind, as data the launch theorems take.

  Every region's body is: load each input window's staging buffer whole, compute ONE value from those
  loads, store it whole into the output window's staging buffer. So after the body at grid point `t` an
  input window's buffer holds its block of the array, and the output window's buffer holds that one value
  computed from the input blocks. The arrays are taken at a parameter `V`: the buffers' contents when the
  region is entered.

  Regions 0 and 1 are row-blocked dense products ([1000,768]·[768,10] and [1000,10]·[10,128] per point,
  fifteen points, the blocks tiling the arrays). Region 2 scores 2048 rows per point over 49 points, and
  49·2048 = 100352 > 100000: the last block of the three row-blocked inputs and of the output overhangs the
  array, so only its first 1696 rows are moved. For those windows what is stated is the block's part inside
  the array, laid into the buffer's leading rows, the remaining rows filled with the zero word (a filler
  nothing reads: the obligations speak of the moved part only).
-/
import proofs.«117671_j50156628082716_2_alg».proof.Proof.Gen.Kernel.Launch
import proofs.«117671_j50156628082716_2_alg».proof.Proof.Gen.Kernel.Skeleton
import proofs.«117671_j50156628082716_2_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## Region 0: rows of `x · W1` -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: after the body at point `t` the two input buffers hold their blocks (a thousand rows of
    `x`; all of `W1`) and the output buffer the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## Region 1: rows of `agg · W2` -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

/-! ## Region 2: the score of 2048 triples per point -/

/-- Window `w`'s block at point `t` — its part inside the array — as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The head rows' block laid into its 2048-row buffer, zero past the array's end. -/
def hblk (c : Dev nD) (t : Fin cfg2.N) : S2048x128.Idx → Elt F .bf16 :=
  win2_0.fill (grid2.coords t) (fun _ => Scalar.ofBits .bf16 0#16) (iblk2 V c 0 t)
/-- The relation rows' block, likewise. -/
def rblk (c : Dev nD) (t : Fin cfg2.N) : S2048x768.Idx → Elt F .f32 :=
  win2_1.fill (grid2.coords t) (fun _ => Scalar.ofBits .f32 0#32) (iblk2 V c 1 t)
/-- The tail rows' block, likewise. -/
def tblk (c : Dev nD) (t : Fin cfg2.N) : S2048x128.Idx → Elt F .bf16 :=
  win2_2.fill (grid2.coords t) (fun _ => Scalar.ofBits .bf16 0#16) (iblk2 V c 2 t)

/-- The scores the body computes at point `t` from those blocks and the (whole, unblocked) weights and bias. -/
def sblk (c : Dev nD) (t : Fin cfg2.N) : S2048.Idx → Elt F .f32 :=
  k2_pay1 (hblk V c t) (rblk V c t) (tblk V c t) (iblk2 V c 3 t) (iblk2 V c 4 t) (iblk2 V c 5 t) (iblk2 V c 6 t)

/-- Region 2's proof data. -/
def dat2 (c : Dev nD) : Dat τ (Elt F) Unit ℕ (UR sig nD τ) ℕ cfg2 c where
  A w := V c (Pipeline.arrRef spec2 w)
  after w t := match w with
    | ⟨0, _⟩ => hblk V c t
    | ⟨1, _⟩ => rblk V c t
    | ⟨2, _⟩ => tblk V c t
    | ⟨3, _⟩ => iblk2 V c 3 t
    | ⟨4, _⟩ => iblk2 V c 4 t
    | ⟨5, _⟩ => iblk2 V c 5 t
    | ⟨6, _⟩ => iblk2 V c 6 t
    | ⟨7, _⟩ => sblk V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = hblk V c t := by dsimp only [dat2]
theorem after2_1 (c : Dev nD) (t : Fin cfg2.N) : (dat2 V c).after 1 t = rblk V c t := by dsimp only [dat2]
theorem after2_2 (c : Dev nD) (t : Fin cfg2.N) : (dat2 V c).after 2 t = tblk V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = sblk V c t := by dsimp only [dat2]

end Cert.Kernel.Hand

end
-- ==== Proof.KVals.lean ====
/-
  The frame of the word-level program, first part: the buffers' contents between @main's items.

  The frame is proved over the launch kit's segments and RELATIONAL proof data.

  Regions 0 and 1 are row-blocked dense products whose blocks tile their arrays: their proof data name what the
  body leaves in every buffer, and are read relationally as they stand. Region 2's row blocks overhang the arrays
  (49 blocks of 2048 rows over 100000 rows): the rows of a buffer past the array's end hold words nothing names,
  and at the word level nothing says an output row depends on its own input row alone, so the contents of the
  output window's buffer cannot be named. Its relation is therefore FORGOTTEN: the body is handed that buffer at
  any contents and hands it back at any contents. Region 2 is the last item of @main, so what it leaves in its
  output array stays existential in the last thread state; the twelve arguments are read back all the same,
  no item writing one.
-/
import proofs.«117671_j50156628082716_2_alg».proof.Proof.KRegionData
import proofs.«117671_j50156628082716_2_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## Forgotten windows at a region's exit -/

/-- The arrays of exact proof data read with some windows forgotten, after the write-backs below `n`: each is at
    SOME contents, which for a window not forgotten are the ones the data names. -/
theorem arraysAt_forget {cfg : Cfg sig Λ₀} {c : Dev nD} (dat : Dat τ (Elt F) Unit ℕ (UR sig nD τ) ℕ cfg c)
    (fgt : Fin cfg.W → Bool) (n : Nat) :
    ((dat.toRForget fgt).arraysAt n : sProp 𝕄)
      ⊢ iprop(∃ G : (w : Fin cfg.W) → {X : Buf (Elt F) ((cfg.win w).arr.view.loc (c.tc : Thread nD τ)) // fgt w = false → X = dat.arrAt w n},
          dat.arrays fun w => (G w).1) := by
  haveI : ∀ w : Fin cfg.W, Nonempty {X : Buf (Elt F) ((cfg.win w).arr.view.loc (c.tc : Thread nD τ)) // fgt w = false → X = dat.arrAt w n} :=
    fun w => ⟨⟨dat.arrAt w n, fun _ => rfl⟩⟩
  unfold RDat.arraysAt Dat.arrays
  refine (BI.bigSep_mono fun w _ => ?_).trans (bigSep_exists_pi Finset.univ
    (fun w (y : {X : Buf (Elt F) ((cfg.win w).arr.view.loc (c.tc : Thread nD τ)) // fgt w = false → X = dat.arrAt w n}) =>
      ((cfg.win w).arr.view.loc (c.tc : Thread nD τ) ↦[(cfg.win w).arr.view.set]{dat.share w} y.1 : sProp 𝕄)))
  show iprop(∃ X, ⌜(dat.toRForget fgt).ArrAt w n X⌝ ∗ (cfg.win w).arr.view.loc (c.tc : Thread nD τ) ↦[(cfg.win w).arr.view.set]{(dat.toRForget fgt).share w} X)
      ⊢ (iprop(∃ y : {X : Buf (Elt F) ((cfg.win w).arr.view.loc (c.tc : Thread nD τ)) // fgt w = false → X = dat.arrAt w n},
          (cfg.win w).arr.view.loc (c.tc : Thread nD τ) ↦[(cfg.win w).arr.view.set]{dat.share w} y.1) : sProp 𝕄)
  iintro ⟨%X, %hX, H⟩
  iexists ⟨X, fun h => (dat.toRForget_arrAt_iff h n X).mp hX⟩
  iexact H

/-! ## The buffers' contents between items

The generated valuations `Gen.VJ` are written over unknowns `outs`: what a region leaves in its output array.
Regions 0 and 1 leave what their write-backs fold to (`Dat.arrAt … N`); each region's proof data is taken at the
contents the region is entered from, so the unknowns are fixed in two stages. -/

variable (m : (ℓ : Loc nD τ sig) → Buf (Elt F) ℓ) (ρ : Dev nD → PrngReg)

/-- Core `c`'s buffers when region 0 is entered, at the TensorCore's references. -/
abbrev V3r : (c : Dev nD) → (b : Ref sig .tc) → Buf (Elt F) ((c : Thread nD τ).loc b) := fun c b => V3 m c b

/-- What region 0 leaves: its arrays at what the write-backs leave, every other buffer as entered. -/
def out0 (c : Dev nD) : Valuation τ sig (Elt F) :=
  Pipeline.withArrays spec0 c (V3 m c) fun w => (dat0 (V3r m) c).arrAt w cfg0.N

theorem out0_arr (c : Dev nD) (w : Fin cfg0.W) :
    out0 m c (Proc.devRef .tc (Pipeline.arrRef spec0 w)) = (dat0 (V3r m) c).arrAt w cfg0.N := by
  unfold out0; exact Pipeline.withArrays_arr spec0 launch0.win.arr_inj c _ _ w

/-- The unknowns, first stage: region 0's output fixed. -/
def outsA : Outs (F := F) := fun _ r c => out0 m c r

/-- Core `c`'s buffers when region 1 is entered. -/
abbrev V7r : (c : Dev nD) → (b : Ref sig .tc) → Buf (Elt F) ((c : Thread nD τ).loc b) := fun c b => V7 m (outsA m) c b

/-- What region 1 leaves. -/
def out1 (c : Dev nD) : Valuation τ sig (Elt F) :=
  Pipeline.withArrays spec1 c (V7 m (outsA m) c) fun w => (dat1 (V7r m) c).arrAt w cfg1.N

theorem out1_arr (c : Dev nD) (w : Fin cfg1.W) :
    out1 m c (Proc.devRef .tc (Pipeline.arrRef spec1 w)) = (dat1 (V7r m) c).arrAt w cfg1.N := by
  unfold out1; exact Pipeline.withArrays_arr spec1 launch1.win.arr_inj c _ _ w

/-- The unknowns: region 0's output after item 3, region 1's after item 7 (region 2's is not named). -/
def outs : Outs (F := F) := fun J r c => if J = 4 then out0 m c r else out1 m c r

theorem outs_4 (r : Ref sig .tc) (c : Dev nD) : outs m 4 r c = out0 m c r := rfl
theorem outs_8 (r : Ref sig .tc) (c : Dev nD) : outs m 8 r c = out1 m c r := rfl
theorem V4_outs (c : Dev nD) : V4 m (outs m) c = V4 m (outsA m) c := rfl
theorem V7_outs (c : Dev nD) : V7 m (outs m) c = V7 m (outsA m) c := rfl

/-- Core `c`'s buffers when region 0 is left, -/
abbrev V4r : (c : Dev nD) → (b : Ref sig .tc) → Buf (Elt F) ((c : Thread nD τ).loc b) := fun c b => V4 m (outs m) c b
/-- when region 1 is left, -/
abbrev V8r : (c : Dev nD) → (b : Ref sig .tc) → Buf (Elt F) ((c : Thread nD τ).loc b) := fun c b => V8 m (outs m) c b
/-- and when region 2 is entered. -/
abbrev V9r : (c : Dev nD) → (b : Ref sig .tc) → Buf (Elt F) ((c : Thread nD τ).loc b) := fun c b => V9 m (outs m) c b

/-- Core `c`'s buffers when region 2 is left, its output array at contents `o`. -/
abbrev Vend (c : Dev nD) (o : Buf (Elt F) ((c : Thread nD τ).loc main_v92)) : Valuation τ sig (Elt F) :=
  Function.update (V9 m (outs m) c) main_v92 o

theorem Vend_of (c : Dev nD) (o : Buf (Elt F) ((c : Thread nD τ).loc main_v92)) (r : Ref sig .tc)
    (h : r ∉ ([main_v92] : List (Ref sig .tc))) : Vend m c o r = V9 m (outs m) c r := by
  simp only [Vend, Function.update_of_ne (StableHlo.devRef_ne_of_ne (List.ne_of_not_mem_cons h) : (Proc.devRef .tc r : DevRef τ sig) ≠ Proc.devRef .tc main_v92)]

/-- An argument is as launched in the last valuation, whatever region 2 left in its output. -/
theorem Vend_arg (c : Dev nD) (o : Buf (Elt F) ((c : Thread nD τ).loc main_v92)) (r : Ref sig .tc)
    (h : r ∉ ([main_v92] : List (Ref sig .tc))) (hr : V10 m (outs m) c r = m ((c : Thread nD τ).loc r)) :
    Vend m c o r = m ((c : Thread nD τ).loc r) :=
  (Vend_of m c o r h).trans ((V10_of m (outs m) c r h).symm.trans hr)

/-! ### Each region's exit contents against its entry contents -/

theorem hF0 (c : Dev nD) : ∀ w : Fin 3, (dat0 (V3r m) c).arrAt w cfg0.N = V4r m c (Pipeline.arrRef spec0 w)
  | 0 => ((dat0 (V3r m) c).arrAt_in 0 rfl _).trans ((A_eq0 (V3r m) c 0).trans (V4_of m (outs m) c main_arg0 (by decide)).symm)
  | 1 => ((dat0 (V3r m) c).arrAt_in 1 rfl _).trans ((A_eq0 (V3r m) c 1).trans (V4_of m (outs m) c main_arg2 (by decide)).symm)
  | 2 => by
    show _ = Function.update (V3 m c) (Proc.devRef .tc main_v30) (out0 m c main_v30) (Proc.devRef .tc main_v30)
    rw [Function.update_self]
    exact (out0_arr m c 2).symm
  | ⟨_ + 3, h⟩ => absurd h (Nat.not_lt.2 (Nat.le_add_left _ _))

theorem hrest0 (c : Dev nD) : ∀ b, b ∉ Finset.univ.image (Pipeline.arrRef spec0) → V4r m c b = V3r m c b :=
  fun b hb => V4_of m (outs m) c b fun h =>
    hb (Finset.mem_image.mpr ⟨2, Finset.mem_univ _, (List.mem_singleton.mp h).symm⟩)

theorem hF1 (c : Dev nD) : ∀ w : Fin 3, (dat1 (V7r m) c).arrAt w cfg1.N = V8r m c (Pipeline.arrRef spec1 w)
  | 0 => ((dat1 (V7r m) c).arrAt_in 0 rfl _).trans ((A_eq1 (V7r m) c 0).trans
      ((V8_of m (outs m) c main_v60 (by decide)).trans (congrFun (V7_outs m c) _)).symm)
  | 1 => ((dat1 (V7r m) c).arrAt_in 1 rfl _).trans ((A_eq1 (V7r m) c 1).trans
      ((V8_of m (outs m) c main_arg4 (by decide)).trans (congrFun (V7_outs m c) _)).symm)
  | 2 => by
    show _ = Function.update (V7 m (outs m) c) (Proc.devRef .tc main_v61) (out1 m c main_v61) (Proc.devRef .tc main_v61)
    rw [Function.update_self]
    exact (out1_arr m c 2).symm
  | ⟨_ + 3, h⟩ => absurd h (Nat.not_lt.2 (Nat.le_add_left _ _))

theorem hrest1 (c : Dev nD) : ∀ b, b ∉ Finset.univ.image (Pipeline.arrRef spec1) → V8r m c b = V7r m c b :=
  fun b hb => (V8_of m (outs m) c b fun h =>
    hb (Finset.mem_image.mpr ⟨2, Finset.mem_univ _, (List.mem_singleton.mp h).symm⟩)).trans (congrFun (V7_outs m c) _)

/-- An input window's array of region 2 ends as the region found it, whatever the output array holds. -/
theorem hF2_in (c : Dev nD) (o : Buf (Elt F) ((c : Thread nD τ).loc main_v92)) (w : Fin cfg2.W) (hin : (cfg2.win w).isOut = false)
    (X : Buf (Elt F) ((cfg2.win w).arr.view.loc (c.tc : Thread nD τ))) (hX : X = (dat2 (V9r m) c).arrAt w cfg2.N)
    (hne : Pipeline.arrRef spec2 w ∉ ([main_v92] : List (Ref sig .tc))) : X = Vend m c o (Pipeline.arrRef spec2 w) :=
  hX.trans (((dat2 (V9r m) c).arrAt_in w hin _).trans ((A_eq2 (V9r m) c w).trans (Vend_of m c o _ hne).symm))

theorem hF2_out (c : Dev nD) (o : Buf (Elt F) ((c : Thread nD τ).loc main_v92)) : o = Vend m c o main_v92 := by
  show _ = Function.update (V9 m (outs m) c) (Proc.devRef .tc main_v92) o (Proc.devRef .tc main_v92)
  rw [Function.update_self]

set_option maxHeartbeats 1000000 in
theorem hF2 (c : Dev nD)
    (G : (w : Fin cfg2.W) → {X : Buf (Elt F) ((cfg2.win w).arr.view.loc (c.tc : Thread nD τ)) // (fun w : Fin cfg2.W => decide (w = 7)) w = false → X = (dat2 (V9r m) c).arrAt w cfg2.N}) :
    ∀ w : Fin 8, (G w).1 = Vend m c (G 7).1 (Pipeline.arrRef spec2 w)
  | 0 => hF2_in m c _ 0 rfl _ ((G 0).2 (by decide)) (by decide)
  | 1 => hF2_in m c _ 1 rfl _ ((G 1).2 (by decide)) (by decide)
  | 2 => hF2_in m c _ 2 rfl _ ((G 2).2 (by decide)) (by decide)
  | 3 => hF2_in m c _ 3 rfl _ ((G 3).2 (by decide)) (by decide)
  | 4 => hF2_in m c _ 4 rfl _ ((G 4).2 (by decide)) (by decide)
  | 5 => hF2_in m c _ 5 rfl _ ((G 5).2 (by decide)) (by decide)
  | 6 => hF2_in m c _ 6 rfl _ ((G 6).2 (by decide)) (by decide)
  | 7 => hF2_out m c (G 7).1
  | ⟨_ + 8, h⟩ => absurd h (Nat.not_lt.2 (Nat.le_add_left _ _))

theorem hrest2 (c : Dev nD) (o : Buf (Elt F) ((c : Thread nD τ).loc main_v92)) :
    ∀ b, b ∉ Finset.univ.image (Pipeline.arrRef spec2) → Vend m c o b = V9r m c b :=
  fun b hb => Vend_of m c o b fun h =>
    hb (Finset.mem_image.mpr ⟨7, Finset.mem_univ _, (List.mem_singleton.mp h).symm⟩)

end Cert.Kernel.Hand

end
-- ==== Proof.KSegs.lean ====
/-
  The frame of the word-level program, second part: the three kernel regions as the launch kit's segments over
  RELATIONAL proof data.

  Regions 0 and 1 are row-blocked dense products whose blocks tile their arrays: their proof data name what the
  body leaves in every buffer, and are read relationally as they stand. Region 2's row blocks overhang the arrays
  (49 blocks of 2048 rows over 100000 rows): the rows of a buffer past the array's end hold words nothing names,
  and at the word level nothing says an output row depends on its own input row alone, so the contents of the
  output window's buffer cannot be named. Its relation is therefore FORGOTTEN: the body is handed that buffer at
  any contents and hands it back at any contents. Region 2 is the last item of @main, so what it leaves in its
  output array stays existential in the last thread state.
-/
import proofs.«117671_j50156628082716_2_alg».proof.Proof.KVals

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data families and the thread state -/

/-- Every pipeline's exact proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V7r m) c
  | ⟨2, _⟩ => fun c => dat2 (V9r m) c

/-- The same read relationally — a literal `match`, so that the kit's `Pipeline.pin pcfgs adm p` at a numeral reduces to
    the printed configuration —, region 2's output window forgotten. -/
def rdats : (p : Fin 3) → (c : Dev nD) → RDat τ (Elt F) Unit ℕ (UR sig nD τ) ℕ (Pipeline.pin (pcfgs (F := F)) adm p) c
  | ⟨0, _⟩ => fun c => (dat0 (V3r m) c).toR
  | ⟨1, _⟩ => fun c => (dat1 (V7r m) c).toR
  | ⟨2, _⟩ => fun c => (dat2 (V9r m) c).toRForget (fun w => decide (w = 7))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- The rest state the generated host segments carry, the same between any two items. -/
abbrev E : Fin 4 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, region 2's output array at SOME
    contents; the generator register at some state. -/
abbrev Tₙ (c : Dev nD) : sProp 𝕄 :=
  iprop((∃ o : Buf (Elt F) ((c : Thread nD τ).loc main_v92), StableHlo.held (c : Thread nD τ) (Pipeline.ucRefs τ sig) (Vend m c o)) ∗ ∃ r, prngReg c r)

/-! ## The regions as segments -/

-- a library lemma stated over `pin pcs a p` unifies with the pinned configuration only when unification may unfold
-- plain definitions in a metavariable's type
set_option backward.isDefEq.respectTransparency.types false in
/-- REGION 0 over the thread state: its arrays split out of the unscoped buffers at entry and put back at the exit
    contents; the generator register into the class invariant and out; nothing owed; no semaphore of the kernel's own. -/
def reg0 (hb : ∀ c, BodyObligation (dat0 (F := F) (V3r m) c) (defs₀ (F := F)) Variants.none () Set.univ) :
    Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (hb c).toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    rw [show (rdats m 0 c).arraysAt (Pipeline.pin (pcfgs (F := F)) adm 0).N = (pdats m 0 c).arrays ((pdats m 0 c).arrAt · cfg0.N)
      from (dat0 (V3r m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 over the thread state: its arrays split out of the unscoped buffers at entry and put back at the exit
    contents; the generator register into the class invariant and out; nothing owed; no semaphore of the kernel's own. -/
def reg1 (hb : ∀ c, BodyObligation (dat1 (F := F) (V7r m) c) (defs₀ (F := F)) Variants.none () Set.univ) :
    Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (hb c).toR
  hwaits := Pipeline.RDat.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V7r m c)
  hentry c := by
    rw [V7_outs m c]
    rw [Pipeline.ownSems0_none]
    have hsplit := Pipeline.RDat.arrays_of_unscopedBufs (p := 1) (pcfgs (F := F)) adm (rdats m) launch1.win launch1.arr_whole c
      ((rdats m 1 c).share_full fun _ => rfl) (V7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7r m c) (V8r m c) ((pdats m 1 c).arrAt · cfg1.N) (hF1 m c) (hrest1 m c)
    rw [Pipeline.unscopedBufs_held] at hjoin
    rw [show (rdats m 1 c).arraysAt (Pipeline.pin (pcfgs (F := F)) adm 1).N = (pdats m 1 c).arrays ((pdats m 1 c).arrAt · cfg1.N)
      from (dat1 (V7r m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 over the thread state: its arrays split out of the unscoped buffers at entry and put back at the exit
    contents; the generator register into the class invariant and out; nothing owed; no semaphore of the kernel's own. -/
def reg2 (hb : ∀ c, BodyObligationLoose (dat2 (F := F) (V9r m) c) (defs₀ (F := F)) Variants.none () Set.univ (fun w => decide (w = 7))) :
    Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (hb c).toRForget
  hwaits := Pipeline.RDat.hwaits_of_owed_zero _ _ _ _ L lv 2 fun _ _ => rfl
  pre c := iprop(StableHlo.held (c : Thread nD τ) (Pipeline.ucRefs τ sig) (V9 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9r m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [show (rdats m 2 c).arraysAt (Pipeline.pin (pcfgs (F := F)) adm 2).N
      = ((dat2 (V9r m) c).toRForget fun w => decide (w = 7)).arraysAt cfg2.N from rfl]
    iintro ⟨Ha, HO, HY, Hrest⟩
    ihave H := (arraysAt_forget (dat2 (V9r m) c) (fun w => decide (w = 7)) cfg2.N) $$ Ha
    icases H with ⟨%G, Ha⟩
    have hjoin : iprop((dat2 (V9r m) c).arrays (fun w => (G w).1)
          ∗ Pipeline.unscopedRest (Ix := Unit) (Name := ℕ) (U := UR sig nD τ) (Lvl := ℕ) spec2 c (V9r m c))
        ⊢ (unscopedBufs c (fun b => Vend m c (G 7).1 b) : sProp 𝕄) :=
      Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (V9r m c) (fun b => Vend m c (G 7).1 b) (fun w => (G w).1) (hF2 m c G) (hrest2 m c (G 7).1)
    rw [Pipeline.unscopedBufs_held] at hjoin
    imodintro
    isplitl [Ha Hrest HY]
    · isplitl [Ha Hrest]
      · iexists (G 7).1
        iapply hjoin; isplitl [Ha] <;> iassumption
      iexact HY
    unfold Pipeline.RDat.owesAt Pipeline.owesWithin
    icases HO with ⟨%W, -, HO⟩; iexists W; iexact HO

end Cert.Kernel.Hand

end
-- ==== Proof.KRun.lean ====
/-
  The frame of the word-level program, third part: @main as the launch kit's segments and the launch, given the three
  kernel bodies' obligations.

  The last thread state keeps region 2's output array at SOME contents; the twelve arguments are read back all the
  same, no item of @main writing one.
-/
import proofs.«117671_j50156628082716_2_alg».proof.Proof.KSegs

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

section Run

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligationLoose (dat2 (F := F) V c) (defs₀ (F := F)) Variants.none () Set.univ (fun w => decide (w = 7)))

/-- @main's ten items in order: the generated host segments from their boundaries' contents, a region per pallas_call. -/
abbrev segs : List (Pipeline.RDat.Seg (pcfgs (F := F)) adm (rdats m) () defs₀ 𝒱₀ L lv) :=
  [ .host (seg0 m 𝒱₀ L lv E), .host (seg1 m 𝒱₀ L lv E), .host (seg2 m 𝒱₀ L lv E),
    .region (reg0 m fun c => hb0 (V3r m) c),
    .host (seg4 m (outs m) 𝒱₀ L lv E), .host (seg5 m (outs m) 𝒱₀ L lv E), .host (seg6 m (outs m) 𝒱₀ L lv E),
    .region (reg1 m fun c => hb1 (V7r m) c),
    .host (seg8 m (outs m) 𝒱₀ L lv E),
    .region (reg2 m fun c => hb2 (V9r m) c) ]

include hb0 hb1 hb2 in
-- the kit's implicit arguments are found by unifying its conclusion with this one, which takes unfolding plain
-- definitions in a metavariable's type
set_option backward.isDefEq.respectTransparency.types false in
/-- THE FRAME, given the three body obligations: from any memory with zero counters every weakly fair execution of
    @main terminates, nothing faulting, and every final memory holds each argument as launched. -/
theorem frame_of : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.RDat.θ_run_regions_kit_dev (pcfgs (F := F)) adm (rdats m) () cellOf_inj emb₁ defs₀ 𝒱₀ L lv m ρ main
    (fun _ => segs m hb0 hb1 hb2)
    (fun c Q => by
      rewrite [main_chain c, Pipeline.RDat.Seg.run_eq_chain,
        show (segs m hb0 hb1 hb2).map Pipeline.RDat.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => by
      iintro ⟨⟨⟨%o, Hh⟩, -⟩, HSI⟩
      unfold StableHlo.held
      ihave Hr := (pointsTo_read_all (Pipeline.ucRefs τ sig) (fun b => ((c : Thread nD τ).1, b)) (Vend m c o) s') $$ [Hh HSI]
      · isplitl [Hh] <;> iassumption
      icases Hr with ⟨%h, HSI⟩
      imodintro
      isplitr
      · ipureintro
        exact ⟨(h (Proc.devRef .tc main_arg0) (mem_uc main_arg0 (by decide))).trans (Vend_arg m c o main_arg0 (by decide) (V10_main_arg0 m (outs m) c)),
        (h (Proc.devRef .tc main_arg1) (mem_uc main_arg1 (by decide))).trans (Vend_arg m c o main_arg1 (by decide) (V10_main_arg1 m (outs m) c)),
        (h (Proc.devRef .tc main_arg2) (mem_uc main_arg2 (by decide))).trans (Vend_arg m c o main_arg2 (by decide) (V10_main_arg2 m (outs m) c)),
        (h (Proc.devRef .tc main_arg3) (mem_uc main_arg3 (by decide))).trans (Vend_arg m c o main_arg3 (by decide) (V10_main_arg3 m (outs m) c)),
        (h (Proc.devRef .tc main_arg4) (mem_uc main_arg4 (by decide))).trans (Vend_arg m c o main_arg4 (by decide) (V10_main_arg4 m (outs m) c)),
        (h (Proc.devRef .tc main_arg5) (mem_uc main_arg5 (by decide))).trans (Vend_arg m c o main_arg5 (by decide) (V10_main_arg5 m (outs m) c)),
        (h (Proc.devRef .tc main_arg6) (mem_uc main_arg6 (by decide))).trans (Vend_arg m c o main_arg6 (by decide) (V10_main_arg6 m (outs m) c)),
        (h (Proc.devRef .tc main_arg7) (mem_uc main_arg7 (by decide))).trans (Vend_arg m c o main_arg7 (by decide) (V10_main_arg7 m (outs m) c)),
        (h (Proc.devRef .tc main_arg8) (mem_uc main_arg8 (by decide))).trans (Vend_arg m c o main_arg8 (by decide) (V10_main_arg8 m (outs m) c)),
        (h (Proc.devRef .tc main_arg9) (mem_uc main_arg9 (by decide))).trans (Vend_arg m c o main_arg9 (by decide) (V10_main_arg9 m (outs m) c)),
        (h (Proc.devRef .tc main_arg10) (mem_uc main_arg10 (by decide))).trans (Vend_arg m c o main_arg10 (by decide) (V10_main_arg10 m (outs m) c)),
        (h (Proc.devRef .tc main_arg11) (mem_uc main_arg11 (by decide))).trans (Vend_arg m c o main_arg11 (by decide) (V10_main_arg11 m (outs m) c))⟩
      · iexact HSI)
    (hQ := fun _ h => h)

end Run

end Cert.Kernel.Hand

end
-- ==== Proof.KBody0.lean ====
/-
  Region 0: the kernel body's triple and the body obligation.

  The body loads its two input staging buffers whole, computes one value from the two loads, and stores it whole
  into the output staging buffer. A whole load reads the buffer's contents and one whole store leaves its payload,
  so after the body the output buffer holds `k0_pay1` of the two input buffers' contents. Each input buffer
  holds its block of the array at every point, fetched there or not (an unfetched window's block index has not
  moved), so the body at point `t` leaves exactly what the region's proof data state.
-/
import proofs.«117671_j50156628082716_2_alg».proof.Proof.KRegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's, likewise (it is fetched at the first point only: its block is the whole array at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses: each buffer whole -/

abbrev r0_0 : Rect S1000x768 := Rect.unit (s := S1000x768) ![0, 0] S1000x768.size inb_S1000x768_S1000x768_0_0
abbrev r0_1 : Rect S768x10 := Rect.unit (s := S768x10) ![0, 0] S768x10.size inb_S768x10_S768x10_0_0
abbrev r0_2 : Rect S1000x10 := Rect.unit (s := S1000x10) ![0, 0] S1000x10.size inb_S1000x10_S1000x10_0_0

theorem hzr0 : (![0, 0] : Fin 2 → Nat) = fun _ => 0 := funext fun a => by fin_cases a <;> rfl

/-- The output buffer after the body as the executor computes it: the one store's piece over the two loads. -/
def out0_2 (x0 : Vec F S1000x768 .f32) (x1 : Vec F S768x10 .f32) : Vec F S1000x10 .f32 :=
  View.canon [⟨r0_2, k0_pay1 (View.ld x0 r0_0) (View.ld x1 r0_1)⟩]

/-- The one store covers the buffer. -/
theorem cover0_2 (p0 : Vec F S1000x10 .f32) (y : S1000x10.Idx) :
    ∃ pc ∈ ([⟨r0_2, p0⟩] : List (View.Piece (Elt F) S1000x10 .f32)), y ∈ pc.1.set :=
  ⟨_, List.mem_singleton_self _, View.mem_set_unit_zero hzr0 inb_S1000x10_S1000x10_0_0 y⟩

/-- Whole loads read the buffers and the one whole store leaves its payload: the payload of the two buffers. -/
theorem out0_2_eq (x0 : Vec F S1000x768 .f32) (x1 : Vec F S768x10 .f32) : out0_2 x0 x1 = k0_pay1 x0 x1 := by
  unfold out0_2
  rw [View.canon_unit_zero hzr0, View.ld_unit_zero hzr0, View.ld_unit_zero hzr0]

/-! ## The body's triple -/

set_option maxHeartbeats 1000000 in
/-- The kernel body on whole staging memrefs, the inputs' at read contents `x0`, `x1` and the output's at anything,
    runs to the continuation holding the inputs' as they were and the output's at `k0_pay1 x0 x1`. -/
theorem sound_kernel0 (c : Dev nD) (E : Set ℕ) (i : grid0.Coords) (arg1 : Memref sig .tc .vmem S1000x768 .f32) (harg1 : arg1.IsWhole)
    (arg2 : Memref sig .tc .vmem S768x10 .f32) (harg2 : arg2.IsWhole) (arg3 : Memref sig .tc .vmem S1000x10 .f32) (harg3 : arg3.IsWhole)
    (x0 : Vec F S1000x768 .f32) (x1 : Vec F S768x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  rw [← out0_2_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1: the kernel body's triple and the body obligation.

  The body loads its two input staging buffers whole, computes one value from the two loads, and stores it whole
  into the output staging buffer. A whole load reads the buffer's contents and one whole store leaves its payload,
  so after the body the output buffer holds `k1_pay1` of the two input buffers' contents. Each input buffer
  holds its block of the array at every point, fetched there or not (an unfetched window's block index has not
  moved), so the body at point `t` leaves exactly what the region's proof data state.
-/
import proofs.«117671_j50156628082716_2_alg».proof.Proof.KRegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's, likewise (it is fetched at the first point only: its block is the whole array at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's accesses: each buffer whole -/

abbrev r1_0 : Rect S1000x10 := Rect.unit (s := S1000x10) ![0, 0] S1000x10.size inb_S1000x10_S1000x10_0_0
abbrev r1_1 : Rect S10x128 := Rect.unit (s := S10x128) ![0, 0] S10x128.size inb_S10x128_S10x128_0_0
abbrev r1_2 : Rect S1000x128 := Rect.unit (s := S1000x128) ![0, 0] S1000x128.size inb_S1000x128_S1000x128_0_0

theorem hzr1 : (![0, 0] : Fin 2 → Nat) = fun _ => 0 := funext fun a => by fin_cases a <;> rfl

/-- The output buffer after the body as the executor computes it: the one store's piece over the two loads. -/
def out1_2 (x0 : Vec F S1000x10 .f32) (x1 : Vec F S10x128 .f32) : Vec F S1000x128 .f32 :=
  View.canon [⟨r1_2, k1_pay1 (View.ld x0 r1_0) (View.ld x1 r1_1)⟩]

/-- The one store covers the buffer. -/
theorem cover1_2 (p0 : Vec F S1000x128 .f32) (y : S1000x128.Idx) :
    ∃ pc ∈ ([⟨r1_2, p0⟩] : List (View.Piece (Elt F) S1000x128 .f32)), y ∈ pc.1.set :=
  ⟨_, List.mem_singleton_self _, View.mem_set_unit_zero hzr1 inb_S1000x128_S1000x128_0_0 y⟩

/-- Whole loads read the buffers and the one whole store leaves its payload: the payload of the two buffers. -/
theorem out1_2_eq (x0 : Vec F S1000x10 .f32) (x1 : Vec F S10x128 .f32) : out1_2 x0 x1 = k1_pay1 x0 x1 := by
  unfold out1_2
  rw [View.canon_unit_zero hzr1, View.ld_unit_zero hzr1, View.ld_unit_zero hzr1]

/-! ## The body's triple -/

set_option maxHeartbeats 1000000 in
/-- The kernel body on whole staging memrefs, the inputs' at read contents `x0`, `x1` and the output's at anything,
    runs to the continuation holding the inputs' as they were and the output's at `k1_pay1 x0 x1`. -/
theorem sound_kernel1 (c : Dev nD) (E : Set ℕ) (i : grid1.Coords) (arg1 : Memref sig .tc .vmem S1000x10 .f32) (harg1 : arg1.IsWhole)
    (arg2 : Memref sig .tc .vmem S10x128 .f32) (harg2 : arg2.IsWhole) (arg3 : Memref sig .tc .vmem S1000x128 .f32) (harg3 : arg3.IsWhole)
    (x0 : Vec F S1000x10 .f32) (x1 : Vec F S10x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  rw [← out1_2_eq]
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2: the kernel body's triple and the body obligations.

  The body loads its seven input staging buffers whole, computes one value (2048 scores) from the seven loads, and
  stores it whole into the output staging buffer: after the body the output buffer holds `k2_pay1` of the seven
  input buffers' contents.

  The three row-blocked inputs and the output are cut at the array's end at the last point (49 · 2048 > 100000):
  a fetch fills only the buffer's leading rows, the rest holding contents `d` nothing names, and the body
  computes all 2048 rows, those from `d` too. So what the obligation states of such a window is on the moved rows
  only. For the inputs that is immediate (the body leaves them as found). For the output it needs that a row of the
  scores depends only on the same row of the three row-blocked inputs (`RowsOnly`), which holds for the real-valued
  operations only: the obligation with the output window forgotten is proved for every `F`, the full one from
  `RowsOnly`.
-/
import proofs.«117671_j50156628082716_2_alg».proof.Proof.KRegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the windows' buffers -/

/-- Window 0 is fetched at every point: its buffer holds the block on the rows the fetch moves, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
/-- Window 1 is fetched at every point: its buffer holds the block on the rows the fetch moves, `d` elsewhere. -/
theorem before2_1 (c : Dev nD) (t : Fin cfg2.N) (d) :
    (dat2 V c).before 1 t d = win2_1.fill (grid2.coords t) d (iblk2 V c 1 t) := by
  unfold Dat.before; rw [if_pos (fetch2_1 t)]; rfl
/-- Window 2 is fetched at every point: its buffer holds the block on the rows the fetch moves, `d` elsewhere. -/
theorem before2_2 (c : Dev nD) (t : Fin cfg2.N) (d) :
    (dat2 V c).before 2 t d = win2_2.fill (grid2.coords t) d (iblk2 V c 2 t) := by
  unfold Dat.before; rw [if_pos (fetch2_2 t)]; rfl
/-- Window 3 (a whole, unblocked array, fetched at the first point only) holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
/-- Window 4 (a whole, unblocked array, fetched at the first point only) holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
/-- Window 5 (a whole, unblocked array, fetched at the first point only) holds its block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
/-- Window 6 (a whole, unblocked array, fetched at the first point only) holds its block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d
/-- The output window is written back at every point: its buffer is handed over at contents nothing names. -/
theorem before2_7 (c : Dev nD) (t : Fin cfg2.N) (d) : (dat2 V c).before 7 t d = d :=
  (dat2 V c).before_out_reset 7 rfl t
    (by by_cases h : t.val = 0
        · exact .inl h
        · exact .inr ⟨h, flush2_7 _⟩) d

/-! ## The body's accesses: each buffer whole -/

abbrev r2_0 : Rect S2048x128 := Rect.unit (s := S2048x128) ![0, 0] S2048x128.size inb_S2048x128_S2048x128_0_0
abbrev r2_1 : Rect S2048x768 := Rect.unit (s := S2048x768) ![0, 0] S2048x768.size inb_S2048x768_S2048x768_0_0
abbrev r2_2 : Rect S2048x128 := Rect.unit (s := S2048x128) ![0, 0] S2048x128.size inb_S2048x128_S2048x128_0_0
abbrev r2_3 : Rect S128x512 := Rect.unit (s := S128x512) ![0, 0] S128x512.size inb_S128x512_S128x512_0_0
abbrev r2_4 : Rect S768x512 := Rect.unit (s := S768x512) ![0, 0] S768x512.size inb_S768x512_S768x512_0_0
abbrev r2_5 : Rect S128x512 := Rect.unit (s := S128x512) ![0, 0] S128x512.size inb_S128x512_S128x512_0_0
abbrev r2_6 : Rect S1x512 := Rect.unit (s := S1x512) ![0, 0] S1x512.size inb_S1x512_S1x512_0_0
abbrev r2_7 : Rect S2048 := Rect.unit (s := S2048) ![0] S2048.size inb_S2048_S2048_0

theorem hzr2 : (![0, 0] : Fin 2 → Nat) = fun _ => 0 := funext fun a => by fin_cases a <;> rfl
theorem hzr2' : (![0] : Fin 1 → Nat) = fun _ => 0 := funext fun a => by fin_cases a; rfl

/-- The output buffer after the body as the executor computes it: the one store's piece over the seven loads. -/
def out2_7 (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) : Vec F S2048 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S2048 .f32) (y : S2048.Idx) :
    ∃ pc ∈ ([⟨r2_7, p0⟩] : List (View.Piece (Elt F) S2048 .f32)), y ∈ pc.1.set :=
  ⟨_, List.mem_singleton_self _, View.mem_set_unit_zero hzr2' inb_S2048_S2048_0 y⟩

/-- Whole loads read the buffers and the one whole store leaves its payload: the payload of the seven buffers. -/
theorem out2_7_eq (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) :
    out2_7 x0 x1 x2 x3 x4 x5 x6 = k2_pay1 x0 x1 x2 x3 x4 x5 x6 := by
  unfold out2_7
  rw [View.canon_unit_zero hzr2']
  simp only [View.ld_unit_zero (S := S2048x128) hzr2, View.ld_unit_zero (S := S2048x768) hzr2, View.ld_unit_zero (S := S128x512) hzr2, View.ld_unit_zero (S := S768x512) hzr2, View.ld_unit_zero (S := S1x512) hzr2]

/-! ## The body's triple -/

set_option maxHeartbeats 2000000 in
/-- The kernel body on whole staging memrefs, the inputs' at read contents `x0 … x6` and the output's at anything,
    runs to the continuation holding the inputs' as they were and the output's at `k2_pay1 x0 … x6`. -/
theorem sound_kernel2 (c : Dev nD) (E : Set ℕ) (i : grid2.Coords)
    (arg1 : Memref sig .tc .vmem S2048x128 .bf16) (harg1 : arg1.IsWhole)
    (arg2 : Memref sig .tc .vmem S2048x768 .f32) (harg2 : arg2.IsWhole)
    (arg3 : Memref sig .tc .vmem S2048x128 .bf16) (harg3 : arg3.IsWhole)
    (arg4 : Memref sig .tc .vmem S128x512 .f32) (harg4 : arg4.IsWhole)
    (arg5 : Memref sig .tc .vmem S768x512 .f32) (harg5 : arg5.IsWhole)
    (arg6 : Memref sig .tc .vmem S128x512 .f32) (harg6 : arg6.IsWhole)
    (arg7 : Memref sig .tc .vmem S1x512 .f32) (harg7 : arg7.IsWhole)
    (arg8 : Memref sig .tc .vmem S2048 .f32) (harg8 : arg8.IsWhole)
    (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
              ∗ owns (c : Thread nD τ) arg8 fullShare (k2_pay1 x0 x1 x2 x3 x4 x5 x6)) -∗ K ⟨⟩))
      ⊢ wp frame (wpE (defs₀ (F := F)) Variants.none c none) E
          (cc2__lstm_score_kernel i arg1 harg1 arg2 harg2 arg3 harg3 arg4 harg4 arg5 harg5 arg6 harg6 arg7 harg7 arg8 harg8) K := by
  rw [← out2_7_eq]
  simp only [cc2__lstm_score_kernel_eq_skeleton]; unfold cc2__lstm_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation with the output window forgotten, for every `F` -/

/-- What the body is called with at point `t`, the windows one by one — the output's buffer at any contents —, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ X, owns (c : Thread nD τ) (st2_7 t) fullShare X))

/-- and what it returns: the clipped inputs stated on their moved rows, the whole ones exactly, the output's buffer at
    any contents. -/
def bodyPost2f (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ X, owns (c : Thread nD τ) (st2_7 t) fullShare X))

theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6]
  iapply (sound_kernel2 c Set.univ _ _ _ _ _ _ _ _ _ _ _ _ _ _ _ _ _
    (win2_0.fill (grid2.coords t) d0 (iblk2 V c 0 t))
    (win2_1.fill (grid2.coords t) d1 (iblk2 V c 1 t))
    (win2_2.fill (grid2.coords t) d2 (iblk2 V c 2 t))
    (iblk2 V c 3 t)
    (iblk2 V c 4 t)
    (iblk2 V c 5 t)
    (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- a clipped input's buffer is as found: its block on the moved rows (what `hblk`, `rblk`, `tblk` hold there:
  -- `Window.cut_fill`), the same `d` elsewhere
  have h0 : win2_0.cut (grid2.coords t) (hblk V c t) = iblk2 V c 0 t := win2_0.cut_fill _ _ _
  have h1 : win2_1.cut (grid2.coords t) (rblk V c t) = iblk2 V c 1 t := win2_1.cut_fill _ _ _
  have h2 : win2_2.cut (grid2.coords t) (tblk V c t) = iblk2 V c 2 t := win2_2.cut_fill _ _ _
  isplitl [H0]
  · iexists d0; rw [h0]; iexact H0
  isplitl [H1]
  · iexists d1; rw [h1]; iexact H1
  isplitl [H2]
  · iexists d2; rw [h2]; iexact H2
  isplitl [H3]; · iexact H3
  isplitl [H4]; · iexact H4
  isplitl [H5]; · iexact H5
  isplitl [H6]; · iexact H6
  iexists _; iexact H7

/-- The library's body obligation, the output window (7) forgotten, at every point and for every `F`. -/
theorem body_obligation2_fgt (c : Dev nD) :
    BodyObligationLoose (dat2 (F := F) V c) (defs₀ (F := F)) Variants.none () Set.univ (fun w => decide (w = 7)) := fun t => by
  rw [bigSep_W2, bigSep_W2]
  exact sound_body2f V c t

/-! ## The full body obligation, from row-independence of the scores -/

/-- Row-independence of the scores on the rows a transfer moves: filling the three row-blocked inputs' buffers past
    the array's end with anything, or with the zero word, gives the same scores on the moved rows. (A row of the
    scores is computed from the same row of the three inputs: each dense product's entry is a sum over that row, the
    lane reduction is per row, the rest pointwise. True of the real-valued operations; at a generic `F` the dense
    product is an operation on whole operands, of which nothing of the kind is known.) -/
def RowsOnly : Prop :=
  ∀ (t : Fin cfg2.N) (d0 : S2048x128.Idx → Elt F .bf16) (d1 : S2048x768.Idx → Elt F .f32) (d2 : S2048x128.Idx → Elt F .bf16)
    (x0 : (win2_0.xblock (grid2.coords t)).Idx → Elt F .bf16) (x1 : (win2_1.xblock (grid2.coords t)).Idx → Elt F .f32)
    (x2 : (win2_2.xblock (grid2.coords t)).Idx → Elt F .bf16)
    (w3 : Vec F S128x512 .f32) (w4 : Vec F S768x512 .f32) (w5 : Vec F S128x512 .f32) (w6 : Vec F S1x512 .f32),
    win2_7.cut (grid2.coords t)
        (k2_pay1 (win2_0.fill (grid2.coords t) d0 x0) (win2_1.fill (grid2.coords t) d1 x1) (win2_2.fill (grid2.coords t) d2 x2) w3 w4 w5 w6)
      = win2_7.cut (grid2.coords t)
        (k2_pay1 (win2_0.fill (grid2.coords t) (fun _ => Scalar.ofBits .bf16 0#16) x0)
          (win2_1.fill (grid2.coords t) (fun _ => Scalar.ofBits .f32 0#32) x1)
          (win2_2.fill (grid2.coords t) (fun _ => Scalar.ofBits .bf16 0#16) x2) w3 w4 w5 w6)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the clipped windows (the three row-blocked inputs and the output) stated on their moved rows,
    the whole ones exactly. -/
def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ d, owns (c : Thread nD τ) (st2_7 t) fullShare (win2_7.fill (grid2.coords t) d (win2_7.cut (grid2.coords t) ((dat2 V c).after 7 t)))))

theorem sound_body2 (hrows : RowsOnly (F := F)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6]
  iapply (sound_kernel2 c Set.univ _ _ _ _ _ _ _ _ _ _ _ _ _ _ _ _ _
    (win2_0.fill (grid2.coords t) d0 (iblk2 V c 0 t))
    (win2_1.fill (grid2.coords t) d1 (iblk2 V c 1 t))
    (win2_2.fill (grid2.coords t) d2 (iblk2 V c 2 t))
    (iblk2 V c 3 t)
    (iblk2 V c 4 t)
    (iblk2 V c 5 t)
    (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- a clipped input's buffer is as found: its block on the moved rows (what `hblk`, `rblk`, `tblk` hold there:
  -- `Window.cut_fill`), the same `d` elsewhere
  have h0 : win2_0.cut (grid2.coords t) (hblk V c t) = iblk2 V c 0 t := win2_0.cut_fill _ _ _
  have h1 : win2_1.cut (grid2.coords t) (rblk V c t) = iblk2 V c 1 t := win2_1.cut_fill _ _ _
  have h2 : win2_2.cut (grid2.coords t) (tblk V c t) = iblk2 V c 2 t := win2_2.cut_fill _ _ _
  isplitl [H0]
  · iexists d0; rw [h0]; iexact H0
  isplitl [H1]
  · iexists d1; rw [h1]; iexact H1
  isplitl [H2]
  · iexists d2; rw [h2]; iexact H2
  isplitl [H3]; · iexact H3
  isplitl [H4]; · iexact H4
  isplitl [H5]; · iexact H5
  isplitl [H6]; · iexact H6
  -- the output's buffer holds the scores of the buffers as found; on the moved rows those are the scores of the
  -- zero-filled blocks (`hrows`), which is all that is stated of it
  iexists _
  rw [show win2_7.cut (grid2.coords t) (sblk V c t)
      = win2_7.cut (grid2.coords t) (k2_pay1 (win2_0.fill (grid2.coords t) d0 (iblk2 V c 0 t))
          (win2_1.fill (grid2.coords t) d1 (iblk2 V c 1 t)) (win2_2.fill (grid2.coords t) d2 (iblk2 V c 2 t))
          (iblk2 V c 3 t) (iblk2 V c 4 t) (iblk2 V c 5 t) (iblk2 V c 6 t))
    from (hrows t d0 d1 d2 _ _ _ _ _ _ _).symm, win2_7.fill_cut]
  iexact H7

/-- The library's body obligation for region 2, nothing forgotten, at every point: from row-independence. -/
theorem body_obligation2 (hrows : RowsOnly (F := F)) (c : Dev nD) :
    BodyObligationLoose (dat2 (F := F) V c) (defs₀ (F := F)) Variants.none () Set.univ := fun t => by
  rw [bigSep_W2, bigSep_W2]
  exact sound_body2 V hrows c t

end Cert.Kernel.Hand

end
-- ==== Proof.KFrame.lean ====
/-
  The frame of the word-level program: every weakly fair execution of @main terminates, nothing faulting, and the
  twelve argument arrays end as launched — the launch over the segments, at the three kernel bodies' obligations
  (regions 0 and 1 exact; region 2 with its output window forgotten), for any `F`.
-/
import proofs.«117671_j50156628082716_2_alg».proof.Proof.KRun
import proofs.«117671_j50156628082716_2_alg».proof.Proof.KBody0
import proofs.«117671_j50156628082716_2_alg».proof.Proof.KBody1
import proofs.«117671_j50156628082716_2_alg».proof.Proof.KBody2

noncomputable section

namespace Cert.Kernel.Hand

open Cert.Kernel Cert.Kernel.Gen
open Idealize.ShloMosaic Idealize.ShloMosaic.TcCoe
open Idealize.SL Idealize.SL.Sem

variable {F : FTy → Type} [FloatOps F]

/-- THE FRAME of `Cert.Kernel`, at any `F`. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun V c => body_obligation0 V c) (fun V c => body_obligation1 V c) (fun V c => body_obligation2_fgt V c)

end Cert.Kernel.Hand

end
-- ==== Proof.RegionData.lean ====
/-
  What each of the three kernel regions leaves behind, as data the launch theorems take.

  Every region's body is: load each input window's staging buffer whole, compute ONE value from those
  loads, store it whole into the output window's staging buffer. So after the body at grid point `t` an
  input window's buffer holds its block of the array, and the output window's buffer holds that one value
  computed from the input blocks. The arrays are taken at a parameter `V`: the buffers' contents when the
  region is entered.

  Regions 0 and 1 are row-blocked dense products ([1000,768]·[768,10] and [1000,10]·[10,128] per point,
  fifteen points, the blocks tiling the arrays). Region 2 scores 2048 rows per point over 49 points, and
  49·2048 = 100352 > 100000: the last block of the three row-blocked inputs and of the output overhangs the
  array, so only its first 1696 rows are moved. For those windows what is stated is the block's part inside
  the array, laid into the buffer's leading rows, the remaining rows filled with the zero word (a filler
  nothing reads: the obligations speak of the moved part only).
-/
import proofs.«117671_j50156628082716_2_alg».proof.Proof.Gen.KernelIdeal.Launch
import proofs.«117671_j50156628082716_2_alg».proof.Proof.Gen.KernelIdeal.Skeleton
import proofs.«117671_j50156628082716_2_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## Region 0: rows of `x · W1` -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: after the body at point `t` the two input buffers hold their blocks (a thousand rows of
    `x`; all of `W1`) and the output buffer the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## Region 1: rows of `agg · W2` -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

/-! ## Region 2: the score of 2048 triples per point -/

/-- Window `w`'s block at point `t` — its part inside the array — as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The head rows' block laid into its 2048-row buffer, zero past the array's end. -/
def hblk (c : Dev nD) (t : Fin cfg2.N) : S2048x128.Idx → Elt F .bf16 :=
  win2_0.fill (grid2.coords t) (fun _ => Scalar.ofBits .bf16 0#16) (iblk2 V c 0 t)
/-- The relation rows' block, likewise. -/
def rblk (c : Dev nD) (t : Fin cfg2.N) : S2048x768.Idx → Elt F .f32 :=
  win2_1.fill (grid2.coords t) (fun _ => Scalar.ofBits .f32 0#32) (iblk2 V c 1 t)
/-- The tail rows' block, likewise. -/
def tblk (c : Dev nD) (t : Fin cfg2.N) : S2048x128.Idx → Elt F .bf16 :=
  win2_2.fill (grid2.coords t) (fun _ => Scalar.ofBits .bf16 0#16) (iblk2 V c 2 t)

/-- The scores the body computes at point `t` from those blocks and the (whole, unblocked) weights and bias. -/
def sblk (c : Dev nD) (t : Fin cfg2.N) : S2048.Idx → Elt F .f32 :=
  k2_pay1 (hblk V c t) (rblk V c t) (tblk V c t) (iblk2 V c 3 t) (iblk2 V c 4 t) (iblk2 V c 5 t) (iblk2 V c 6 t)

/-- Region 2's proof data. -/
def dat2 (c : Dev nD) : Dat τ (Elt F) Unit ℕ (UR sig nD τ) ℕ cfg2 c where
  A w := V c (Pipeline.arrRef spec2 w)
  after w t := match w with
    | ⟨0, _⟩ => hblk V c t
    | ⟨1, _⟩ => rblk V c t
    | ⟨2, _⟩ => tblk V c t
    | ⟨3, _⟩ => iblk2 V c 3 t
    | ⟨4, _⟩ => iblk2 V c 4 t
    | ⟨5, _⟩ => iblk2 V c 5 t
    | ⟨6, _⟩ => iblk2 V c 6 t
    | ⟨7, _⟩ => sblk V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = hblk V c t := by dsimp only [dat2]
theorem after2_1 (c : Dev nD) (t : Fin cfg2.N) : (dat2 V c).after 1 t = rblk V c t := by dsimp only [dat2]
theorem after2_2 (c : Dev nD) (t : Fin cfg2.N) : (dat2 V c).after 2 t = tblk V c t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = sblk V c t := by dsimp only [dat2]

end Cert.KernelIdeal.Hand

end
-- ==== Proof.Body0.lean ====
/-
  Region 0: the kernel body's triple and the body obligation.

  The body loads its two input staging buffers whole, computes one value from the two loads, and stores it whole
  into the output staging buffer. A whole load reads the buffer's contents and one whole store leaves its payload,
  so after the body the output buffer holds `k0_pay1` of the two input buffers' contents. Each input buffer
  holds its block of the array at every point, fetched there or not (an unfetched window's block index has not
  moved), so the body at point `t` leaves exactly what the region's proof data state.
-/
import proofs.«117671_j50156628082716_2_alg».proof.Proof.RegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's, likewise (it is fetched at the first point only: its block is the whole array at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses: each buffer whole -/

abbrev r0_0 : Rect S1000x768 := Rect.unit (s := S1000x768) ![0, 0] S1000x768.size inb_S1000x768_S1000x768_0_0
abbrev r0_1 : Rect S768x10 := Rect.unit (s := S768x10) ![0, 0] S768x10.size inb_S768x10_S768x10_0_0
abbrev r0_2 : Rect S1000x10 := Rect.unit (s := S1000x10) ![0, 0] S1000x10.size inb_S1000x10_S1000x10_0_0

theorem hzr0 : (![0, 0] : Fin 2 → Nat) = fun _ => 0 := funext fun a => by fin_cases a <;> rfl

/-- The output buffer after the body as the executor computes it: the one store's piece over the two loads. -/
def out0_2 (x0 : Vec F S1000x768 .f32) (x1 : Vec F S768x10 .f32) : Vec F S1000x10 .f32 :=
  View.canon [⟨r0_2, k0_pay1 (View.ld x0 r0_0) (View.ld x1 r0_1)⟩]

/-- The one store covers the buffer. -/
theorem cover0_2 (p0 : Vec F S1000x10 .f32) (y : S1000x10.Idx) :
    ∃ pc ∈ ([⟨r0_2, p0⟩] : List (View.Piece (Elt F) S1000x10 .f32)), y ∈ pc.1.set :=
  ⟨_, List.mem_singleton_self _, View.mem_set_unit_zero hzr0 inb_S1000x10_S1000x10_0_0 y⟩

/-- Whole loads read the buffers and the one whole store leaves its payload: the payload of the two buffers. -/
theorem out0_2_eq (x0 : Vec F S1000x768 .f32) (x1 : Vec F S768x10 .f32) : out0_2 x0 x1 = k0_pay1 x0 x1 := by
  unfold out0_2
  rw [View.canon_unit_zero hzr0, View.ld_unit_zero hzr0, View.ld_unit_zero hzr0]

/-! ## The body's triple -/

set_option maxHeartbeats 1000000 in
/-- The kernel body on whole staging memrefs, the inputs' at read contents `x0`, `x1` and the output's at anything,
    runs to the continuation holding the inputs' as they were and the output's at `k0_pay1 x0 x1`. -/
theorem sound_kernel0 (c : Dev nD) (E : Set ℕ) (i : grid0.Coords) (arg1 : Memref sig .tc .vmem S1000x768 .f32) (harg1 : arg1.IsWhole)
    (arg2 : Memref sig .tc .vmem S768x10 .f32) (harg2 : arg2.IsWhole) (arg3 : Memref sig .tc .vmem S1000x10 .f32) (harg3 : arg3.IsWhole)
    (x0 : Vec F S1000x768 .f32) (x1 : Vec F S768x10 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  rw [← out0_2_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1: the kernel body's triple and the body obligation.

  The body loads its two input staging buffers whole, computes one value from the two loads, and stores it whole
  into the output staging buffer. A whole load reads the buffer's contents and one whole store leaves its payload,
  so after the body the output buffer holds `k1_pay1` of the two input buffers' contents. Each input buffer
  holds its block of the array at every point, fetched there or not (an unfetched window's block index has not
  moved), so the body at point `t` leaves exactly what the region's proof data state.
-/
import proofs.«117671_j50156628082716_2_alg».proof.Proof.RegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's, likewise (it is fetched at the first point only: its block is the whole array at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's accesses: each buffer whole -/

abbrev r1_0 : Rect S1000x10 := Rect.unit (s := S1000x10) ![0, 0] S1000x10.size inb_S1000x10_S1000x10_0_0
abbrev r1_1 : Rect S10x128 := Rect.unit (s := S10x128) ![0, 0] S10x128.size inb_S10x128_S10x128_0_0
abbrev r1_2 : Rect S1000x128 := Rect.unit (s := S1000x128) ![0, 0] S1000x128.size inb_S1000x128_S1000x128_0_0

theorem hzr1 : (![0, 0] : Fin 2 → Nat) = fun _ => 0 := funext fun a => by fin_cases a <;> rfl

/-- The output buffer after the body as the executor computes it: the one store's piece over the two loads. -/
def out1_2 (x0 : Vec F S1000x10 .f32) (x1 : Vec F S10x128 .f32) : Vec F S1000x128 .f32 :=
  View.canon [⟨r1_2, k1_pay1 (View.ld x0 r1_0) (View.ld x1 r1_1)⟩]

/-- The one store covers the buffer. -/
theorem cover1_2 (p0 : Vec F S1000x128 .f32) (y : S1000x128.Idx) :
    ∃ pc ∈ ([⟨r1_2, p0⟩] : List (View.Piece (Elt F) S1000x128 .f32)), y ∈ pc.1.set :=
  ⟨_, List.mem_singleton_self _, View.mem_set_unit_zero hzr1 inb_S1000x128_S1000x128_0_0 y⟩

/-- Whole loads read the buffers and the one whole store leaves its payload: the payload of the two buffers. -/
theorem out1_2_eq (x0 : Vec F S1000x10 .f32) (x1 : Vec F S10x128 .f32) : out1_2 x0 x1 = k1_pay1 x0 x1 := by
  unfold out1_2
  rw [View.canon_unit_zero hzr1, View.ld_unit_zero hzr1, View.ld_unit_zero hzr1]

/-! ## The body's triple -/

set_option maxHeartbeats 1000000 in
/-- The kernel body on whole staging memrefs, the inputs' at read contents `x0`, `x1` and the output's at anything,
    runs to the continuation holding the inputs' as they were and the output's at `k1_pay1 x0 x1`. -/
theorem sound_kernel1 (c : Dev nD) (E : Set ℕ) (i : grid1.Coords) (arg1 : Memref sig .tc .vmem S1000x10 .f32) (harg1 : arg1.IsWhole)
    (arg2 : Memref sig .tc .vmem S10x128 .f32) (harg2 : arg2.IsWhole) (arg3 : Memref sig .tc .vmem S1000x128 .f32) (harg3 : arg3.IsWhole)
    (x0 : Vec F S1000x10 .f32) (x1 : Vec F S10x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  rw [← out1_2_eq]
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  Region 2: the kernel body's triple and the body obligations.

  The body loads its seven input staging buffers whole, computes one value (2048 scores) from the seven loads, and
  stores it whole into the output staging buffer: after the body the output buffer holds `k2_pay1` of the seven
  input buffers' contents.

  The three row-blocked inputs and the output are cut at the array's end at the last point (49 · 2048 > 100000):
  a fetch fills only the buffer's leading rows, the rest holding contents `d` nothing names, and the body
  computes all 2048 rows, those from `d` too. So what the obligation states of such a window is on the moved rows
  only. For the inputs that is immediate (the body leaves them as found). For the output it needs that a row of the
  scores depends only on the same row of the three row-blocked inputs (`RowsOnly`), which holds for the real-valued
  operations only: the obligation with the output window forgotten is proved for every `F`, the full one from
  `RowsOnly`.
-/
import proofs.«117671_j50156628082716_2_alg».proof.Proof.RegionData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the windows' buffers -/

/-- Window 0 is fetched at every point: its buffer holds the block on the rows the fetch moves, `d` elsewhere. -/
theorem before2_0 (c : Dev nD) (t : Fin cfg2.N) (d) :
    (dat2 V c).before 0 t d = win2_0.fill (grid2.coords t) d (iblk2 V c 0 t) := by
  unfold Dat.before; rw [if_pos (fetch2_0 t)]; rfl
/-- Window 1 is fetched at every point: its buffer holds the block on the rows the fetch moves, `d` elsewhere. -/
theorem before2_1 (c : Dev nD) (t : Fin cfg2.N) (d) :
    (dat2 V c).before 1 t d = win2_1.fill (grid2.coords t) d (iblk2 V c 1 t) := by
  unfold Dat.before; rw [if_pos (fetch2_1 t)]; rfl
/-- Window 2 is fetched at every point: its buffer holds the block on the rows the fetch moves, `d` elsewhere. -/
theorem before2_2 (c : Dev nD) (t : Fin cfg2.N) (d) :
    (dat2 V c).before 2 t d = win2_2.fill (grid2.coords t) d (iblk2 V c 2 t) := by
  unfold Dat.before; rw [if_pos (fetch2_2 t)]; rfl
/-- Window 3 (a whole, unblocked array, fetched at the first point only) holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d
/-- Window 4 (a whole, unblocked array, fetched at the first point only) holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d
/-- Window 5 (a whole, unblocked array, fetched at the first point only) holds its block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d
/-- Window 6 (a whole, unblocked array, fetched at the first point only) holds its block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_6 (c : Dev nD) (t : Fin cfg2.N) (d) : (dat2 V c).before 6 t d = iblk2 V c 6 t :=
  before2_6_of V (dat2 V c) (A_eq2 V c 6) (after2_6 V c) t d
/-- The output window is written back at every point: its buffer is handed over at contents nothing names. -/
theorem before2_7 (c : Dev nD) (t : Fin cfg2.N) (d) : (dat2 V c).before 7 t d = d :=
  (dat2 V c).before_out_reset 7 rfl t
    (by by_cases h : t.val = 0
        · exact .inl h
        · exact .inr ⟨h, flush2_7 _⟩) d

/-! ## The body's accesses: each buffer whole -/

abbrev r2_0 : Rect S2048x128 := Rect.unit (s := S2048x128) ![0, 0] S2048x128.size inb_S2048x128_S2048x128_0_0
abbrev r2_1 : Rect S2048x768 := Rect.unit (s := S2048x768) ![0, 0] S2048x768.size inb_S2048x768_S2048x768_0_0
abbrev r2_2 : Rect S2048x128 := Rect.unit (s := S2048x128) ![0, 0] S2048x128.size inb_S2048x128_S2048x128_0_0
abbrev r2_3 : Rect S128x512 := Rect.unit (s := S128x512) ![0, 0] S128x512.size inb_S128x512_S128x512_0_0
abbrev r2_4 : Rect S768x512 := Rect.unit (s := S768x512) ![0, 0] S768x512.size inb_S768x512_S768x512_0_0
abbrev r2_5 : Rect S128x512 := Rect.unit (s := S128x512) ![0, 0] S128x512.size inb_S128x512_S128x512_0_0
abbrev r2_6 : Rect S1x512 := Rect.unit (s := S1x512) ![0, 0] S1x512.size inb_S1x512_S1x512_0_0
abbrev r2_7 : Rect S2048 := Rect.unit (s := S2048) ![0] S2048.size inb_S2048_S2048_0

theorem hzr2 : (![0, 0] : Fin 2 → Nat) = fun _ => 0 := funext fun a => by fin_cases a <;> rfl
theorem hzr2' : (![0] : Fin 1 → Nat) = fun _ => 0 := funext fun a => by fin_cases a; rfl

/-- The output buffer after the body as the executor computes it: the one store's piece over the seven loads. -/
def out2_7 (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) : Vec F S2048 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S2048 .f32) (y : S2048.Idx) :
    ∃ pc ∈ ([⟨r2_7, p0⟩] : List (View.Piece (Elt F) S2048 .f32)), y ∈ pc.1.set :=
  ⟨_, List.mem_singleton_self _, View.mem_set_unit_zero hzr2' inb_S2048_S2048_0 y⟩

/-- Whole loads read the buffers and the one whole store leaves its payload: the payload of the seven buffers. -/
theorem out2_7_eq (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) :
    out2_7 x0 x1 x2 x3 x4 x5 x6 = k2_pay1 x0 x1 x2 x3 x4 x5 x6 := by
  unfold out2_7
  rw [View.canon_unit_zero hzr2']
  simp only [View.ld_unit_zero (S := S2048x128) hzr2, View.ld_unit_zero (S := S2048x768) hzr2, View.ld_unit_zero (S := S128x512) hzr2, View.ld_unit_zero (S := S768x512) hzr2, View.ld_unit_zero (S := S1x512) hzr2]

/-! ## The body's triple -/

set_option maxHeartbeats 2000000 in
/-- The kernel body on whole staging memrefs, the inputs' at read contents `x0 … x6` and the output's at anything,
    runs to the continuation holding the inputs' as they were and the output's at `k2_pay1 x0 … x6`. -/
theorem sound_kernel2 (c : Dev nD) (E : Set ℕ) (i : grid2.Coords)
    (arg1 : Memref sig .tc .vmem S2048x128 .bf16) (harg1 : arg1.IsWhole)
    (arg2 : Memref sig .tc .vmem S2048x768 .f32) (harg2 : arg2.IsWhole)
    (arg3 : Memref sig .tc .vmem S2048x128 .bf16) (harg3 : arg3.IsWhole)
    (arg4 : Memref sig .tc .vmem S128x512 .f32) (harg4 : arg4.IsWhole)
    (arg5 : Memref sig .tc .vmem S768x512 .f32) (harg5 : arg5.IsWhole)
    (arg6 : Memref sig .tc .vmem S128x512 .f32) (harg6 : arg6.IsWhole)
    (arg7 : Memref sig .tc .vmem S1x512 .f32) (harg7 : arg7.IsWhole)
    (arg8 : Memref sig .tc .vmem S2048 .f32) (harg8 : arg8.IsWhole)
    (x0 : Vec F S2048x128 .bf16) (x1 : Vec F S2048x768 .f32) (x2 : Vec F S2048x128 .bf16) (x3 : Vec F S128x512 .f32) (x4 : Vec F S768x512 .f32) (x5 : Vec F S128x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
              ∗ owns (c : Thread nD τ) arg8 fullShare (k2_pay1 x0 x1 x2 x3 x4 x5 x6)) -∗ K ⟨⟩))
      ⊢ wp frame (wpE (defs₀ (F := F)) Variants.none c none) E
          (cc2__lstm_score_kernel i arg1 harg1 arg2 harg2 arg3 harg3 arg4 harg4 arg5 harg5 arg6 harg6 arg7 harg7 arg8 harg8) K := by
  rw [← out2_7_eq]
  simp only [cc2__lstm_score_kernel_eq_skeleton]; unfold cc2__lstm_score_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation with the output window forgotten, for every `F` -/

/-- What the body is called with at point `t`, the windows one by one — the output's buffer at any contents —, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ X, owns (c : Thread nD τ) (st2_7 t) fullShare X))

/-- and what it returns: the clipped inputs stated on their moved rows, the whole ones exactly, the output's buffer at
    any contents. -/
def bodyPost2f (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ X, owns (c : Thread nD τ) (st2_7 t) fullShare X))

theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6]
  iapply (sound_kernel2 c Set.univ _ _ _ _ _ _ _ _ _ _ _ _ _ _ _ _ _
    (win2_0.fill (grid2.coords t) d0 (iblk2 V c 0 t))
    (win2_1.fill (grid2.coords t) d1 (iblk2 V c 1 t))
    (win2_2.fill (grid2.coords t) d2 (iblk2 V c 2 t))
    (iblk2 V c 3 t)
    (iblk2 V c 4 t)
    (iblk2 V c 5 t)
    (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- a clipped input's buffer is as found: its block on the moved rows (what `hblk`, `rblk`, `tblk` hold there:
  -- `Window.cut_fill`), the same `d` elsewhere
  have h0 : win2_0.cut (grid2.coords t) (hblk V c t) = iblk2 V c 0 t := win2_0.cut_fill _ _ _
  have h1 : win2_1.cut (grid2.coords t) (rblk V c t) = iblk2 V c 1 t := win2_1.cut_fill _ _ _
  have h2 : win2_2.cut (grid2.coords t) (tblk V c t) = iblk2 V c 2 t := win2_2.cut_fill _ _ _
  isplitl [H0]
  · iexists d0; rw [h0]; iexact H0
  isplitl [H1]
  · iexists d1; rw [h1]; iexact H1
  isplitl [H2]
  · iexists d2; rw [h2]; iexact H2
  isplitl [H3]; · iexact H3
  isplitl [H4]; · iexact H4
  isplitl [H5]; · iexact H5
  isplitl [H6]; · iexact H6
  iexists _; iexact H7

/-- The library's body obligation, the output window (7) forgotten, at every point and for every `F`. -/
theorem body_obligation2_fgt (c : Dev nD) :
    BodyObligationLoose (dat2 (F := F) V c) (defs₀ (F := F)) Variants.none () Set.univ (fun w => decide (w = 7)) := fun t => by
  rw [bigSep_W2, bigSep_W2]
  exact sound_body2f V c t

/-! ## The full body obligation, from row-independence of the scores -/

/-- Row-independence of the scores on the rows a transfer moves: filling the three row-blocked inputs' buffers past
    the array's end with anything, or with the zero word, gives the same scores on the moved rows. (A row of the
    scores is computed from the same row of the three inputs: each dense product's entry is a sum over that row, the
    lane reduction is per row, the rest pointwise. True of the real-valued operations; at a generic `F` the dense
    product is an operation on whole operands, of which nothing of the kind is known.) -/
def RowsOnly : Prop :=
  ∀ (t : Fin cfg2.N) (d0 : S2048x128.Idx → Elt F .bf16) (d1 : S2048x768.Idx → Elt F .f32) (d2 : S2048x128.Idx → Elt F .bf16)
    (x0 : (win2_0.xblock (grid2.coords t)).Idx → Elt F .bf16) (x1 : (win2_1.xblock (grid2.coords t)).Idx → Elt F .f32)
    (x2 : (win2_2.xblock (grid2.coords t)).Idx → Elt F .bf16)
    (w3 : Vec F S128x512 .f32) (w4 : Vec F S768x512 .f32) (w5 : Vec F S128x512 .f32) (w6 : Vec F S1x512 .f32),
    win2_7.cut (grid2.coords t)
        (k2_pay1 (win2_0.fill (grid2.coords t) d0 x0) (win2_1.fill (grid2.coords t) d1 x1) (win2_2.fill (grid2.coords t) d2 x2) w3 w4 w5 w6)
      = win2_7.cut (grid2.coords t)
        (k2_pay1 (win2_0.fill (grid2.coords t) (fun _ => Scalar.ofBits .bf16 0#16) x0)
          (win2_1.fill (grid2.coords t) (fun _ => Scalar.ofBits .f32 0#32) x1)
          (win2_2.fill (grid2.coords t) (fun _ => Scalar.ofBits .bf16 0#16) x2) w3 w4 w5 w6)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the clipped windows (the three row-blocked inputs and the output) stated on their moved rows,
    the whole ones exactly. -/
def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t))))
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ d, owns (c : Thread nD τ) (st2_7 t) fullShare (win2_7.fill (grid2.coords t) d (win2_7.cut (grid2.coords t) ((dat2 V c).after 7 t)))))

theorem sound_body2 (hrows : RowsOnly (F := F)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before2_0 V c t d0, before2_1 V c t d1, before2_2 V c t d2, before2_3 V c t d3, before2_4 V c t d4,
    before2_5 V c t d5, before2_6 V c t d6]
  iapply (sound_kernel2 c Set.univ _ _ _ _ _ _ _ _ _ _ _ _ _ _ _ _ _
    (win2_0.fill (grid2.coords t) d0 (iblk2 V c 0 t))
    (win2_1.fill (grid2.coords t) d1 (iblk2 V c 1 t))
    (win2_2.fill (grid2.coords t) d2 (iblk2 V c 2 t))
    (iblk2 V c 3 t)
    (iblk2 V c 4 t)
    (iblk2 V c 5 t)
    (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- a clipped input's buffer is as found: its block on the moved rows (what `hblk`, `rblk`, `tblk` hold there:
  -- `Window.cut_fill`), the same `d` elsewhere
  have h0 : win2_0.cut (grid2.coords t) (hblk V c t) = iblk2 V c 0 t := win2_0.cut_fill _ _ _
  have h1 : win2_1.cut (grid2.coords t) (rblk V c t) = iblk2 V c 1 t := win2_1.cut_fill _ _ _
  have h2 : win2_2.cut (grid2.coords t) (tblk V c t) = iblk2 V c 2 t := win2_2.cut_fill _ _ _
  isplitl [H0]
  · iexists d0; rw [h0]; iexact H0
  isplitl [H1]
  · iexists d1; rw [h1]; iexact H1
  isplitl [H2]
  · iexists d2; rw [h2]; iexact H2
  isplitl [H3]; · iexact H3
  isplitl [H4]; · iexact H4
  isplitl [H5]; · iexact H5
  isplitl [H6]; · iexact H6
  -- the output's buffer holds the scores of the buffers as found; on the moved rows those are the scores of the
  -- zero-filled blocks (`hrows`), which is all that is stated of it
  iexists _
  rw [show win2_7.cut (grid2.coords t) (sblk V c t)
      = win2_7.cut (grid2.coords t) (k2_pay1 (win2_0.fill (grid2.coords t) d0 (iblk2 V c 0 t))
          (win2_1.fill (grid2.coords t) d1 (iblk2 V c 1 t)) (win2_2.fill (grid2.coords t) d2 (iblk2 V c 2 t))
          (iblk2 V c 3 t) (iblk2 V c 4 t) (iblk2 V c 5 t) (iblk2 V c 6 t))
    from (hrows t d0 d1 d2 _ _ _ _ _ _ _).symm, win2_7.fill_cut]
  iexact H7

/-- The library's body obligation for region 2, nothing forgotten, at every point: from row-independence. -/
theorem body_obligation2 (hrows : RowsOnly (F := F)) (c : Dev nD) :
    BodyObligationLoose (dat2 (F := F) V c) (defs₀ (F := F)) Variants.none () Set.univ := fun t => by
  rw [bigSep_W2, bigSep_W2]
  exact sound_body2 V hrows c t

end Cert.KernelIdeal.Hand

end
-- ==== Proof.Segs.lean ====
/-
  The three kernel regions of @main as segments of the run, over the thread state "every unscoped buffer whole at
  the boundary's contents, the generator register at some state, nothing owed".

  The buffers' contents at the boundaries between @main's items are a fold from the launch memory: a host stretch
  maps them by `StableHlo.after`; a region changes only its output window's array, to what its write-backs leave
  (`Dat.arrAt … N` of the region's proof data at its entry contents). `o4`, `o8`, `o10` name those three arrays,
  `U3 … U10` the contents; the generated valuations `Gen.VJ` at `outs` (which reads `o4`, `o8`, `o10`) are these.
-/
import proofs.«117671_j50156628082716_2_alg».proof.Proof.Body0
import proofs.«117671_j50156628082716_2_alg».proof.Proof.Body1
import proofs.«117671_j50156628082716_2_alg».proof.Proof.Body2
import proofs.«117671_j50156628082716_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Core `c`'s unscoped buffers when region 0 is entered: the launch memory after the first three host stretches. -/
abbrev U3 (c : Dev nD) : Valuation τ sig (Elt F) := Gen.V3 m c
/-- The same read at the TensorCore's references (what region 0's proof data take). -/
abbrev U3r : (c : Dev nD) → (b : Ref sig .tc) → Buf (Elt F) ((c : Thread nD τ).loc b) := fun c b => U3 m c b
/-- What region 0 leaves in its output array `main_v30`: its fifteen write-backs folded. -/
def o4 (c : Dev nD) : Buf (Elt F) ((c : Thread nD τ).loc main_v30) := (dat0 (U3r m) c).arrAt 2 cfg0.N
/-- At region 0's exit. -/
abbrev U4 (c : Dev nD) : Valuation τ sig (Elt F) := Function.update (U3 m c) main_v30 (o4 m c)
abbrev U4r : (c : Dev nD) → (b : Ref sig .tc) → Buf (Elt F) ((c : Thread nD τ).loc b) := fun c b => U4 m c b
/-- After the three host stretches between regions 0 and 1. -/
abbrev U5 (c : Dev nD) : Valuation τ sig (Elt F) := StableHlo.after hostOps1 (U4 m c)
abbrev U6 (c : Dev nD) : Valuation τ sig (Elt F) := StableHlo.after hostOps1_1 (U5 m c)
abbrev U7 (c : Dev nD) : Valuation τ sig (Elt F) := StableHlo.after hostOps1_2 (U6 m c)
abbrev U7r : (c : Dev nD) → (b : Ref sig .tc) → Buf (Elt F) ((c : Thread nD τ).loc b) := fun c b => U7 m c b
/-- What region 1 leaves in its output array `main_v61`. -/
def o8 (c : Dev nD) : Buf (Elt F) ((c : Thread nD τ).loc main_v61) := (dat1 (U7r m) c).arrAt 2 cfg1.N
/-- At region 1's exit. -/
abbrev U8 (c : Dev nD) : Valuation τ sig (Elt F) := Function.update (U7 m c) main_v61 (o8 m c)
abbrev U8r : (c : Dev nD) → (b : Ref sig .tc) → Buf (Elt F) ((c : Thread nD τ).loc b) := fun c b => U8 m c b
/-- After the host stretch between regions 1 and 2. -/
abbrev U9 (c : Dev nD) : Valuation τ sig (Elt F) := StableHlo.after hostOps2 (U8 m c)
abbrev U9r : (c : Dev nD) → (b : Ref sig .tc) → Buf (Elt F) ((c : Thread nD τ).loc b) := fun c b => U9 m c b
/-- What region 2 leaves in its output array `main_v92`, the program's result. -/
def o10 (c : Dev nD) : Buf (Elt F) ((c : Thread nD τ).loc main_v92) := (dat2 (U9r m) c).arrAt 7 cfg2.N
/-- At region 2's exit: the end of @main. -/
abbrev U10 (c : Dev nD) : Valuation τ sig (Elt F) := Function.update (U9 m c) main_v92 (o10 m c)
abbrev U10r : (c : Dev nD) → (b : Ref sig .tc) → Buf (Elt F) ((c : Thread nD τ).loc b) := fun c b => U10 m c b

/-- What the regions leave in the arrays they change, as the generated valuations read it: `o4` at `main_v30`,
    `o8` at `main_v61`, `o10` at `main_v92` (at any other reference, which nothing reads, the launch contents). -/
def outs : Gen.Outs (F := F) := fun _ r c =>
  if h : r = main_v30 then h ▸ o4 m c
  else if h : r = main_v61 then h ▸ o8 m c
  else if h : r = main_v92 then h ▸ o10 m c
  else m ((c : Thread nD τ).loc r)

theorem outs_v30 (j : ℕ) (c : Dev nD) : outs m j main_v30 c = o4 m c := by
  unfold outs; rw [dif_pos rfl]
theorem outs_v61 (j : ℕ) (c : Dev nD) : outs m j main_v61 c = o8 m c := by
  unfold outs; rw [dif_neg (by decide), dif_pos rfl]
theorem outs_v92 (j : ℕ) (c : Dev nD) : outs m j main_v92 c = o10 m c := by
  unfold outs; rw [dif_neg (by decide), dif_neg (by decide), dif_pos rfl]

/-- The generated valuations at `outs` are the contents above. -/
theorem V4_eq (c : Dev nD) : Gen.V4 m (outs m) c = U4 m c := by
  show Function.update (Gen.V3 m c) main_v30 (outs m 4 main_v30 c) = Function.update (Gen.V3 m c) main_v30 (o4 m c)
  rw [outs_v30]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show StableHlo.after hostOps1_1 (Gen.V5 m (outs m) c) = _; rw [V5_eq]
theorem V7_eq (c : Dev nD) : Gen.V7 m (outs m) c = U7 m c := by
  show StableHlo.after hostOps1_2 (Gen.V6 m (outs m) c) = _; rw [V6_eq]
theorem V8_eq (c : Dev nD) : Gen.V8 m (outs m) c = U8 m c := by
  show Function.update (Gen.V7 m (outs m) c) main_v61 (outs m 8 main_v61 c) = Function.update (U7 m c) main_v61 (o8 m c)
  rw [outs_v61, V7_eq]
theorem V9_eq (c : Dev nD) : Gen.V9 m (outs m) c = U9 m c := by
  show StableHlo.after hostOps2 (Gen.V8 m (outs m) c) = _; rw [V8_eq]
theorem V10_eq (c : Dev nD) : Gen.V10 m (outs m) c = U10 m c := by
  show Function.update (Gen.V9 m (outs m) c) main_v92 (outs m 10 main_v92 c) = Function.update (U9 m c) main_v92 (o10 m c)
  rw [outs_v92, V9_eq]

/-- The result array at the end of @main is what region 2 leaves. -/
theorem U10_v92 (c : Dev nD) : U10 m c main_v92 = o10 m c := Function.update_self _ _ _

/-! ## The proof data family and the thread state -/

/-- Every pipeline's proof data, each at its region's entry contents (a literal `match`, so that the family at a
    numeral reduces to the region's data). -/
def pdats : (p : Fin 3) → (c : Dev nD) → Dat τ (Elt F) Unit ℕ (UR sig nD τ) ℕ (cfgs p) c
  | ⟨0, _⟩ => fun c => dat0 (U3r m) c
  | ⟨1, _⟩ => fun c => dat1 (U7r m) c
  | ⟨2, _⟩ => fun c => dat2 (U9r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    nothing. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input what it held, the output its
    write-backs folded. -/
theorem hF0 (c : Dev nD) : ∀ w : Fin cfg0.W, (dat0 (U3r m) c).arrAt w cfg0.N = U4r m c (Pipeline.arrRef spec0 w)
  | ⟨0, _⟩ =>
    (((dat0 (U3r m) c).arrAt_in 0 rfl _).trans (A_eq0 (U3r m) c 0)).trans
      (Function.update_of_ne (StableHlo.devRef_ne_of_ne (by decide) : (Proc.devRef .tc main_arg0 : DevRef τ sig) ≠ Proc.devRef .tc main_v30) _ _).symm
  | ⟨1, _⟩ =>
    (((dat0 (U3r m) c).arrAt_in 1 rfl _).trans (A_eq0 (U3r m) c 1)).trans
      (Function.update_of_ne (StableHlo.devRef_ne_of_ne (by decide) : (Proc.devRef .tc main_arg2 : DevRef τ sig) ≠ Proc.devRef .tc main_v30) _ _).symm
  | ⟨2, _⟩ => by
    show (dat0 (U3r m) c).arrAt 2 cfg0.N = Function.update (U3 m c) (Proc.devRef .tc main_v30) (o4 m c) (Proc.devRef .tc main_v30)
    rw [Function.update_self]; rfl
/-- and every other buffer what it held at entry. -/
theorem hrest0 (c : Dev nD) : ∀ b, b ∉ Finset.univ.image (Pipeline.arrRef spec0) → U4r m c b = U3r m c b :=
  fun b hb => Function.update_of_ne (StableHlo.devRef_ne_of_ne fun e =>
    hb (Finset.mem_image.mpr ⟨2, Finset.mem_univ _, (show Pipeline.arrRef spec0 2 = main_v30 from rfl).trans e.symm⟩)) _ _

-- `iapply` of a library lemma stated over `pin pcs a p` unifies with the pinned configuration only when unification may
-- unfold plain definitions in a metavariable's type
set_option backward.isDefEq.respectTransparency.types false in
/-- REGION 0 over the thread state: entered from every unscoped buffer at `U3`, left at `U4`. Its arrays are
    split out of the unscoped buffers and put back at the exit contents; the generator register goes into the
    invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3r m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (U3r m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U3r m c) (U4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## Region 1 -/

/-- At region 1's exit each of its arrays holds what the pipeline leaves: an input what it held, the output its
    write-backs folded. -/
theorem hF1 (c : Dev nD) : ∀ w : Fin cfg1.W, (dat1 (U7r m) c).arrAt w cfg1.N = U8r m c (Pipeline.arrRef spec1 w)
  | ⟨0, _⟩ =>
    (((dat1 (U7r m) c).arrAt_in 0 rfl _).trans (A_eq1 (U7r m) c 0)).trans
      (Function.update_of_ne (StableHlo.devRef_ne_of_ne (by decide) : (Proc.devRef .tc main_v60 : DevRef τ sig) ≠ Proc.devRef .tc main_v61) _ _).symm
  | ⟨1, _⟩ =>
    (((dat1 (U7r m) c).arrAt_in 1 rfl _).trans (A_eq1 (U7r m) c 1)).trans
      (Function.update_of_ne (StableHlo.devRef_ne_of_ne (by decide) : (Proc.devRef .tc main_arg4 : DevRef τ sig) ≠ Proc.devRef .tc main_v61) _ _).symm
  | ⟨2, _⟩ => by
    show (dat1 (U7r m) c).arrAt 2 cfg1.N = Function.update (U7 m c) (Proc.devRef .tc main_v61) (o8 m c) (Proc.devRef .tc main_v61)
    rw [Function.update_self]; rfl
/-- and every other buffer what it held at entry. -/
theorem hrest1 (c : Dev nD) : ∀ b, b ∉ Finset.univ.image (Pipeline.arrRef spec1) → U8r m c b = U7r m c b :=
  fun b hb => Function.update_of_ne (StableHlo.devRef_ne_of_ne fun e =>
    hb (Finset.mem_image.mpr ⟨2, Finset.mem_univ _, (show Pipeline.arrRef spec1 2 = main_v61 from rfl).trans e.symm⟩)) _ _

-- `iapply` of a library lemma stated over `pin pcs a p` unifies with the pinned configuration only when unification may
-- unfold plain definitions in a metavariable's type
set_option backward.isDefEq.respectTransparency.types false in
/-- REGION 1 over the thread state: entered from every unscoped buffer at `U7`, left at `U8`. Its arrays are
    split out of the unscoped buffers and put back at the exit contents; the generator register goes into the
    invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7r m) c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (U7r m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U7r m c) (U8r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## Region 2 -/

/-- An input window's array is left as entered, and is not the output's. -/
theorem hF2_in (c : Dev nD) (w : Fin cfg2.W) (hw : (cfg2.win w).isOut = false)
    (hne : (Proc.devRef .tc (Pipeline.arrRef spec2 w) : DevRef τ sig) ≠ Proc.devRef .tc main_v92) :
    (dat2 (U9r m) c).arrAt w cfg2.N = U10r m c (Pipeline.arrRef spec2 w) :=
  (((dat2 (U9r m) c).arrAt_in w hw _).trans (A_eq2 (U9r m) c w)).trans (Function.update_of_ne hne _ _).symm
/-- The output window's array holds its write-backs folded. -/
theorem hF2_out (c : Dev nD) : (dat2 (U9r m) c).arrAt 7 cfg2.N = U10r m c main_v92 := by
  show (dat2 (U9r m) c).arrAt 7 cfg2.N = Function.update (U9 m c) (Proc.devRef .tc main_v92) (o10 m c) (Proc.devRef .tc main_v92)
  rw [Function.update_self]; rfl
set_option maxHeartbeats 1000000 in
/-- At region 2's exit each of its arrays holds what the pipeline leaves: an input what it held, the output its
    write-backs folded. -/
theorem hF2 (c : Dev nD) : ∀ w : Fin cfg2.W, (dat2 (U9r m) c).arrAt w cfg2.N = U10r m c (Pipeline.arrRef spec2 w)
  | ⟨0, _⟩ => hF2_in m c 0 rfl (StableHlo.devRef_ne_of_ne (by decide))
  | ⟨1, _⟩ => hF2_in m c 1 rfl (StableHlo.devRef_ne_of_ne (by decide))
  | ⟨2, _⟩ => hF2_in m c 2 rfl (StableHlo.devRef_ne_of_ne (by decide))
  | ⟨3, _⟩ => hF2_in m c 3 rfl (StableHlo.devRef_ne_of_ne (by decide))
  | ⟨4, _⟩ => hF2_in m c 4 rfl (StableHlo.devRef_ne_of_ne (by decide))
  | ⟨5, _⟩ => hF2_in m c 5 rfl (StableHlo.devRef_ne_of_ne (by decide))
  | ⟨6, _⟩ => hF2_in m c 6 rfl (StableHlo.devRef_ne_of_ne (by decide))
  | ⟨7, _⟩ => hF2_out m c
/-- and every other buffer what it held at entry. -/
theorem hrest2 (c : Dev nD) : ∀ b, b ∉ Finset.univ.image (Pipeline.arrRef spec2) → U10r m c b = U9r m c b :=
  fun b hb => Function.update_of_ne (StableHlo.devRef_ne_of_ne fun e =>
    hb (Finset.mem_image.mpr ⟨7, Finset.mem_univ _, (show Pipeline.arrRef spec2 7 = main_v92 from rfl).trans e.symm⟩)) _ _

-- `iapply` of a library lemma stated over `pin pcs a p` unifies with the pinned configuration only when unification may
-- unfold plain definitions in a metavariable's type
set_option backward.isDefEq.respectTransparency.types false in
/-- REGION 2 over the thread state: entered from every unscoped buffer at `U9`, left at `U10`. Its arrays are
    split out of the unscoped buffers and put back at the exit contents; the generator register goes into the
    invariant and comes out; nothing is owed; the kernel has no semaphore of its own. -/
def reg2 (hrows : RowsOnly (F := F)) : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (U9r m) hrows c
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (U9r m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U9r m c) (U10r m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

end Cert.KernelIdeal.Hand

end
-- ==== Proof.Run.lean ====
/-
  The run of the whole program with the result array valued.

  @main is ten items: host stretches and the three kernel regions. Each host stretch runs over the unscoped buffers
  held whole (the generated segments), each region is its segment record (`reg0`, `reg1`, `reg2`); the thread states
  chain because the generated valuations at `outs` are the contents `U3 … U10`. At the end every unscoped buffer is
  read off the last valuation: the result array `main_v92` holds `o10`, what region 2's write-backs leave, and each
  argument array its launch contents (no item writes one).
-/
import proofs.«117671_j50156628082716_2_alg».proof.Proof.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers between items: the same at every boundary. -/
abbrev E : Fin 4 → Dev nD → sProp 𝕄 := fun _ c => R c

/-! ## The regions' thread states are the generated ones -/

theorem hpre0 (c : Dev nD) :
    iprop(StableHlo.held (c : Thread nD τ) (Pipeline.ucRefs τ sig) (Gen.V3 m c) ∗ E (F := F) 0 c) ⊢ (reg0 m).pre c := .rfl
theorem hpost0 (c : Dev nD) :
    (reg0 m).post c ⊢ iprop(StableHlo.held (c : Thread nD τ) (Pipeline.ucRefs τ sig) (Gen.V4 m (outs m) c) ∗ E (F := F) 1 c) := by
  rw [V4_eq]; exact .rfl
theorem hpre1 (c : Dev nD) :
    iprop(StableHlo.held (c : Thread nD τ) (Pipeline.ucRefs τ sig) (Gen.V7 m (outs m) c) ∗ E (F := F) 1 c) ⊢ (reg1 m).pre c := by
  rw [V7_eq]; exact .rfl
theorem hpost1 (c : Dev nD) :
    (reg1 m).post c ⊢ iprop(StableHlo.held (c : Thread nD τ) (Pipeline.ucRefs τ sig) (Gen.V8 m (outs m) c) ∗ E (F := F) 2 c) := by
  rw [V8_eq]; exact .rfl
theorem hpre2 (hrows : RowsOnly (F := F)) (c : Dev nD) :
    iprop(StableHlo.held (c : Thread nD τ) (Pipeline.ucRefs τ sig) (Gen.V9 m (outs m) c) ∗ E (F := F) 2 c) ⊢ (reg2 m hrows).pre c := by
  rw [V9_eq]; exact .rfl
/-- The last region leaves the last valuation beside the core owing nothing (the generator register is dropped). -/
theorem hpost2 (hrows : RowsOnly (F := F)) (c : Dev nD) :
    (reg2 m hrows).post c ⊢ iprop(StableHlo.held (c : Thread nD τ) (Pipeline.ucRefs τ sig) (Gen.V10 m (outs m) c)
      ∗ ∃ W, owes (c : Thread nD τ) (0 : CellTallies nD τ sig Unit) W) := by
  rw [V10_eq]
  show iprop(StableHlo.held (c : Thread nD τ) (Pipeline.ucRefs τ sig) (U10 m c) ∗ R c) ⊢ _
  iintro ⟨Hh, -, HO⟩
  isplitl [Hh]; · iexact Hh
  iexact HO

/-! ## The run -/

-- the launch theorem's implicit arguments are found by unifying its conclusion with this one, which takes unfolding
-- plain definitions in a metavariable's type
set_option backward.isDefEq.respectTransparency.types false in
/-- At the compiled mesh, from any memory with zero counters: every weakly fair execution of @main on the TensorCores
    terminates, nothing faulting, and every final state has the result array `main_v92` at `o10` and the argument
    arrays as launched — given row-independence of region 2's scores. -/
theorem run_valued_gen (hrows : RowsOnly (F := F)) :
    θ_run defs (onTc (τ := τ) (main (F := F))) ⟨m, fun _ => 0, ρ⟩ (fun r => ∀ c : Dev nD,
      r.2.mem ((c.tc : Thread nD τ).loc main_v92) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m) (reg2 m hrows))
    (fun c Q => by
      rewrite [main_chain c, Seg.run_eq_chain,
        show (Gen.segs m (outs m) 𝒱₀ L lv (E (F := F)) () (pdats m) (reg0 m) (reg1 m) (reg2 m hrows) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs m) c))
    (hch := fun c => ⟨.rfl, .rfl, .rfl, hpre0 m c, hpost0 m c, .rfl, .rfl, hpre1 m c, hpost1 m c, hpre2 m hrows c, hpost2 m hrows c⟩)
    (hinit := ?_)
    (QY := fun c s => s.mem ((c.tc : Thread nD τ).loc main_v92) = o10 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are held at the launch contents; the generator register and the core's `owes`
    -- (at nothing) ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V10 m (outs m) c) s') $$ [Hh HSI]
    · isplitl [Hh] <;> iassumption
    icases Hr with ⟨%h, HSI⟩
    imodintro
    isplitr
    · ipureintro
      exact ⟨(h (Proc.devRef .tc main_v92) (Finset.mem_filter.mpr ⟨StableHlo.devRef_mem_tcRefs main_v92, by decide⟩)).trans
          ((congrFun (V10_eq m c) (Proc.devRef .tc main_v92)).trans (U10_v92 m c)),
        (h (Proc.devRef .tc main_arg0) (Finset.mem_filter.mpr ⟨StableHlo.devRef_mem_tcRefs main_arg0, by decide⟩)).trans (Gen.V10_main_arg0 m (outs m) c),
        (h (Proc.devRef .tc main_arg1) (Finset.mem_filter.mpr ⟨StableHlo.devRef_mem_tcRefs main_arg1, by decide⟩)).trans (Gen.V10_main_arg1 m (outs m) c),
        (h (Proc.devRef .tc main_arg2) (Finset.mem_filter.mpr ⟨StableHlo.devRef_mem_tcRefs main_arg2, by decide⟩)).trans (Gen.V10_main_arg2 m (outs m) c),
        (h (Proc.devRef .tc main_arg3) (Finset.mem_filter.mpr ⟨StableHlo.devRef_mem_tcRefs main_arg3, by decide⟩)).trans (Gen.V10_main_arg3 m (outs m) c),
        (h (Proc.devRef .tc main_arg4) (Finset.mem_filter.mpr ⟨StableHlo.devRef_mem_tcRefs main_arg4, by decide⟩)).trans (Gen.V10_main_arg4 m (outs m) c),
        (h (Proc.devRef .tc main_arg5) (Finset.mem_filter.mpr ⟨StableHlo.devRef_mem_tcRefs main_arg5, by decide⟩)).trans (Gen.V10_main_arg5 m (outs m) c),
        (h (Proc.devRef .tc main_arg6) (Finset.mem_filter.mpr ⟨StableHlo.devRef_mem_tcRefs main_arg6, by decide⟩)).trans (Gen.V10_main_arg6 m (outs m) c),
        (h (Proc.devRef .tc main_arg7) (Finset.mem_filter.mpr ⟨StableHlo.devRef_mem_tcRefs main_arg7, by decide⟩)).trans (Gen.V10_main_arg7 m (outs m) c),
        (h (Proc.devRef .tc main_arg8) (Finset.mem_filter.mpr ⟨StableHlo.devRef_mem_tcRefs main_arg8, by decide⟩)).trans (Gen.V10_main_arg8 m (outs m) c),
        (h (Proc.devRef .tc main_arg9) (Finset.mem_filter.mpr ⟨StableHlo.devRef_mem_tcRefs main_arg9, by decide⟩)).trans (Gen.V10_main_arg9 m (outs m) c),
        (h (Proc.devRef .tc main_arg10) (Finset.mem_filter.mpr ⟨StableHlo.devRef_mem_tcRefs main_arg10, by decide⟩)).trans (Gen.V10_main_arg10 m (outs m) c),
        (h (Proc.devRef .tc main_arg11) (Finset.mem_filter.mpr ⟨StableHlo.devRef_mem_tcRefs main_arg11, by decide⟩)).trans (Gen.V10_main_arg11 m (outs m) c)⟩
    · iexact HSI

end Cert.KernelIdeal.Hand

end
-- ==== Proof.LstmSpec.lean ====
/-
  The score of one row: one LSTM step on a 1024-wide feature row, reduced to one number.

  The feature row is three pieces, `h` (128 wide), `r` (768 wide) and `t` (128 wide); `W` is the 512 × 1024 weight
  matrix and `b` the 512 biases (already the sum of the two bias vectors). The gate pre-activations are
  `gate n = Σ_j feat j · W n j + b n`. The four 128-wide bands of `gate` are input gate (0‥127), forget gate
  (128‥255, unused: the previous cell state is zero), cell candidate (256‥383) and output gate (384‥511), and

    score = logistic ( Σ_{j<128} logistic (gate (384+j)) · tanh ( logistic (gate j) · tanh (gate (256+j)) ) ).

  Two groupings of the contraction are named. `gateK` adds three partial products, one per piece of the row, left to
  right, then the bias; `gateR` contracts the joined row in one sum, then adds the bias. They are equal on the
  extended reals by associativity of `+` and the splitting of a sum over 1024 = 128 + 768 + 128 positions: no
  distributivity and hence no finiteness is needed.
-/
import Idealize.ShloMosaic.PureOps.Ideal
import Mathlib.Algebra.BigOperators.Fin

noncomputable section

open scoped BigOperators

namespace Cert.Lstm

open Idealize.ShloMosaic

/-! ## Positions -/

/-- Column `k` of the first piece of the joined row. -/
abbrev colH (k : Fin 128) : Fin 1024 := ⟨k.val, by have := k.isLt; omega⟩
/-- Column `k` of the second piece sits at `128 + k`. -/
abbrev colR (k : Fin 768) : Fin 1024 := ⟨128 + k.val, by have := k.isLt; omega⟩
/-- Column `k` of the third piece sits at `896 + k`. -/
abbrev colT (k : Fin 128) : Fin 1024 := ⟨896 + k.val, by have := k.isLt; omega⟩

/-- Lane `j` of the input-gate band. -/
abbrev gI (j : Fin 128) : Fin 512 := ⟨j.val, by have := j.isLt; omega⟩
/-- Lane `j` of the cell-candidate band. -/
abbrev gG (j : Fin 128) : Fin 512 := ⟨256 + j.val, by have := j.isLt; omega⟩
/-- Lane `j` of the output-gate band. -/
abbrev gO (j : Fin 128) : Fin 512 := ⟨384 + j.val, by have := j.isLt; omega⟩

/-! ## The two groupings of the gate pre-activations -/

/-- Three partial products, one per piece of the row, added left to right; then the bias. -/
def gateK (h : Fin 128 → EReal) (r : Fin 768 → EReal) (t : Fin 128 → EReal) (W : Fin 512 → Fin 1024 → EReal)
    (b : Fin 512 → EReal) (n : Fin 512) : EReal :=
  ((∑ k : Fin 128, h k * W n (colH k)) + (∑ k : Fin 768, r k * W n (colR k))) + (∑ k : Fin 128, t k * W n (colT k)) + b n

/-- The joined row `h ++ r ++ t`. -/
def feat (h : Fin 128 → EReal) (r : Fin 768 → EReal) (t : Fin 128 → EReal) : Fin 1024 → EReal := fun j =>
  if h1 : j.val < 128 then h ⟨j.val, h1⟩
  else if h2 : j.val < 896 then r ⟨j.val - 128, by omega⟩
  else t ⟨j.val - 896, by have := j.isLt; omega⟩

theorem feat_colH (h : Fin 128 → EReal) (r : Fin 768 → EReal) (t : Fin 128 → EReal) (k : Fin 128) :
    feat h r t (colH k) = h k := by
  unfold feat
  rw [dif_pos (show (colH k).val < 128 from k.isLt)]

theorem feat_colR (h : Fin 128 → EReal) (r : Fin 768 → EReal) (t : Fin 128 → EReal) (k : Fin 768) :
    feat h r t (colR k) = r k := by
  unfold feat
  rw [dif_neg (show ¬(colR k).val < 128 by show ¬128 + k.val < 128; omega),
    dif_pos (show (colR k).val < 896 by have := k.isLt; show 128 + k.val < 896; omega)]
  exact congrArg r (Fin.ext (by show 128 + k.val - 128 = k.val; omega))

theorem feat_colT (h : Fin 128 → EReal) (r : Fin 768 → EReal) (t : Fin 128 → EReal) (k : Fin 128) :
    feat h r t (colT k) = t k := by
  unfold feat
  rw [dif_neg (show ¬(colT k).val < 128 by show ¬896 + k.val < 128; omega),
    dif_neg (show ¬(colT k).val < 896 by show ¬896 + k.val < 896; omega)]
  exact congrArg t (Fin.ext (by show 896 + k.val - 896 = k.val; omega))

/-- The joined row contracted against a row of `W` in one sum; then the bias. -/
def gateR (h : Fin 128 → EReal) (r : Fin 768 → EReal) (t : Fin 128 → EReal) (W : Fin 512 → Fin 1024 → EReal)
    (b : Fin 512 → EReal) (n : Fin 512) : EReal :=
  (∑ j : Fin 1024, feat h r t j * W n j) + b n

/-- A sum over 1024 positions is the sum over the first 128, the next 768 and the last 128. -/
theorem sum_split {M : Type*} [AddCommMonoid M] (f : Fin 1024 → M) :
    ∑ j : Fin 1024, f j
      = ((∑ k : Fin 128, f (colH k)) + (∑ k : Fin 768, f (colR k))) + ∑ k : Fin 128, f (colT k) := by
  have e1 : ∑ j : Fin 1024, f j
      = (∑ i : Fin (128 + 768), f (Fin.castAdd 128 i)) + ∑ i : Fin 128, f (Fin.natAdd (128 + 768) i) :=
    Fin.sum_univ_add (a := 128 + 768) (b := 128) f
  have e2 : ∑ i : Fin (128 + 768), f (Fin.castAdd 128 i)
      = (∑ i : Fin 128, f (Fin.castAdd 128 (Fin.castAdd 768 i))) + ∑ i : Fin 768, f (Fin.castAdd 128 (Fin.natAdd 128 i)) :=
    Fin.sum_univ_add (a := 128) (b := 768) fun i => f (Fin.castAdd 128 i)
  rw [e1, e2]
  rfl

theorem gateR_eq_gateK (h : Fin 128 → EReal) (r : Fin 768 → EReal) (t : Fin 128 → EReal) (W : Fin 512 → Fin 1024 → EReal)
    (b : Fin 512 → EReal) : gateR h r t W b = gateK h r t W b := by
  funext n
  unfold gateR gateK
  rw [sum_split]
  simp only [feat_colH, feat_colR, feat_colT]

/-! ## The score -/

/-- The score from the gate pre-activations. -/
def scoreOf (g : Fin 512 → EReal) : EReal :=
  Ideal.logistic (∑ j : Fin 128,
    Ideal.logistic (g (gO j)) * Ideal.tanh (Ideal.logistic (g (gI j)) * Ideal.tanh (g (gG j))))

/-- The score of one row, the gates grouped as three partial products. -/
def scoreAt (h : Fin 128 → EReal) (r : Fin 768 → EReal) (t : Fin 128 → EReal) (W : Fin 512 → Fin 1024 → EReal)
    (b : Fin 512 → EReal) : EReal :=
  scoreOf (gateK h r t W b)

/-- Grouped as one contraction of the joined row it is the same number. -/
theorem scoreOf_gateR (h : Fin 128 → EReal) (r : Fin 768 → EReal) (t : Fin 128 → EReal) (W : Fin 512 → Fin 1024 → EReal)
    (b : Fin 512 → EReal) : scoreOf (gateR h r t W b) = scoreAt h r t W b := by
  rw [gateR_eq_gateK]; rfl

end Cert.Lstm

end
-- ==== Proof.LstmKernel.lean ====
/-
  The scoring kernel's stored value at one row of a 2048-row block.

  The body's arithmetic is one pure term over the seven blocks it loads: three row pieces (`v0`, `v2`, `v4`: 128, 768
  and 128 columns), three weight blocks laid out contraction-major (`v6`, `v9`, `v12`: 128, 768 and 128 rows of 512
  gate columns) and one bias row `v20`. It forms the 512 gate pre-activations of every row as three matrix products into
  zero accumulators added left to right, adds the bias row to every row, cuts the input-gate, cell-candidate and
  output-gate bands (columns 0, 256 and 384, 128 wide each), and reduces
  `logistic(o) · tanh(logistic(i) · tanh(g))` over the 128 lanes; the stored value is the logistic of that sum.

  At the extended reals every format change is the identity and a matrix product into a zero accumulator is the plain
  sum over the contracted axis, so at row `p` the stored value is `Cert.Lstm.scoreAt` of the row's three pieces.
-/
import proofs.«117671_j50156628082716_2_alg».proof.Proof.Gen.KernelIdeal.Skeleton
import proofs.«117671_j50156628082716_2_alg».proof.Proof.LstmSpec
import Idealize.ShloMosaic.Lib.ValueLayout
import Idealize.ShloMosaic.PureOps.Ideal.Laws

noncomputable section

open scoped BigOperators

namespace Cert.KernelIdeal.LstmKernel

open Cert.KernelIdeal Cert.KernelIdeal.Gen Idealize.ShloMosaic Idealize.ShloMosaic.ValueIdx Cert.Lstm

/-! ## The two matrix products at an entry -/

theorem lhs128_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl
theorem lhs128_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs128_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs128_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

/-- A 2048 × 128 by 128 × 512 product into the zero accumulator, at `(p, n)`: the sum over the 128 contracted positions. -/
theorem mm128_apply (lhs : FVec Ideal S2048x128 .bf16) (rhs : FVec Ideal S128x512 .bf16) (p : Fin 2048) (n : Fin 512) :
    matmul dot_S2048x128_S128x512_S2048x512_1_0_0_1_n_n none lhs rhs (constant (F := Ideal) S2048x512 .f32 0x00000000#32) (ix2 p n)
      = ∑ k : Fin 128, lhs (ix2 p k) * rhs (ix2 k n) := by
  simp only [matmul]
  rw [Ideal.matmul_constant_zero_apply,
    ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p n)
      ((contrEquiv1 dot_S2048x128_S128x512_S2048x512_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S2048x128_S128x512_S2048x512_1_0_0_1_n_n.rhsIdx (ix2 p n)
      ((contrEquiv1 dot_S2048x128_S128x512_S2048x512_1_0_0_1_n_n 128 rfl rfl).symm k) = ix2 k n :=
    funext fun a => Fin.ext (by
      match a with
      | ⟨0, _⟩ => exact (rhs128_0 _ _).trans hk
      | ⟨1, _⟩ => exact rhs128_1 _ _)
  rw [el, er]

theorem lhs768_0 (i : S2048x512.Idx) (q : dot_S2048x768_S768x512_S2048x512_1_0_0_1_n_n.contr.Idx) :
    (dot_S2048x768_S768x512_S2048x512_1_0_0_1_n_n.lhsIdx i q 0).val = (i 0).val := by
  unfold DotDims.lhsIdx
  rw [dif_neg (show ¬(0 : Fin S2048x768.rank) ∈ dot_S2048x768_S768x512_S2048x512_1_0_0_1_n_n.lhsBatch by decide),
    dif_pos (show (0 : Fin S2048x768.rank) ∈ dot_S2048x768_S768x512_S2048x512_1_0_0_1_n_n.lhsNonContracting by decide)]
  rfl
theorem lhs768_1 (i : S2048x512.Idx) (q : dot_S2048x768_S768x512_S2048x512_1_0_0_1_n_n.contr.Idx) :
    (dot_S2048x768_S768x512_S2048x512_1_0_0_1_n_n.lhsIdx i q 1).val = (q ⟨0, by decide⟩).val :=
  dot_S2048x768_S768x512_S2048x512_1_0_0_1_n_n.lhsIdx_val_of_single rfl i q
theorem rhs768_0 (i : S2048x512.Idx) (q : dot_S2048x768_S768x512_S2048x512_1_0_0_1_n_n.contr.Idx) :
    (dot_S2048x768_S768x512_S2048x512_1_0_0_1_n_n.rhsIdx i q 0).val = (q ⟨0, by decide⟩).val :=
  dot_S2048x768_S768x512_S2048x512_1_0_0_1_n_n.rhsIdx_val_of_single rfl i q
theorem rhs768_1 (i : S2048x512.Idx) (q : dot_S2048x768_S768x512_S2048x512_1_0_0_1_n_n.contr.Idx) :
    (dot_S2048x768_S768x512_S2048x512_1_0_0_1_n_n.rhsIdx i q 1).val = (i 1).val := by
  unfold DotDims.rhsIdx
  rw [dif_neg (show ¬(1 : Fin S768x512.rank) ∈ dot_S2048x768_S768x512_S2048x512_1_0_0_1_n_n.rhsBatch by decide),
    dif_pos (show (1 : Fin S768x512.rank) ∈ dot_S2048x768_S768x512_S2048x512_1_0_0_1_n_n.rhsNonContracting by decide)]
  rfl

/-- A 2048 × 768 by 768 × 512 product into the zero accumulator, at `(p, n)`: the sum over the 768 contracted positions. -/
theorem mm768_apply (lhs : FVec Ideal S2048x768 .bf16) (rhs : FVec Ideal S768x512 .bf16) (p : Fin 2048) (n : Fin 512) :
    matmul dot_S2048x768_S768x512_S2048x512_1_0_0_1_n_n none lhs rhs (constant (F := Ideal) S2048x512 .f32 0x00000000#32) (ix2 p n)
      = ∑ k : Fin 768, lhs (ix2 p k) * rhs (ix2 k n) := by
  simp only [matmul]
  rw [Ideal.matmul_constant_zero_apply,
    ← Equiv.sum_comp (contrEquiv1 dot_S2048x768_S768x512_S2048x512_1_0_0_1_n_n 768 rfl rfl).symm]
  refine Finset.sum_congr rfl fun k _ => ?_
  have hk := contrEquiv1_symm_val dot_S2048x768_S768x512_S2048x512_1_0_0_1_n_n 768 rfl rfl k
  have el : dot_S2048x768_S768x512_S2048x512_1_0_0_1_n_n.lhsIdx (ix2 p n)
      ((contrEquiv1 dot_S2048x768_S768x512_S2048x512_1_0_0_1_n_n 768 rfl rfl).symm k) = ix2 p k :=
    funext fun a => Fin.ext (by
      match a with
      | ⟨0, _⟩ => exact lhs768_0 _ _
      | ⟨1, _⟩ => exact (lhs768_1 _ _).trans hk)
  have er : dot_S2048x768_S768x512_S2048x512_1_0_0_1_n_n.rhsIdx (ix2 p n)
      ((contrEquiv1 dot_S2048x768_S768x512_S2048x512_1_0_0_1_n_n 768 rfl rfl).symm k) = ix2 k n :=
    funext fun a => Fin.ext (by
      match a with
      | ⟨0, _⟩ => exact (rhs768_0 _ _).trans hk
      | ⟨1, _⟩ => exact rhs768_1 _ _)
  rw [el, er]

/-! ## The body in two stages: the gate pre-activations, then the score from them -/

/-- The 2048 × 512 gate pre-activations: three products added left to right, then the bias row on every row. -/
def preact (v0 : Vec Ideal S2048x128 .bf16) (v2 : Vec Ideal S2048x768 .f32) (v4 : Vec Ideal S2048x128 .bf16)
    (v6 : Vec Ideal S128x512 .f32) (v9 : Vec Ideal S768x512 .f32) (v12 : Vec Ideal S128x512 .f32) (v20 : Vec Ideal S1x512 .f32) :
    FVec Ideal S2048x512 .f32 :=
  addf
    (addf
      (addf
        (matmul dot_S2048x128_S128x512_S2048x512_1_0_0_1_n_n none
          (shapeCast S2048x128 v0 shapeCasts_S2048x128_S2048x128 : FVec Ideal S2048x128 .bf16)
          (truncf .bf16 (shapeCast S128x512 v6 shapeCasts_S128x512_S128x512 : FVec Ideal S128x512 .f32) bitsLt_bf16_f32)
          (constant S2048x512 .f32 0x00000000#32))
        (matmul dot_S2048x768_S768x512_S2048x512_1_0_0_1_n_n none
          (truncf .bf16 (v2 : FVec Ideal S2048x768 .f32) bitsLt_bf16_f32)
          (truncf .bf16 (shapeCast S768x512 v9 shapeCasts_S768x512_S768x512 : FVec Ideal S768x512 .f32) bitsLt_bf16_f32)
          (constant S2048x512 .f32 0x00000000#32)))
      (matmul dot_S2048x128_S128x512_S2048x512_1_0_0_1_n_n none
        (shapeCast S2048x128 v4 shapeCasts_S2048x128_S2048x128 : FVec Ideal S2048x128 .bf16)
        (truncf .bf16 (shapeCast S128x512 v12 shapeCasts_S128x512_S128x512 : FVec Ideal S128x512 .f32) bitsLt_bf16_f32)
        (constant S2048x512 .f32 0x00000000#32)))
    (broadcastTo S2048x512 (shapeCast S1x512 v20 shapeCasts_S1x512_S1x512 : FVec Ideal S1x512 .f32) broadcasts_S1x512_S2048x512)

/-- The stored vector from the pre-activations: the three bands cut out, the gated product summed over the lanes,
    and the logistic of the sum. -/
def scoreVec (g : FVec Ideal S2048x512 .f32) : FVec Ideal S2048 .f32 :=
  logistic
    (multiReduction .add [1] S2048
      (mulf (logistic (extractStridedSlice S2048x128 ![0, 384] g slices_S2048x512_o0_384_S2048x128))
        (tanh (mulf (logistic (extractStridedSlice S2048x128 ![0, 0] g slices_S2048x512_o0_0_S2048x128))
          (tanh (extractStridedSlice S2048x128 ![0, 256] g slices_S2048x512_o0_256_S2048x128)))))
      0x00000000#32 reduces_S2048x128_S2048 (.inl rfl) rfl)

/-- The body's one pure term is the second stage of the first. -/
theorem k2_pay1_eq (v0 : Vec Ideal S2048x128 .bf16) (v2 : Vec Ideal S2048x768 .f32) (v4 : Vec Ideal S2048x128 .bf16)
    (v6 : Vec Ideal S128x512 .f32) (v9 : Vec Ideal S768x512 .f32) (v12 : Vec Ideal S128x512 .f32) (v20 : Vec Ideal S1x512 .f32) :
    k2_pay1 (F := Ideal) v0 v2 v4 v6 v9 v12 v20 = scoreVec (preact v0 v2 v4 v6 v9 v12 v20) := rfl

/-- The pre-activation of gate column `n` at row `p`, from what the blocks hold at the row and at the column. -/
theorem preact_apply (v0 : Vec Ideal S2048x128 .bf16) (v2 : Vec Ideal S2048x768 .f32) (v4 : Vec Ideal S2048x128 .bf16)
    (v6 : Vec Ideal S128x512 .f32) (v9 : Vec Ideal S768x512 .f32) (v12 : Vec Ideal S128x512 .f32) (v20 : Vec Ideal S1x512 .f32)
    (h : Fin 128 → EReal) (r : Fin 768 → EReal) (t : Fin 128 → EReal) (W : Fin 512 → Fin 1024 → EReal) (b : Fin 512 → EReal)
    (p : Fin 2048)
    (hh : ∀ k : Fin 128, v0 (ix2 p k) = h k) (hr : ∀ k : Fin 768, v2 (ix2 p k) = r k) (ht : ∀ k : Fin 128, v4 (ix2 p k) = t k)
    (hW6 : ∀ (k : Fin 128) (n : Fin 512), v6 (ix2 k n) = W n (colH k))
    (hW9 : ∀ (k : Fin 768) (n : Fin 512), v9 (ix2 k n) = W n (colR k))
    (hW12 : ∀ (k : Fin 128) (n : Fin 512), v12 (ix2 k n) = W n (colT k))
    (hb : ∀ n : Fin 512, v20 (ix2 (0 : Fin 1) n) = b n) (n : Fin 512) :
    preact v0 v2 v4 v6 v9 v12 v20 (ix2 p n) = gateK h r t W b n := by
  unfold preact gateK
  rw [addf_apply, addf_apply, addf_apply, mm128_apply, mm768_apply, mm128_apply, broadcastTo_1b_ab_apply]
  simp only [shapeCast_self, truncf_apply]
  rw [hb n]
  refine congrArg (· + b n) ?_
  refine congrArg₂ (· + ·) (congrArg₂ (· + ·) ?_ ?_) ?_
  · exact Finset.sum_congr rfl fun k _ => by rw [hh k, hW6 k n]
  · exact Finset.sum_congr rfl fun k _ => by rw [hr k, hW9 k n]
  · exact Finset.sum_congr rfl fun k _ => by rw [ht k, hW12 k n]

/-- The second stage at row `p`: the score of the row's 512 pre-activations. -/
theorem scoreVec_apply (g : FVec Ideal S2048x512 .f32) (p : Fin 2048) :
    scoreVec g (ix1 p) = scoreOf fun n => g (ix2 p n) := by
  unfold scoreVec scoreOf
  show Ideal.logistic _ = Ideal.logistic _
  refine congrArg Ideal.logistic ?_
  refine (Ideal.multiReduction_add_single _ 0x00000000#32 reduces_S2048x128_S2048 (.inl rfl) rfl (ix1 p)).trans ?_
  refine Finset.sum_congr rfl fun k _ => ?_
  have e : reduces_S2048x128_S2048.lift (ix1 p) k = ix2 p k :=
    funext fun a => Fin.ext (by match a with | ⟨0, _⟩ => rfl | ⟨1, _⟩ => rfl)
  rw [e]
  show Ideal.logistic (extractStridedSlice S2048x128 ![0, 384] g slices_S2048x512_o0_384_S2048x128 (ix2 p k))
      * Ideal.tanh (Ideal.logistic (extractStridedSlice S2048x128 ![0, 0] g slices_S2048x512_o0_0_S2048x128 (ix2 p k))
        * Ideal.tanh (extractStridedSlice S2048x128 ![0, 256] g slices_S2048x512_o0_256_S2048x128 (ix2 p k))) = _
  rw [slice2_axis1_apply 384 g slices_S2048x512_o0_384_S2048x128 p k (gO k) rfl,
    slice2_axis1_apply 0 g slices_S2048x512_o0_0_S2048x128 p k (gI k) (Nat.zero_add _).symm,
    slice2_axis1_apply 256 g slices_S2048x512_o0_256_S2048x128 p k (gG k) rfl]

/-! ## The stored value at a row -/

/-- **The body's stored value at row `p`** is the score of the row: `h`, `r`, `t` are what the three row blocks hold at
    row `p`, `W` what the three weight blocks hold (block rows are the weight matrix's columns `0‥127`, `128‥895`,
    `896‥1023`; block columns its rows), `b` what the bias row holds. -/
theorem k2_pay1_apply_of (v0 : Vec Ideal S2048x128 .bf16) (v2 : Vec Ideal S2048x768 .f32) (v4 : Vec Ideal S2048x128 .bf16)
    (v6 : Vec Ideal S128x512 .f32) (v9 : Vec Ideal S768x512 .f32) (v12 : Vec Ideal S128x512 .f32) (v20 : Vec Ideal S1x512 .f32)
    (h : Fin 128 → EReal) (r : Fin 768 → EReal) (t : Fin 128 → EReal) (W : Fin 512 → Fin 1024 → EReal) (b : Fin 512 → EReal)
    (p : Fin 2048)
    (hh : ∀ k : Fin 128, v0 (ix2 p k) = h k) (hr : ∀ k : Fin 768, v2 (ix2 p k) = r k) (ht : ∀ k : Fin 128, v4 (ix2 p k) = t k)
    (hW6 : ∀ (k : Fin 128) (n : Fin 512), v6 (ix2 k n) = W n (colH k))
    (hW9 : ∀ (k : Fin 768) (n : Fin 512), v9 (ix2 k n) = W n (colR k))
    (hW12 : ∀ (k : Fin 128) (n : Fin 512), v12 (ix2 k n) = W n (colT k))
    (hb : ∀ n : Fin 512, v20 (ix2 (0 : Fin 1) n) = b n) :
    k2_pay1 (F := Ideal) v0 v2 v4 v6 v9 v12 v20 (ix1 p) = scoreAt h r t W b := by
  rw [k2_pay1_eq, scoreVec_apply]
  unfold scoreAt
  exact congrArg scoreOf (funext fun n => preact_apply v0 v2 v4 v6 v9 v12 v20 h r t W b p hh hr ht hW6 hW9 hW12 hb n)

/-- The same with the row's three pieces read off the row blocks. -/
theorem k2_pay1_apply (v0 : Vec Ideal S2048x128 .bf16) (v2 : Vec Ideal S2048x768 .f32) (v4 : Vec Ideal S2048x128 .bf16)
    (v6 : Vec Ideal S128x512 .f32) (v9 : Vec Ideal S768x512 .f32) (v12 : Vec Ideal S128x512 .f32) (v20 : Vec Ideal S1x512 .f32)
    (W : Fin 512 → Fin 1024 → EReal) (b : Fin 512 → EReal) (p : Fin 2048)
    (hW6 : ∀ (k : Fin 128) (n : Fin 512), v6 (ix2 k n) = W n (colH k))
    (hW9 : ∀ (k : Fin 768) (n : Fin 512), v9 (ix2 k n) = W n (colR k))
    (hW12 : ∀ (k : Fin 128) (n : Fin 512), v12 (ix2 k n) = W n (colT k))
    (hb : ∀ n : Fin 512, v20 (ix2 (0 : Fin 1) n) = b n) :
    k2_pay1 (F := Ideal) v0 v2 v4 v6 v9 v12 v20 (ix1 p)
      = scoreAt (fun k => v0 (ix2 p k)) (fun k => v2 (ix2 p k)) (fun k => v4 (ix2 p k)) W b :=
  k2_pay1_apply_of v0 v2 v4 v6 v9 v12 v20 _ _ _ W b p (fun _ => rfl) (fun _ => rfl) (fun _ => rfl) hW6 hW9 hW12 hb

end Cert.KernelIdeal.LstmKernel

end
-- ==== Proof.Body2Rows.lean ====
/-
  Row-independence of region 2's scores at the real-valued operations.

  A row of the scores is computed from the same row of the three row-blocked inputs: a dense product's entry at
  `(p, n)` is the sum over row `p` of the left operand, the bias is added per column, the gates are cut per row, the
  lane reduction runs along the row, and the logistic is pointwise. So contents of the three inputs' buffers that agree
  on a row give the same score on that row. A transfer of the output window moves the rows below the array's end, the
  same rows the three inputs' transfers move (every lane of them): filling the inputs' buffers past the array's end
  with anything gives the scores of the zero-filled buffers on the moved rows.
-/
import proofs.«117671_j50156628082716_2_alg».proof.Proof.Body2
import proofs.«117671_j50156628082716_2_alg».proof.Proof.LstmKernel

set_option maxRecDepth 16384

noncomputable section

open scoped BigOperators

namespace Cert.KernelIdeal.Hand

open Cert.KernelIdeal Cert.KernelIdeal.Gen Cert.KernelIdeal.LstmKernel
open Idealize.ShloMosaic Idealize.ShloMosaic.ValueIdx
open Idealize.ShloMosaic.Pipeline (Window)

/-- Contents of the three row-blocked inputs that agree on row `p` give the same gate pre-activations on row `p`. -/
theorem preact_row_congr (v0 v0' : Vec Ideal S2048x128 .bf16) (v2 v2' : Vec Ideal S2048x768 .f32) (v4 v4' : Vec Ideal S2048x128 .bf16)
    (v6 : Vec Ideal S128x512 .f32) (v9 : Vec Ideal S768x512 .f32) (v12 : Vec Ideal S128x512 .f32) (v20 : Vec Ideal S1x512 .f32)
    (p : Fin 2048) (h0 : ∀ k : Fin 128, v0 (ix2 p k) = v0' (ix2 p k)) (h2 : ∀ k : Fin 768, v2 (ix2 p k) = v2' (ix2 p k))
    (h4 : ∀ k : Fin 128, v4 (ix2 p k) = v4' (ix2 p k)) (n : Fin 512) :
    preact v0 v2 v4 v6 v9 v12 v20 (ix2 p n) = preact v0' v2' v4' v6 v9 v12 v20 (ix2 p n) := by
  unfold preact
  simp only [addf_apply, mm128_apply, mm768_apply, shapeCast_self, truncf_apply, h0, h2, h4]

/-- and so the same score on row `p`. -/
theorem k2_pay1_row_congr (v0 v0' : Vec Ideal S2048x128 .bf16) (v2 v2' : Vec Ideal S2048x768 .f32) (v4 v4' : Vec Ideal S2048x128 .bf16)
    (v6 : Vec Ideal S128x512 .f32) (v9 : Vec Ideal S768x512 .f32) (v12 : Vec Ideal S128x512 .f32) (v20 : Vec Ideal S1x512 .f32)
    (p : Fin 2048) (h0 : ∀ k : Fin 128, v0 (ix2 p k) = v0' (ix2 p k)) (h2 : ∀ k : Fin 768, v2 (ix2 p k) = v2' (ix2 p k))
    (h4 : ∀ k : Fin 128, v4 (ix2 p k) = v4' (ix2 p k)) :
    k2_pay1 (F := Ideal) v0 v2 v4 v6 v9 v12 v20 (ix1 p) = k2_pay1 (F := Ideal) v0' v2' v4' v6 v9 v12 v20 (ix1 p) := by
  rw [k2_pay1_eq, k2_pay1_eq, scoreVec_apply, scoreVec_apply]
  exact congrArg Cert.Lstm.scoreOf (funext fun n => preact_row_congr v0 v0' v2 v2' v4 v4' v6 v9 v12 v20 p h0 h2 h4 n)

/-- Two fillings of a block agree wherever the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- At every point the output's transfer moves no more rows than the three row-blocked inputs' transfers, which
    move every lane (decided over the 49 points). -/
theorem rows_moved : ∀ t : Fin grid2.N,
    win2_7.xsize (grid2.coords t) 0 ≤ win2_0.xsize (grid2.coords t) 0 ∧ win2_0.xsize (grid2.coords t) 1 = 128
    ∧ win2_7.xsize (grid2.coords t) 0 ≤ win2_1.xsize (grid2.coords t) 0 ∧ win2_1.xsize (grid2.coords t) 1 = 768
    ∧ win2_7.xsize (grid2.coords t) 0 ≤ win2_2.xsize (grid2.coords t) 0 ∧ win2_2.xsize (grid2.coords t) 1 = 128 := by
  decide +kernel

/-- Row-independence at the real-valued operations. -/
theorem rows_only : RowsOnly (F := Ideal) := by
  intro t d0 d1 d2 x0 x1 x2 w3 w4 w5 w6
  funext j
  obtain ⟨r0, l0, r1, l1, r2, l2⟩ := rows_moved t
  have hj : (j 0).val < win2_7.xsize (grid2.coords t) 0 := (j 0).isLt
  have hp : (j 0).val < 2048 := Nat.lt_of_lt_of_le hj (win2_7.xsize_le (grid2.coords t) 0)
  have e : win2_7.xinj (grid2.coords t) j = ix1 (⟨(j 0).val, hp⟩ : Fin 2048) :=
    funext fun a => Fin.ext (by match a with | ⟨0, _⟩ => rfl)
  show k2_pay1 (F := Ideal) _ _ _ _ _ _ _ (win2_7.xinj (grid2.coords t) j) = k2_pay1 (F := Ideal) _ _ _ _ _ _ _ (win2_7.xinj (grid2.coords t) j)
  rw [e]
  refine k2_pay1_row_congr _ _ _ _ _ _ _ _ _ _ _ ?_ ?_ ?_
  · intro k
    refine fill_eq_of_moved win2_0 _ _ _ _ ((win2_0.moved_iff _ _).mpr fun a => ?_)
    match a with
    | ⟨0, _⟩ => exact Nat.lt_of_lt_of_le hj r0
    | ⟨1, _⟩ => exact Nat.lt_of_lt_of_eq k.isLt l0.symm
  · intro k
    refine fill_eq_of_moved win2_1 _ _ _ _ ((win2_1.moved_iff _ _).mpr fun a => ?_)
    match a with
    | ⟨0, _⟩ => exact Nat.lt_of_lt_of_le hj r1
    | ⟨1, _⟩ => exact Nat.lt_of_lt_of_eq k.isLt l1.symm
  · intro k
    refine fill_eq_of_moved win2_2 _ _ _ _ ((win2_2.moved_iff _ _).mpr fun a => ?_)
    match a with
    | ⟨0, _⟩ => exact Nat.lt_of_lt_of_le hj r2
    | ⟨1, _⟩ => exact Nat.lt_of_lt_of_eq k.isLt l2.symm

end Cert.KernelIdeal.Hand

end
-- ==== Proof.RunIdeal.lean ====
/-
  The valued run at the real-valued operations: row-independence of region 2's scores holds there, so the run of
  the whole program ends with the result array at `o10` and the argument arrays as launched, with no hypothesis.
-/
import proofs.«117671_j50156628082716_2_alg».proof.Proof.Run
import proofs.«117671_j50156628082716_2_alg».proof.Proof.Body2Rows

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- At the compiled mesh, from any memory with zero counters: every weakly fair execution of @main on the TensorCores
    terminates, nothing faulting, and every final state has the result array `main_v92` at `o10` and the argument
    arrays as launched. -/
theorem run_valued :
    θ_run (Cert.KernelIdeal.defs (F := Ideal)) (onTc (τ := τ) (main (F := Ideal))) ⟨m, fun _ => 0, ρ⟩ (fun r => ∀ c : Dev nD,
      r.2.mem ((c.tc : Thread nD τ).loc main_v92) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_valued_gen m ρ rows_only

end Cert.KernelIdeal.Hand

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.GcnPre.lean ====
/-
  From the precondition to real entries.

  The precondition takes, for each float argument x, the conjunction over all entries of |x_i| < +∞ and then the
  conjunction of the ten results, and states that the answer is 1.  A conjunction that is 1 has every conjunct 1, and
  |x_i| < +∞ on the extended reals says that x_i is neither infinity: the image of a real number.
-/
import proofs.«117671_j50156628082716_2_alg».proof.Proof.Gen.Pre_finite_inputs
import proofs.«117671_j50156628082716_2_alg».proof.Proof.LibFiniteEntries
import Idealize.ShloMosaic.Lib.ValueIdx

noncomputable section

namespace Cert.ReferenceIdeal.RefGcn

open Idealize.ShloMosaic Cert.Pre_finite_inputs Cert.Pre_finite_inputs.Gen

/-- One conjunct: the conjunction over all entries of `|x_i| < +∞` being 1 makes every entry of `x` a real number. -/
theorem real_of_all_lt_inf {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) h hu ValueIdx.ix0 = 1#1) :
    ∀ i, ∃ r : ℝ, x i = (r : EReal) := by
  have hx := LibFiniteEntries.real_of_all_abs_lt x _ (fun _ => rfl) _ h hu ValueIdx.ix0 e
  intro i
  exact ⟨(x i).toReal, congrFun hx i⟩

/-- THE PRECONDITION MAKES EVERY FLOAT ARGUMENT REAL. -/
theorem real_inputs_of_pre (a0 : FVec Ideal Cert.Pre_finite_inputs.S15000x768 .f32)
    (a1 : FVec Ideal Cert.Pre_finite_inputs.S100000x768 .f32) (a2 : FVec Ideal Cert.Pre_finite_inputs.S768x10 .f32)
    (a3 : FVec Ideal Cert.Pre_finite_inputs.S10 .f32) (a4 : FVec Ideal Cert.Pre_finite_inputs.S10x128 .f32)
    (a5 : FVec Ideal Cert.Pre_finite_inputs.S128 .f32) (a6 : FVec Ideal Cert.Pre_finite_inputs.S512x1024 .f32)
    (a7 : FVec Ideal Cert.Pre_finite_inputs.S512x128 .f32) (a8 : FVec Ideal Cert.Pre_finite_inputs.S512 .f32)
    (a9 : FVec Ideal Cert.Pre_finite_inputs.S512 .f32) (a10 : IVec Cert.Pre_finite_inputs.S2x200000 32)
    (a11 : IVec Cert.Pre_finite_inputs.S100000x3 32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h1 := congrFun h ValueIdx.ix0
  dsimp only [Cert.Pre_finite_inputs.fn, Cert.Pre_finite_inputs.fn_part1, Cert.Pre_finite_inputs.fn_part2,
    Idealize.ShloMosaic.andi] at h1
  simp only [IntOp.andi_eq_one] at h1
  obtain ⟨⟨⟨⟨⟨⟨⟨⟨⟨e0, e1⟩, e2⟩, e3⟩, e4⟩, e5⟩, e6⟩, e7⟩, e8⟩, e9⟩ := h1
  exact ⟨real_of_all_lt_inf a0 _ _ _ e0, real_of_all_lt_inf a1 _ _ _ e1, real_of_all_lt_inf a2 _ _ _ e2,
    real_of_all_lt_inf a3 _ _ _ e3, real_of_all_lt_inf a4 _ _ _ e4, real_of_all_lt_inf a5 _ _ _ e5,
    real_of_all_lt_inf a6 _ _ _ e6, real_of_all_lt_inf a7 _ _ _ e7, real_of_all_lt_inf a8 _ _ _ e8,
    real_of_all_lt_inf a9 _ _ _ e9⟩

end Cert.ReferenceIdeal.RefGcn

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibHostDotIdx.lean ====
/-
  A host product of two matrices at exact arithmetic, read at an entry: the sum over the contracted axis of the
  products of the left factor's row entries with the right factor's column entries. Stated for any contraction
  record between two-axis shapes whose operand indices are "row of the result, contracted position" and
  "contracted position, column of the result" — the same reading the TensorCore product has, so that the two
  meet in one sum.
-/
import Idealize.ShloMosaic.Lib.ValueIdx
import Idealize.ShloMosaic.PureOps.Ideal.Laws

noncomputable section

namespace LibHostDotIdx

open Idealize.ShloMosaic Idealize.ShloMosaic.ValueIdx

/-- The host's `dot_general` of an M×K by a K×N matrix, at entry `j`: Σ_k l[j₀,k] · r[k,j₁]. -/
theorem hostDot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j
      = ∑ k : Fin K, l (ix2 (n0 := M) (n1 := K) (j 0) k) * r (ix2 (n0 := K) (n1 := N) k (j 1)) := by
  simp only [Host.dotGeneral]
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibHostDotIdx

end
-- ==== Proof.Value01.lean ====
/-
  What regions 0 and 1 leave in their result arrays, as one function of the arrays they were entered with.

  Each region is a row-blocked matrix product: grid point `t` multiplies rows `1000·t … 1000·t + 999` of the left
  factor by the whole right factor and writes the block back onto the same rows of the result; the fifteen blocks
  tile the 15000 rows. At exact arithmetic a product into a zero accumulator is, entry by entry, the sum over the
  contracted axis, and the narrowing of the operands is the identity; so block `t` of the result is block `t` of
  the host's `dot_general` of the WHOLE factors, and the result array ends holding that product.
-/
import proofs.«117671_j50156628082716_2_alg».proof.Proof.RegionData
import proofs.«117671_j50156628082716_2_alg».proof.Proof.RefRead
import proofs.«117671_j50156628082716_2_alg».proof.Proof.LibMatmulIdx
import proofs.«117671_j50156628082716_2_alg».proof.Proof.LibHostDotIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The two block products at an entry -/

theorem d0_l0 (i : S1000x10.Idx) (q : dot_S1000x768_S768x10_S1000x10_1_0_0_1_n_n.contr.Idx) :
    (dot_S1000x768_S768x10_S1000x10_1_0_0_1_n_n.lhsIdx i q 0).val = (i 0).val := by
  unfold DotDims.lhsIdx
  rw [dif_neg (show ¬(0 : Fin S1000x768.rank) ∈ dot_S1000x768_S768x10_S1000x10_1_0_0_1_n_n.lhsBatch by decide),
    dif_pos (show (0 : Fin S1000x768.rank) ∈ dot_S1000x768_S768x10_S1000x10_1_0_0_1_n_n.lhsNonContracting by decide)]
  rfl
theorem d0_l1 (i : S1000x10.Idx) (q : dot_S1000x768_S768x10_S1000x10_1_0_0_1_n_n.contr.Idx) :
    (dot_S1000x768_S768x10_S1000x10_1_0_0_1_n_n.lhsIdx i q 1).val = (q ⟨0, by decide⟩).val :=
  dot_S1000x768_S768x10_S1000x10_1_0_0_1_n_n.lhsIdx_val_of_single rfl i q
theorem d0_r0 (i : S1000x10.Idx) (q : dot_S1000x768_S768x10_S1000x10_1_0_0_1_n_n.contr.Idx) :
    (dot_S1000x768_S768x10_S1000x10_1_0_0_1_n_n.rhsIdx i q 0).val = (q ⟨0, by decide⟩).val :=
  dot_S1000x768_S768x10_S1000x10_1_0_0_1_n_n.rhsIdx_val_of_single rfl i q
theorem d0_r1 (i : S1000x10.Idx) (q : dot_S1000x768_S768x10_S1000x10_1_0_0_1_n_n.contr.Idx) :
    (dot_S1000x768_S768x10_S1000x10_1_0_0_1_n_n.rhsIdx i q 1).val = (i 1).val := by
  unfold DotDims.rhsIdx
  rw [dif_neg (show ¬(1 : Fin S768x10.rank) ∈ dot_S1000x768_S768x10_S1000x10_1_0_0_1_n_n.rhsBatch by decide),
    dif_pos (show (1 : Fin S768x10.rank) ∈ dot_S1000x768_S768x10_S1000x10_1_0_0_1_n_n.rhsNonContracting by decide)]
  rfl

/-- Region 0's stored block at an entry: a thousand rows of the left factor against the whole right factor. -/
theorem pay0_apply (x : Vec Ideal S1000x768 .f32) (w : Vec Ideal S768x10 .f32) (j : S1000x10.Idx) :
    k0_pay1 (F := Ideal) x w j = ∑ k : Fin 768, x (ix2 (n0 := 1000) (n1 := 768) (j 0) k) * w (ix2 (n0 := 768) (n1 := 10) k (j 1)) := by
  show FloatOps.matmul (F := Ideal) dot_S1000x768_S768x10_S1000x10_1_0_0_1_n_n none
    (truncf .bf16 x bitsLt_bf16_f32) (truncf .bf16 w bitsLt_bf16_f32) (constant S1000x10 .f32 0x00000000#32) j = _
  rw [LibMatmulIdx.matmul2_apply (M := 1000) (K := 768) (N := 10) dot_S1000x768_S768x10_S1000x10_1_0_0_1_n_n rfl rfl
    d0_l0 d0_l1 d0_r0 d0_r1]
  simp only [truncf_apply]

theorem d1_l0 (i : S1000x128.Idx) (q : dot_S1000x10_S10x128_S1000x128_1_0_0_1_n_n.contr.Idx) :
    (dot_S1000x10_S10x128_S1000x128_1_0_0_1_n_n.lhsIdx i q 0).val = (i 0).val := by
  unfold DotDims.lhsIdx
  rw [dif_neg (show ¬(0 : Fin S1000x10.rank) ∈ dot_S1000x10_S10x128_S1000x128_1_0_0_1_n_n.lhsBatch by decide),
    dif_pos (show (0 : Fin S1000x10.rank) ∈ dot_S1000x10_S10x128_S1000x128_1_0_0_1_n_n.lhsNonContracting by decide)]
  rfl
theorem d1_l1 (i : S1000x128.Idx) (q : dot_S1000x10_S10x128_S1000x128_1_0_0_1_n_n.contr.Idx) :
    (dot_S1000x10_S10x128_S1000x128_1_0_0_1_n_n.lhsIdx i q 1).val = (q ⟨0, by decide⟩).val :=
  dot_S1000x10_S10x128_S1000x128_1_0_0_1_n_n.lhsIdx_val_of_single rfl i q
theorem d1_r0 (i : S1000x128.Idx) (q : dot_S1000x10_S10x128_S1000x128_1_0_0_1_n_n.contr.Idx) :
    (dot_S1000x10_S10x128_S1000x128_1_0_0_1_n_n.rhsIdx i q 0).val = (q ⟨0, by decide⟩).val :=
  dot_S1000x10_S10x128_S1000x128_1_0_0_1_n_n.rhsIdx_val_of_single rfl i q
theorem d1_r1 (i : S1000x128.Idx) (q : dot_S1000x10_S10x128_S1000x128_1_0_0_1_n_n.contr.Idx) :
    (dot_S1000x10_S10x128_S1000x128_1_0_0_1_n_n.rhsIdx i q 1).val = (i 1).val := by
  unfold DotDims.rhsIdx
  rw [dif_neg (show ¬(1 : Fin S10x128.rank) ∈ dot_S1000x10_S10x128_S1000x128_1_0_0_1_n_n.rhsBatch by decide),
    dif_pos (show (1 : Fin S10x128.rank) ∈ dot_S1000x10_S10x128_S1000x128_1_0_0_1_n_n.rhsNonContracting by decide)]
  rfl

/-- Region 1's stored block at an entry. -/
theorem pay1_apply (x : Vec Ideal S1000x10 .f32) (w : Vec Ideal S10x128 .f32) (j : S1000x128.Idx) :
    k1_pay1 (F := Ideal) x w j = ∑ k : Fin 10, x (ix2 (n0 := 1000) (n1 := 10) (j 0) k) * w (ix2 (n0 := 10) (n1 := 128) k (j 1)) := by
  show FloatOps.matmul (F := Ideal) dot_S1000x10_S10x128_S1000x128_1_0_0_1_n_n none
    (truncf .bf16 (shapeCast S1000x10 x shapeCasts_S1000x10_S1000x10) bitsLt_bf16_f32) (truncf .bf16 w bitsLt_bf16_f32)
    (constant S1000x128 .f32 0x00000000#32) j = _
  rw [LibMatmulIdx.matmul2_apply (M := 1000) (K := 10) (N := 128) dot_S1000x10_S10x128_S1000x128_1_0_0_1_n_n rfl rfl
    d1_l0 d1_l1 d1_r0 d1_r1]
  simp only [truncf_apply, shapeCast_self]

/-! ## The whole products the result arrays end at -/

/-- The host product of a 15000 × 768 by a 768 × 10 matrix: what region 0's result array ends holding. -/
abbrev prod0 (x0 : FVec Ideal Cert.ReferenceIdeal.S15000x768 .f32) (x2 : FVec Ideal Cert.ReferenceIdeal.S768x10 .f32) :
    FVec Ideal Cert.ReferenceIdeal.S15000x10 .f32 :=
  Host.dotGeneral Cert.ReferenceIdeal.dot_S15000x768_S768x10_S15000x10_1_0_0_1_n_n none x0 x2

/-- The host product of a 15000 × 10 by a 10 × 128 matrix: what region 1's result array ends holding. -/
abbrev prod1 (a : FVec Ideal Cert.ReferenceIdeal.S15000x10 .f32) (x4 : FVec Ideal Cert.ReferenceIdeal.S10x128 .f32) :
    FVec Ideal Cert.ReferenceIdeal.S15000x128 .f32 :=
  Host.dotGeneral Cert.ReferenceIdeal.dot_S15000x10_S10x128_S15000x128_1_0_0_1_n_n none a x4

theorem prod0_apply (x0 : FVec Ideal Cert.ReferenceIdeal.S15000x768 .f32) (x2 : FVec Ideal Cert.ReferenceIdeal.S768x10 .f32)
    (i : Cert.ReferenceIdeal.S15000x10.Idx) :
    prod0 x0 x2 i = ∑ k : Fin 768, x0 (ix2 (n0 := 15000) (n1 := 768) (i 0) k) * x2 (ix2 (n0 := 768) (n1 := 10) k (i 1)) :=
  LibHostDotIdx.hostDot2_apply (M := 15000) (K := 768) (N := 10) Cert.ReferenceIdeal.dot_S15000x768_S768x10_S15000x10_1_0_0_1_n_n rfl rfl
    Cert.ReferenceIdeal.Read.lhs_main_v30_0 Cert.ReferenceIdeal.Read.lhs_main_v30_1
    Cert.ReferenceIdeal.Read.rhs_main_v30_0 Cert.ReferenceIdeal.Read.rhs_main_v30_1 none x0 x2 i

theorem prod1_apply (a : FVec Ideal Cert.ReferenceIdeal.S15000x10 .f32) (x4 : FVec Ideal Cert.ReferenceIdeal.S10x128 .f32)
    (i : Cert.ReferenceIdeal.S15000x128.Idx) :
    prod1 a x4 i = ∑ k : Fin 10, a (ix2 (n0 := 15000) (n1 := 10) (i 0) k) * x4 (ix2 (n0 := 10) (n1 := 128) k (i 1)) :=
  LibHostDotIdx.hostDot2_apply (M := 15000) (K := 10) (N := 128) Cert.ReferenceIdeal.dot_S15000x10_S10x128_S15000x128_1_0_0_1_n_n rfl rfl
    Cert.ReferenceIdeal.Read.lhs_main_v48_0 Cert.ReferenceIdeal.Read.lhs_main_v48_1
    Cert.ReferenceIdeal.Read.rhs_main_v48_0 Cert.ReferenceIdeal.Read.rhs_main_v48_1 none a x4 i

/-! ## Region 0 -/

/-- The printed index maps of region 0, decided over its fifteen points: the left factor's and the result's blocks are
    block row `t`, the right factor's is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of region 0 writes back is block `t` of the whole product. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  obtain ⟨e0, e1, e2, e3, e4, e5⟩ := idx_facts0 t
  funext j
  show k0_pay1 (iblk0 V c 0 t) (iblk0 V c 1 t) ((cfg0.win 2).xinj (grid0.coords t) j)
    = prod0 (V c main_arg0) (V c main_arg2) (((cfg0.win 2).blk t).view.emb j)
  rw [pay0_apply, prod0_apply]
  refine Finset.sum_congr rfl fun k _ => ?_
  refine congrArg₂ (· * ·) ?_ ?_
  · show V c main_arg0 (((cfg0.win 0).blk t).view.emb _) = V c main_arg0 _
    refine congrArg (V c main_arg0) (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 768 + 1 * k.val = k.val
      omega
  · show V c main_arg2 (((cfg0.win 1).blk t).view.emb _) = V c main_arg2 _
    refine congrArg (V c main_arg2) (funext fun a => Fin.ext ?_)
    match a with
    | ⟨0, _⟩ =>
      show win0_1.index t (0 : Fin 2) * 768 + 1 * k.val = k.val
      omega
    | ⟨1, _⟩ =>
      show win0_1.index t (1 : Fin 2) * 10 + 1 * (j 1).val = win0_2.index t (1 : Fin 2) * 10 + 1 * (j 1).val
      omega

/-- An index of region 0's result array is in point `t`'s block iff each coordinate is in the block's range. -/
theorem mem_blk0 (t : Fin cfg0.N) (i : S15000x10.Idx) :
    i ∈ ((cfg0.win 2).blk t).view.set ↔ ∀ a : Fin 2, win0_2.index t a * S1000x10.size a ≤ (i a).val ∧ (i a).val < win0_2.index t a * S1000x10.size a + S1000x10.size a := by
  show i ∈ ((View.whole main_v30).slice (win0_2.rect t)).set ↔ _
  rw [View.set_slice_whole, Rect.mem_set_unit]
  exact Iff.rfl

/-- Region 0's fifteen blocks cover its result array: row `r` lies in block `r / 1000`. -/
theorem cover0 (i : S15000x10.Idx) : ∃ t : Fin cfg0.N, (cfg0.win 2).flush t = true ∧ i ∈ ((cfg0.win 2).blk t).view.set := by
  have hi0 : (i 0).val < 15000 := (i 0).isLt
  have hi1 : (i 1).val < 10 := (i 1).isLt
  refine ⟨⟨(i 0).val / 1000, by rw [show cfg0.N = 15 from N_0]; omega⟩, flush0_2 _, ?_⟩
  rw [mem_blk0]
  obtain ⟨e0, e1, e2, e3, e4, e5⟩ := idx_facts0 ⟨(i 0).val / 1000, by rw [show cfg0.N = 15 from N_0]; omega⟩
  intro a
  match a with
  | ⟨0, _⟩ =>
    show win0_2.index _ (0 : Fin 2) * 1000 ≤ (i 0).val ∧ (i 0).val < win0_2.index _ (0 : Fin 2) * 1000 + 1000
    rw [e4]; show (i 0).val / 1000 * 1000 ≤ (i 0).val ∧ (i 0).val < (i 0).val / 1000 * 1000 + 1000; omega
  | ⟨1, _⟩ =>
    show win0_2.index _ (1 : Fin 2) * 10 ≤ (i 1).val ∧ (i 1).val < win0_2.index _ (1 : Fin 2) * 10 + 10
    rw [e5]; omega

/-- **Region 0's result array after the region** is the whole product of the arrays it was entered with. -/
theorem final0 (c : Dev nD) : (dat0 V c).arrAt 2 cfg0.N = prod0 (V c main_arg0) (V c main_arg2) :=
  (dat0 V c).arrAt_eq_of_cover 2 (prod0 (V c main_arg0) (V c main_arg2)) (fun t _ => flushed0_eq V c t) cover0

/-! ## Region 1 -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` of region 1 writes back is block `t` of the whole product. -/
theorem flushed1_eq (c : Dev nD) (t : Fin cfg1.N) :
    (dat1 V c).flushed 2 t = ((cfg1.win 2).blk t).view.read (Elt Ideal) (prod1 (V c main_v60) (V c main_arg4)) := by
  show (cfg1.win 2).cut (grid1.coords t) ((dat1 V c).after 2 t) = _
  rw [after1_2]
  obtain ⟨e0, e1, e2, e3, e4, e5⟩ := idx_facts1 t
  funext j
  show k1_pay1 (iblk1 V c 0 t) (iblk1 V c 1 t) ((cfg1.win 2).xinj (grid1.coords t) j)
    = prod1 (V c main_v60) (V c main_arg4) (((cfg1.win 2).blk t).view.emb j)
  rw [pay1_apply, prod1_apply]
  refine Finset.sum_congr rfl fun k _ => ?_
  refine congrArg₂ (· * ·) ?_ ?_
  · show V c main_v60 (((cfg1.win 0).blk t).view.emb _) = V c main_v60 _
    refine congrArg (V c main_v60) (funext fun a => Fin.ext ?_)
    match a with
    | ⟨0, _⟩ =>
      show win1_0.index t (0 : Fin 2) * 1000 + 1 * (j 0).val = win1_2.index t (0 : Fin 2) * 1000 + 1 * (j 0).val
      omega
    | ⟨1, _⟩ =>
      show win1_0.index t (1 : Fin 2) * 10 + 1 * k.val = k.val
      omega
  · show V c main_arg4 (((cfg1.win 1).blk t).view.emb _) = V c main_arg4 _
    refine congrArg (V c main_arg4) (funext fun a => Fin.ext ?_)
    match a with
    | ⟨0, _⟩ =>
      show win1_1.index t (0 : Fin 2) * 10 + 1 * k.val = k.val
      omega
    | ⟨1, _⟩ =>
      show win1_1.index t (1 : Fin 2) * 128 + 1 * (j 1).val = win1_2.index t (1 : Fin 2) * 128 + 1 * (j 1).val
      omega

theorem mem_blk1 (t : Fin cfg1.N) (i : S15000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v61).slice (win1_2.rect t)).set ↔ _
  rw [View.set_slice_whole, Rect.mem_set_unit]
  exact Iff.rfl

theorem cover1 (i : S15000x128.Idx) : ∃ t : Fin cfg1.N, (cfg1.win 2).flush t = true ∧ i ∈ ((cfg1.win 2).blk t).view.set := by
  have hi0 : (i 0).val < 15000 := (i 0).isLt
  have hi1 : (i 1).val < 128 := (i 1).isLt
  refine ⟨⟨(i 0).val / 1000, by rw [show cfg1.N = 15 from N_1]; omega⟩, flush1_2 _, ?_⟩
  rw [mem_blk1]
  obtain ⟨e0, e1, e2, e3, e4, e5⟩ := idx_facts1 ⟨(i 0).val / 1000, by rw [show cfg1.N = 15 from N_1]; omega⟩
  intro a
  match a with
  | ⟨0, _⟩ =>
    show win1_2.index _ (0 : Fin 2) * 1000 ≤ (i 0).val ∧ (i 0).val < win1_2.index _ (0 : Fin 2) * 1000 + 1000
    rw [e4]; show (i 0).val / 1000 * 1000 ≤ (i 0).val ∧ (i 0).val < (i 0).val / 1000 * 1000 + 1000; omega
  | ⟨1, _⟩ =>
    show win1_2.index _ (1 : Fin 2) * 128 ≤ (i 1).val ∧ (i 1).val < win1_2.index _ (1 : Fin 2) * 128 + 128
    rw [e5]; omega

/-- **Region 1's result array after the region** is the whole product of the arrays it was entered with. -/
theorem final1 (c : Dev nD) : (dat1 V c).arrAt 2 cfg1.N = prod1 (V c main_v60) (V c main_arg4) :=
  (dat1 V c).arrAt_eq_of_cover 2 (prod1 (V c main_v60) (V c main_arg4)) (fun t _ => flushed1_eq V c t) cover1

end Cert.KernelIdeal.HandValue

end
-- ==== Proof.Value2.lean ====
/-
  What region 2 leaves in its result array: the score of every triple, as one function of the arrays the region
  was entered with.

  Grid point `t` handles rows `2048·t … 2048·t + 2047` of the three row-blocked inputs (head rows, relation rows,
  tail rows) against the whole weight blocks and bias row, and writes its 2048 scores back onto the same rows of the
  result. The last point's block overhangs the 100000 rows: only its first 1696 rows are moved in either direction.
  Inside the moved part a buffer's row `p` is the array's row `2048·t + p`, and at exact arithmetic the score of a row
  depends on that row alone; so what point `t` writes back is block `t` of the row-by-row score of the whole arrays,
  and the 49 cut blocks cover the result array.
-/
import proofs.«117671_j50156628082716_2_alg».proof.Proof.RegionData
import proofs.«117671_j50156628082716_2_alg».proof.Proof.LstmKernel
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.KernelIdeal.LstmKernel Cert.Lstm
open Idealize.ShloMosaic Idealize.ShloMosaic.TcCoe Idealize.ShloMosaic.ValueIdx
open Idealize.SL.Sem
open Idealize.ShloMosaic.Pipeline (Dat Window)

variable (V : (c : Dev nD) → (b : Ref sig .tc) → Buf (Elt Ideal) ((c : Thread nD τ).loc b))

/-- The printed index maps and cuts of region 2, decided over its 49 points: the three row-blocked inputs and the
    result are at block row `t`, cut alike on the row axis and not at all on the column axis; the weights and the bias
    are the whole arrays; a cut block ends exactly at row 100000. -/
theorem facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 1) = t.val
    ∧ win2_0.xsize (grid2.coords t) (0 : Fin 2) = win2_7.xsize (grid2.coords t) (0 : Fin 1) ∧ win2_0.xsize (grid2.coords t) (1 : Fin 2) = 128
    ∧ win2_1.xsize (grid2.coords t) (0 : Fin 2) = win2_7.xsize (grid2.coords t) (0 : Fin 1) ∧ win2_1.xsize (grid2.coords t) (1 : Fin 2) = 768
    ∧ win2_2.xsize (grid2.coords t) (0 : Fin 2) = win2_7.xsize (grid2.coords t) (0 : Fin 1) ∧ win2_2.xsize (grid2.coords t) (1 : Fin 2) = 128
    ∧ win2_7.xsize (grid2.coords t) (0 : Fin 1) ≤ 2048
    ∧ t.val * 2048 + win2_7.xsize (grid2.coords t) (0 : Fin 1) ≤ 100000
    ∧ (t.val * 2048 + 2048 ≤ 100000 → win2_7.xsize (grid2.coords t) (0 : Fin 1) = 2048)
    ∧ (100000 < t.val * 2048 + 2048 → t.val * 2048 + win2_7.xsize (grid2.coords t) (0 : Fin 1) = 100000) :=
  (by decide +kernel : ∀ t : Fin grid2.N, _)

theorem facts2w : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ## A buffer's row inside the moved part is the array's row -/

/-- Row `p` of the head block at point `t`, inside the moved part, is row `2048·t + p` of the head array. -/
theorem hblk_apply (c : Dev nD) (t : Fin cfg2.N) (p : Fin 2048) (k : Fin 128)
    (hp : p.val < win2_7.xsize (grid2.coords t) (0 : Fin 1)) (hq : t.val * 2048 + p.val < 100000) :
    hblk V c t (ix2 p k) = V c main_v74 (ix2 (n0 := 100000) (n1 := 128) ⟨t.val * 2048 + p.val, hq⟩ k) := by
  obtain ⟨e00, e01, -, -, -, -, -, x00, x01, -⟩ := facts2 t
  unfold hblk Window.fill
  rw [dif_pos ((win2_0.moved_iff (grid2.coords t) _).mpr fun a => by
    match a with
    | ⟨0, _⟩ => show p.val < win2_0.xsize (grid2.coords t) (0 : Fin 2); omega
    | ⟨1, _⟩ => show k.val < win2_0.xsize (grid2.coords t) (1 : Fin 2); have := k.isLt; omega)]
  show V c main_v74 (((cfg2.win 0).blk t).view.emb _) = V c main_v74 _
  refine congrArg (V c main_v74) (funext fun a => Fin.ext ?_)
  match a with
  | ⟨0, _⟩ => show win2_0.index t (0 : Fin 2) * 2048 + 1 * p.val = t.val * 2048 + p.val; omega
  | ⟨1, _⟩ => show win2_0.index t (1 : Fin 2) * 128 + 1 * k.val = k.val; omega

/-- Row `p` of the relation block, likewise. -/
theorem rblk_apply (c : Dev nD) (t : Fin cfg2.N) (p : Fin 2048) (k : Fin 768)
    (hp : p.val < win2_7.xsize (grid2.coords t) (0 : Fin 1)) (hq : t.val * 2048 + p.val < 100000) :
    rblk V c t (ix2 p k) = V c main_arg1 (ix2 (n0 := 100000) (n1 := 768) ⟨t.val * 2048 + p.val, hq⟩ k) := by
  obtain ⟨-, -, e10, e11, -, -, -, -, -, x10, x11, -⟩ := facts2 t
  unfold rblk Window.fill
  rw [dif_pos ((win2_1.moved_iff (grid2.coords t) _).mpr fun a => by
    match a with
    | ⟨0, _⟩ => show p.val < win2_1.xsize (grid2.coords t) (0 : Fin 2); omega
    | ⟨1, _⟩ => show k.val < win2_1.xsize (grid2.coords t) (1 : Fin 2); have := k.isLt; omega)]
  show V c main_arg1 (((cfg2.win 1).blk t).view.emb _) = V c main_arg1 _
  refine congrArg (V c main_arg1) (funext fun a => Fin.ext ?_)
  match a with
  | ⟨0, _⟩ => show win2_1.index t (0 : Fin 2) * 2048 + 1 * p.val = t.val * 2048 + p.val; omega
  | ⟨1, _⟩ => show win2_1.index t (1 : Fin 2) * 768 + 1 * k.val = k.val; omega

/-- Row `p` of the tail block, likewise. -/
theorem tblk_apply (c : Dev nD) (t : Fin cfg2.N) (p : Fin 2048) (k : Fin 128)
    (hp : p.val < win2_7.xsize (grid2.coords t) (0 : Fin 1)) (hq : t.val * 2048 + p.val < 100000) :
    tblk V c t (ix2 p k) = V c main_v83 (ix2 (n0 := 100000) (n1 := 128) ⟨t.val * 2048 + p.val, hq⟩ k) := by
  obtain ⟨-, -, -, -, e20, e21, -, -, -, -, -, x20, x21, -⟩ := facts2 t
  unfold tblk Window.fill
  rw [dif_pos ((win2_2.moved_iff (grid2.coords t) _).mpr fun a => by
    match a with
    | ⟨0, _⟩ => show p.val < win2_2.xsize (grid2.coords t) (0 : Fin 2); omega
    | ⟨1, _⟩ => show k.val < win2_2.xsize (grid2.coords t) (1 : Fin 2); have := k.isLt; omega)]
  show V c main_v83 (((cfg2.win 2).blk t).view.emb _) = V c main_v83 _
  refine congrArg (V c main_v83) (funext fun a => Fin.ext ?_)
  match a with
  | ⟨0, _⟩ => show win2_2.index t (0 : Fin 2) * 2048 + 1 * p.val = t.val * 2048 + p.val; omega
  | ⟨1, _⟩ => show win2_2.index t (1 : Fin 2) * 128 + 1 * k.val = k.val; omega

/-- The weight and bias blocks are the whole arrays at every point. -/
theorem wblk3_apply (c : Dev nD) (t : Fin cfg2.N) (k : Fin 128) (n : Fin 512) :
    iblk2 V c 3 t (ix2 k n) = V c main_v85 (ix2 (n0 := 128) (n1 := 512) k n) := by
  obtain ⟨e0, e1, -⟩ := facts2w t
  show V c main_v85 (((cfg2.win 3).blk t).view.emb _) = V c main_v85 _
  refine congrArg (V c main_v85) (funext fun a => Fin.ext ?_)
  match a with
  | ⟨0, _⟩ => show win2_3.index t (0 : Fin 2) * 128 + 1 * k.val = k.val; omega
  | ⟨1, _⟩ => show win2_3.index t (1 : Fin 2) * 512 + 1 * n.val = n.val; omega
theorem wblk4_apply (c : Dev nD) (t : Fin cfg2.N) (k : Fin 768) (n : Fin 512) :
    iblk2 V c 4 t (ix2 k n) = V c main_v87 (ix2 (n0 := 768) (n1 := 512) k n) := by
  obtain ⟨-, -, e0, e1, -⟩ := facts2w t
  show V c main_v87 (((cfg2.win 4).blk t).view.emb _) = V c main_v87 _
  refine congrArg (V c main_v87) (funext fun a => Fin.ext ?_)
  match a with
  | ⟨0, _⟩ => show win2_4.index t (0 : Fin 2) * 768 + 1 * k.val = k.val; omega
  | ⟨1, _⟩ => show win2_4.index t (1 : Fin 2) * 512 + 1 * n.val = n.val; omega
theorem wblk5_apply (c : Dev nD) (t : Fin cfg2.N) (k : Fin 128) (n : Fin 512) :
    iblk2 V c 5 t (ix2 k n) = V c main_v89 (ix2 (n0 := 128) (n1 := 512) k n) := by
  obtain ⟨-, -, -, -, e0, e1, -⟩ := facts2w t
  show V c main_v89 (((cfg2.win 5).blk t).view.emb _) = V c main_v89 _
  refine congrArg (V c main_v89) (funext fun a => Fin.ext ?_)
  match a with
  | ⟨0, _⟩ => show win2_5.index t (0 : Fin 2) * 128 + 1 * k.val = k.val; omega
  | ⟨1, _⟩ => show win2_5.index t (1 : Fin 2) * 512 + 1 * n.val = n.val; omega
theorem wblk6_apply (c : Dev nD) (t : Fin cfg2.N) (n : Fin 512) :
    iblk2 V c 6 t (ix2 (0 : Fin 1) n) = V c main_v91 (ix2 (n0 := 1) (n1 := 512) (0 : Fin 1) n) := by
  obtain ⟨-, -, -, -, -, -, e0, e1⟩ := facts2w t
  show V c main_v91 (((cfg2.win 6).blk t).view.emb _) = V c main_v91 _
  refine congrArg (V c main_v91) (funext fun a => Fin.ext ?_)
  match a with
  | ⟨0, _⟩ => show win2_6.index t (0 : Fin 2) * 1 + 1 * (0 : Fin 1).val = (0 : Fin 1).val; omega
  | ⟨1, _⟩ => show win2_6.index t (1 : Fin 2) * 512 + 1 * n.val = n.val; omega

/-! ## The result array -/

/-- The row-by-row score of the arrays region 2 is entered with, for a weight matrix `W` and bias `b`. -/
def score2 (c : Dev nD) (W : Fin 512 → Fin 1024 → EReal) (b : Fin 512 → EReal) : S100000.Idx → EReal := fun i =>
  scoreAt (fun k => V c main_v74 (ix2 (n0 := 100000) (n1 := 128) (i 0) k))
    (fun k => V c main_arg1 (ix2 (n0 := 100000) (n1 := 768) (i 0) k))
    (fun k => V c main_v83 (ix2 (n0 := 100000) (n1 := 128) (i 0) k)) W b

section
variable (c : Dev nD) (W : Fin 512 → Fin 1024 → EReal) (b : Fin 512 → EReal)
  (hW6 : ∀ (k : Fin 128) (n : Fin 512), V c main_v85 (ix2 (n0 := 128) (n1 := 512) k n) = W n (colH k))
  (hW9 : ∀ (k : Fin 768) (n : Fin 512), V c main_v87 (ix2 (n0 := 768) (n1 := 512) k n) = W n (colR k))
  (hW12 : ∀ (k : Fin 128) (n : Fin 512), V c main_v89 (ix2 (n0 := 128) (n1 := 512) k n) = W n (colT k))
  (hb : ∀ n : Fin 512, V c main_v91 (ix2 (n0 := 1) (n1 := 512) (0 : Fin 1) n) = b n)

include hW6 hW9 hW12 hb in
/-- What point `t` writes back is block `t`, cut at the array's end, of the row-by-row score. -/
theorem flushed2_eq (t : Fin cfg2.N) :
    (dat2 V c).flushed 7 t = ((cfg2.win 7).blk t).view.read (Elt Ideal) (score2 V c W b) := by
  show (cfg2.win 7).cut (grid2.coords t) ((dat2 V c).after 7 t) = _
  rw [after2_7]
  obtain ⟨-, -, -, -, -, -, e7, -, -, -, -, -, -, x7le, x7in, -, -⟩ := facts2 t
  funext j
  have hj : (j 0).val < win2_7.xsize (grid2.coords t) (0 : Fin 1) := (j 0).isLt
  have hp : (j 0).val < 2048 := by omega
  have hq : t.val * 2048 + (j 0).val < 100000 := by omega
  show sblk V c t ((cfg2.win 7).xinj (grid2.coords t) j) = score2 V c W b (((cfg2.win 7).blk t).view.emb j)
  have e1 : (cfg2.win 7).xinj (grid2.coords t) j = ix1 (⟨(j 0).val, hp⟩ : Fin 2048) :=
    funext fun a => Fin.ext (by match a with | ⟨0, _⟩ => rfl)
  have e2 : ((cfg2.win 7).blk t).view.emb j = ix1 (⟨t.val * 2048 + (j 0).val, hq⟩ : Fin 100000) :=
    funext fun a => Fin.ext (by
      match a with
      | ⟨0, _⟩ => show win2_7.index t (0 : Fin 1) * 2048 + 1 * (j 0).val = t.val * 2048 + (j 0).val; omega)
  rw [e1, e2]
  unfold sblk score2
  exact k2_pay1_apply_of _ _ _ _ _ _ _ _ _ _ W b ⟨(j 0).val, hp⟩
    (fun k => hblk_apply V c t ⟨(j 0).val, hp⟩ k hj hq)
    (fun k => rblk_apply V c t ⟨(j 0).val, hp⟩ k hj hq)
    (fun k => tblk_apply V c t ⟨(j 0).val, hp⟩ k hj hq)
    (fun k n => (wblk3_apply V c t k n).trans (hW6 k n))
    (fun k n => (wblk4_apply V c t k n).trans (hW9 k n))
    (fun k n => (wblk5_apply V c t k n).trans (hW12 k n))
    (fun n => (wblk6_apply V c t n).trans (hb n))

/-- A row of the result array is in point `t`'s cut block iff it lies between the block's first row and the cut. -/
theorem mem_blk2 (t : Fin cfg2.N) (i : S100000.Idx) :
    i ∈ ((cfg2.win 7).blk t).view.set ↔ win2_7.index t 0 * 2048 ≤ (i 0).val ∧ (i 0).val < win2_7.index t 0 * 2048 + win2_7.xsize (grid2.coords t) 0 := by
  show i ∈ ((View.whole main_v92).slice (win2_7.rect t)).set ↔ _
  rw [View.set_slice_whole, Rect.mem_set_unit]
  refine ⟨fun h => h 0, fun h a => ?_⟩
  match a with
  | ⟨0, _⟩ => exact h

/-- The 49 cut blocks cover the 100000 rows: row `r` lies in block `r / 2048`. -/
theorem cover2 (i : S100000.Idx) : ∃ t : Fin cfg2.N, (cfg2.win 7).flush t = true ∧ i ∈ ((cfg2.win 7).blk t).view.set := by
  have hi0 : (i 0).val < 100000 := (i 0).isLt
  have ht : (i 0).val / 2048 < cfg2.N := by rw [show cfg2.N = 49 from N_2]; omega
  refine ⟨⟨(i 0).val / 2048, ht⟩, flush2_7 _, ?_⟩
  rw [mem_blk2]
  obtain ⟨-, -, -, -, -, -, e7, -, -, -, -, -, -, x7le, x7in, xfull, xcut⟩ := facts2 ⟨(i 0).val / 2048, ht⟩
  rw [e7]
  show (i 0).val / 2048 * 2048 ≤ (i 0).val ∧ (i 0).val < (i 0).val / 2048 * 2048 + win2_7.xsize (grid2.coords ⟨(i 0).val / 2048, ht⟩) 0
  have xfull' : (i 0).val / 2048 * 2048 + 2048 ≤ 100000 → win2_7.xsize (grid2.coords ⟨(i 0).val / 2048, ht⟩) (0 : Fin 1) = 2048 := xfull
  have xcut' : 100000 < (i 0).val / 2048 * 2048 + 2048 → (i 0).val / 2048 * 2048 + win2_7.xsize (grid2.coords ⟨(i 0).val / 2048, ht⟩) (0 : Fin 1) = 100000 := xcut
  by_cases hc : (i 0).val / 2048 * 2048 + 2048 ≤ 100000
  · rw [xfull' hc]; omega
  · have := xcut' (by omega); omega

include hW6 hW9 hW12 hb in
/-- **Region 2's result array after the region** is the row-by-row score of the arrays it was entered with. -/
theorem final2 : (dat2 V c).arrAt 7 cfg2.N = score2 V c W b :=
  (dat2 V c).arrAt_eq_of_cover 7 (score2 V c W b) (fun t _ => flushed2_eq V c W b hW6 hW9 hW12 hb t) cover2

end

end Cert.KernelIdeal.HandValue

end
-- ==== Proof.HostChain.lean ====
/-
  The kernel program's host operations, stretch by stretch, against the reference's stages.

  Between its three kernel regions the kernel program runs the same host operations as the reference: the edge lists
  with self loops, the degrees and the symmetric normalisation, layer 1's gather / scale / segment-sum / bias / relu,
  layer 2's propagation, and the gathers of the head and tail rows. Each lemma here takes ANY contents `W` of the
  buffers before a stretch, given as the reference's stages of the arguments on the buffers the stretch reads, and
  says that after the stretch the buffer it is about holds the reference's next stage. The float narrowing of the node
  features before the row gathers is the identity at exact arithmetic.
-/
import proofs.«117671_j50156628082716_2_alg».proof.Proof.Gen.KernelIdeal.Regions
import proofs.«117671_j50156628082716_2_alg».proof.Proof.RefRead
import Idealize.ShloMosaic.Lib.StableHlo.Run
import Idealize.ShloMosaic.Lib.Pipeline.Value
import Idealize.ShloMosaic.Lib.ValueLayout

set_option maxRecDepth 16384
set_option maxHeartbeats 4000000

noncomputable section

namespace Cert.KernelIdeal.HostChain

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

/-! ## Before region 0: the edge lists, the degrees, the normalisation -/

section
variable (x10 : (⟨Cert.ReferenceIdeal.S2x200000, .i32⟩ : BufTy).Contents (Elt Ideal)) (ha10 : W (Proc.devRef .tc main_arg10) = x10)

include ha10 in
theorem s0_v3 : StableHlo.after hostOps0 W (Proc.devRef .tc main_v3) = Cert.ReferenceIdeal.Read.val_main_v3 (F := Ideal) x10 := by
  after_results; rw [ha10]; rfl
include ha10 in
theorem s0_v6 : StableHlo.after hostOps0 W (Proc.devRef .tc main_v6) = Cert.ReferenceIdeal.Read.val_main_v6 (F := Ideal) x10 := by
  after_results; rw [ha10]; rfl
include ha10 in
theorem s0_v12 : StableHlo.after hostOps0 W (Proc.devRef .tc main_v12) = Cert.ReferenceIdeal.Read.val_main_v12 (F := Ideal) x10 := by
  after_results; rw [ha10]; rfl
include ha10 in
theorem s0_v13 : StableHlo.after hostOps0 W (Proc.devRef .tc main_v13) = Cert.ReferenceIdeal.Read.val_main_v13 (F := Ideal) x10 := by
  after_results; rw [ha10]; rfl
theorem s0_cst2 : StableHlo.after hostOps0 W (Proc.devRef .tc main_cst_2) = Cert.ReferenceIdeal.Read.val_main_cst_2 (F := Ideal) := by
  after_results; rfl

theorem s01_v14 (h12 : W (Proc.devRef .tc main_v12) = Cert.ReferenceIdeal.Read.val_main_v12 (F := Ideal) x10) (h13 : W (Proc.devRef .tc main_v13) = Cert.ReferenceIdeal.Read.val_main_v13 (F := Ideal) x10)
    (hc : W (Proc.devRef .tc main_cst_2) = Cert.ReferenceIdeal.Read.val_main_cst_2 (F := Ideal)) :
    StableHlo.after hostOps0_1 W (Proc.devRef .tc main_v14) = Cert.ReferenceIdeal.Read.val_main_v14 (F := Ideal) x10 := by
  after_results; rw [h12, h13, hc]
  simp only [cast_eq, id]
  rfl

theorem s02_v29 (h3 : W (Proc.devRef .tc main_v3) = Cert.ReferenceIdeal.Read.val_main_v3 (F := Ideal) x10) (h6 : W (Proc.devRef .tc main_v6) = Cert.ReferenceIdeal.Read.val_main_v6 (F := Ideal) x10)
    (h14 : W (Proc.devRef .tc main_v14) = Cert.ReferenceIdeal.Read.val_main_v14 (F := Ideal) x10) :
    StableHlo.after hostOps0_2 W (Proc.devRef .tc main_v29) = Cert.ReferenceIdeal.Read.val_main_v29 (F := Ideal) x10 := by
  after_results; rw [h3, h6, h14]; rfl
end

/-! ## Between regions 0 and 1: layer 1, and layer 2's propagation -/

section
variable (x0 : (⟨Cert.ReferenceIdeal.S15000x768, .f32⟩ : BufTy).Contents (Elt Ideal))
  (x2 : (⟨Cert.ReferenceIdeal.S768x10, .f32⟩ : BufTy).Contents (Elt Ideal))
  (x3 : (⟨Cert.ReferenceIdeal.S10, .f32⟩ : BufTy).Contents (Elt Ideal))
  (x10 : (⟨Cert.ReferenceIdeal.S2x200000, .i32⟩ : BufTy).Contents (Elt Ideal))

theorem s1_v46 (h30 : W (Proc.devRef .tc main_v30) = Cert.ReferenceIdeal.Read.val_main_v30 (F := Ideal) x0 x2)
    (h3 : W (Proc.devRef .tc main_v3) = Cert.ReferenceIdeal.Read.val_main_v3 (F := Ideal) x10) (h6 : W (Proc.devRef .tc main_v6) = Cert.ReferenceIdeal.Read.val_main_v6 (F := Ideal) x10)
    (h29 : W (Proc.devRef .tc main_v29) = Cert.ReferenceIdeal.Read.val_main_v29 (F := Ideal) x10) (ha3 : W (Proc.devRef .tc main_arg3) = x3) :
    StableHlo.after hostOps1 W (Proc.devRef .tc main_v46) = Cert.ReferenceIdeal.Read.val_main_v46 (F := Ideal) x0 x2 x3 x10 := by
  after_results; rw [h30, h3, h6, h29, ha3]; rfl

theorem s11_v47 (h46 : W (Proc.devRef .tc main_v46) = Cert.ReferenceIdeal.Read.val_main_v46 (F := Ideal) x0 x2 x3 x10) :
    StableHlo.after hostOps1_1 W (Proc.devRef .tc main_v47) = Cert.ReferenceIdeal.Read.val_main_v47 (F := Ideal) x0 x2 x3 x10 := by
  after_results; rw [h46]
  simp only [cast_eq]
  rfl

/-- Layer 2's propagated features (the left factor of region 1): the relu'd layer-1 features gathered by source,
    scaled by the edge weights and summed by target — over the reference's own index columns and edge weights. -/
theorem s12_v60 (h47 : W (Proc.devRef .tc main_v47) = Cert.ReferenceIdeal.Read.val_main_v47 (F := Ideal) x0 x2 x3 x10)
    (h3 : W (Proc.devRef .tc main_v3) = Cert.ReferenceIdeal.Read.val_main_v3 (F := Ideal) x10) (h6 : W (Proc.devRef .tc main_v6) = Cert.ReferenceIdeal.Read.val_main_v6 (F := Ideal) x10)
    (h29 : W (Proc.devRef .tc main_v29) = Cert.ReferenceIdeal.Read.val_main_v29 (F := Ideal) x10) :
    @Eq (S15000x10.Idx → EReal) (StableHlo.after hostOps1_2 W (Proc.devRef .tc main_v60))
      (Host.scatterAdd (F := Ideal) (φ := .f32) Cert.ReferenceIdeal.scatter_S15000x10_S215000x1_S215000x10_1_0_0_1 (Cert.ReferenceIdeal.Read.val_main_v41 (F := Ideal))
          (Cert.ReferenceIdeal.Read.val_main_v60 (F := Ideal) x10)
          (mulf (F := Ideal) (φ := .f32) (Host.gather (α := Ideal .f32) Cert.ReferenceIdeal.gather_S15000x10_S215000x1_S215000x10_1_0_n_n_0_1_110
              (Cert.ReferenceIdeal.Read.val_main_v47 (F := Ideal) x0 x2 x3 x10) (Cert.ReferenceIdeal.Read.val_main_v54 (F := Ideal) x10))
            (Cert.ReferenceIdeal.Read.val_main_v39 (F := Ideal) x10))) := by
  after_results; rw [h47, h3, h6, h29]; rfl
end

/-! ## Between regions 1 and 2: the bias, the row gathers, the weight slices -/

section
variable (x0 : (⟨Cert.ReferenceIdeal.S15000x768, .f32⟩ : BufTy).Contents (Elt Ideal))
  (x2 : (⟨Cert.ReferenceIdeal.S768x10, .f32⟩ : BufTy).Contents (Elt Ideal))
  (x3 : (⟨Cert.ReferenceIdeal.S10, .f32⟩ : BufTy).Contents (Elt Ideal))
  (x4 : (⟨Cert.ReferenceIdeal.S10x128, .f32⟩ : BufTy).Contents (Elt Ideal))
  (x5 : (⟨Cert.ReferenceIdeal.S128, .f32⟩ : BufTy).Contents (Elt Ideal))
  (x6 : (⟨Cert.ReferenceIdeal.S512x1024, .f32⟩ : BufTy).Contents (Elt Ideal))
  (x8 x9 : (⟨Cert.ReferenceIdeal.S512, .f32⟩ : BufTy).Contents (Elt Ideal))
  (x10 : (⟨Cert.ReferenceIdeal.S2x200000, .i32⟩ : BufTy).Contents (Elt Ideal))
  (x11 : (⟨Cert.ReferenceIdeal.S100000x3, .i32⟩ : BufTy).Contents (Elt Ideal))

/-- Narrowing to bf16 is the identity at exact arithmetic. -/
theorem truncf_bf16_id {s : Shape} (x : FVec Ideal s .f32) :
    @Eq (s.Idx → EReal) (truncf (F := Ideal) .bf16 x bitsLt_bf16_f32) x := by
  funext i; exact truncf_apply x bitsLt_bf16_f32 i

/-- The head rows region 2 reads are the reference's gathered head rows. -/
theorem s2_v74 (h61 : W (Proc.devRef .tc main_v61) = Cert.ReferenceIdeal.Read.val_main_v61 (F := Ideal) x0 x2 x3 x4 x10) (ha5 : W (Proc.devRef .tc main_arg5) = x5)
    (ha11 : W (Proc.devRef .tc main_arg11) = x11) :
    @Eq (S100000x128.Idx → EReal) (StableHlo.after hostOps2 W (Proc.devRef .tc main_v74))
      (Cert.ReferenceIdeal.Read.val_main_v73 (F := Ideal) x0 x2 x3 x4 x5 x10 x11) := by
  after_results; rw [h61, ha5, ha11, truncf_bf16_id]; rfl

/-- The tail rows region 2 reads are the reference's gathered tail rows. -/
theorem s2_v83 (h61 : W (Proc.devRef .tc main_v61) = Cert.ReferenceIdeal.Read.val_main_v61 (F := Ideal) x0 x2 x3 x4 x10) (ha5 : W (Proc.devRef .tc main_arg5) = x5)
    (ha11 : W (Proc.devRef .tc main_arg11) = x11) :
    @Eq (S100000x128.Idx → EReal) (StableHlo.after hostOps2 W (Proc.devRef .tc main_v83))
      (Cert.ReferenceIdeal.Read.val_main_v82 (F := Ideal) x0 x2 x3 x4 x5 x10 x11) := by
  after_results; rw [h61, ha5, ha11, truncf_bf16_id]; rfl

/-- The three weight blocks are column bands of the weight matrix, transposed; the bias row is the sum of the two biases. -/
theorem s2_v85 (ha6 : W (Proc.devRef .tc main_arg6) = x6) :
    @Eq (S128x512.Idx → EReal) (StableHlo.after hostOps2 W (Proc.devRef .tc main_v85))
      (transpose S128x512 [1, 0] (extractStridedSlice S512x128 ![0, 0] (x6 : S512x1024.Idx → EReal) slices_S512x1024_S512x128_0_0) transposes_S512x128_S128x512_1_0) := by
  after_results; rw [ha6]
theorem s2_v87 (ha6 : W (Proc.devRef .tc main_arg6) = x6) :
    @Eq (S768x512.Idx → EReal) (StableHlo.after hostOps2 W (Proc.devRef .tc main_v87))
      (transpose S768x512 [1, 0] (extractStridedSlice S512x768 ![0, 128] (x6 : S512x1024.Idx → EReal) slices_S512x1024_S512x768_0_128) transposes_S512x768_S768x512_1_0) := by
  after_results; rw [ha6]
theorem s2_v89 (ha6 : W (Proc.devRef .tc main_arg6) = x6) :
    @Eq (S128x512.Idx → EReal) (StableHlo.after hostOps2 W (Proc.devRef .tc main_v89))
      (transpose S128x512 [1, 0] (extractStridedSlice S512x128 ![0, 896] (x6 : S512x1024.Idx → EReal) slices_S512x1024_S512x128_0_896) transposes_S512x128_S128x512_1_0) := by
  after_results; rw [ha6]
theorem s2_v91 (ha8 : W (Proc.devRef .tc main_arg8) = x8) (ha9 : W (Proc.devRef .tc main_arg9) = x9) :
    @Eq (S1x512.Idx → EReal) (StableHlo.after hostOps2 W (Proc.devRef .tc main_v91))
      (shapeCast S1x512 (addf (F := Ideal) (s := S512) (φ := .f32) x8 x9) shapeCasts_S512_S1x512) := by
  after_results; rw [ha8, ha9]; rfl
end

end Cert.KernelIdeal.HostChain

end
-- ==== Proof.GcnLaw.lean ====
/-
  Propagating before or after a linear map, at one entry.

  A graph layer sums, over the edges e that end at a node, the feature row of the edge's source node scaled by
  the edge's weight c e, and maps the features linearly (a matrix w).  Mapping first and summing afterwards,
      0 + Σ_e [e ends here] (Σ_k a e k · w k) · c e,
  or summing first and mapping afterwards,
      Σ_k (0 + Σ_e [e ends here] a e k · c e) · w k,
  is the same real number: both are the double sum Σ_e Σ_k a e k · c e · w k.  On the extended reals
  multiplication does not distribute over addition at the infinities, so the law is stated for entries,
  weights and matrix entries that are (coercions of) real numbers.
-/
import Mathlib.Data.EReal.Basic
import Mathlib.Algebra.BigOperators.Ring.Finset
import Mathlib.Algebra.BigOperators.Group.Finset.Sigma
import Mathlib.Tactic.Ring

open scoped BigOperators

namespace Cert.ReferenceIdeal.RefGcn

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_real {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    obtain ⟨r, hr⟩ := ih (fun i hi => hf i (Finset.mem_insert_of_mem hi))
    obtain ⟨q, hq⟩ := hf a (Finset.mem_insert_self a s)
    exact ⟨q + r, by rw [Finset.sum_insert ha, hq, hr, EReal.coe_add]⟩

/-- The law over the reals: the two orders are the same double sum. -/
theorem gcn_real {E K : ℕ} (P : Fin E → Prop) [DecidablePred P] (a : Fin E → Fin K → ℝ) (c : Fin E → ℝ)
    (w : Fin K → ℝ) :
    ∑ k, (0 + ∑ e, if P e then a e k * c e else 0) * w k
      = 0 + ∑ e, if P e then (∑ k, a e k * w k) * c e else 0 := by
  simp only [zero_add, Finset.sum_mul]
  rw [Finset.sum_comm]
  refine Finset.sum_congr rfl fun e _ => ?_
  by_cases h : P e
  · simp only [if_pos h]
    refine Finset.sum_congr rfl fun k _ => ?_
    ring
  · simp only [if_neg h, zero_mul, Finset.sum_const_zero]

/-- THE LAW on the extended reals, for real entries: summing the scaled source rows over the edges that end at a
    node and then mapping by `w` equals mapping the source rows by `w` and then summing them scaled. -/
theorem gcn_ereal {E K : ℕ} (P : Fin E → Prop) [DecidablePred P] (a : Fin E → Fin K → EReal) (c : Fin E → EReal)
    (w : Fin K → EReal) (ha : ∀ e k, ∃ r : ℝ, a e k = r) (hc : ∀ e, ∃ r : ℝ, c e = r)
    (hw : ∀ k, ∃ r : ℝ, w k = r) :
    ∑ k, (0 + ∑ e, if P e then a e k * c e else 0) * w k
      = 0 + ∑ e, if P e then (∑ k, a e k * w k) * c e else 0 := by
  choose a' ha' using ha
  choose c' hc' using hc
  choose w' hw' using hw
  have h := congrArg Real.toEReal (gcn_real P a' c' w')
  simp only [coe_sum, EReal.coe_add, EReal.coe_mul, EReal.coe_zero, apply_ite Real.toEReal] at h
  simp only [ha', hc', hw']
  exact h

end Cert.ReferenceIdeal.RefGcn
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.GcnArrays.lean ====
/-
  Propagating before or after the second layer's linear map, as whole arrays.

  With a feature matrix h : [15000, 10], a weight matrix w : [10, 128], edge weights nrm : [215000] and two
  columns of node indices src, dst : [215000, 1], a graph layer gathers the rows of a matrix at src, scales row e by
  nrm e, and sums the scaled rows into a zero matrix at the rows dst names.  Applying the layer to h and then
  multiplying by w gives the same [15000, 128] array as multiplying first and applying the layer to h · w,
  provided every entry of h, w and nrm is a real number.  At an entry both sides are finite sums over the ten
  features and over the edges whose target is the row, and the entry-level law of GcnLaw applies.
-/
import proofs.«117671_j50156628082716_2_alg».proof.Proof.RefRead
import proofs.«117671_j50156628082716_2_alg».proof.Proof.GcnLaw
import proofs.«117671_j50156628082716_2_alg».proof.Proof.LibRowGather
import proofs.«117671_j50156628082716_2_alg».proof.Proof.LibRowScatter
import proofs.«117671_j50156628082716_2_alg».proof.Proof.LibHostDotIdx

noncomputable section

open scoped BigOperators

namespace Cert.ReferenceIdeal.RefGcn

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The product by the [10, 128] matrix at an entry: the sum over the ten features. -/
theorem dotW_apply (l : FVec Ideal S15000x10 .f32) (w : FVec Ideal S10x128 .f32)
    (a : Fin 15000) (j : Fin 128) :
    Host.dotGeneral (F := Ideal) dot_S15000x10_S10x128_S15000x128_1_0_0_1_n_n none l w (ix2 a j)
      = ∑ k : Fin 10, l (ix2 a k) * w (ix2 k j) :=
  LibHostDotIdx.hostDot2_apply dot_S15000x10_S10x128_S15000x128_1_0_0_1_n_n rfl rfl
    lhs_main_v48_0 lhs_main_v48_1 rhs_main_v48_0 rhs_main_v48_1 none l w (ix2 a j)

/-- The width-10 segment sum at an entry. -/
theorem scatter10_apply (x : FVec Ideal S15000x10 .f32)
    (idx : IVec S215000x1 32) (upd : FVec Ideal S215000x10 .f32)
    (a : Fin 15000) (k : Fin 10) :
    Host.scatterAdd (F := Ideal) scatter_S15000x10_S215000x1_S215000x10_1_0_0_1 x idx upd (ix2 a k)
      = x (ix2 a k) + ∑ e : Fin 215000, if (idx (ix2 e (0 : Fin 1))).toInt = ((a : ℕ) : ℤ) then upd (ix2 e k) else 0 :=
  LibRowScatter.scatterAdd_rows_apply (scatter_S15000x10_S215000x1_S215000x10_1_0_0_1).wf x idx upd a k

/-- The width-128 segment sum at an entry. -/
theorem scatter128_apply (x : FVec Ideal S15000x128 .f32)
    (idx : IVec S215000x1 32) (upd : FVec Ideal S215000x128 .f32)
    (a : Fin 15000) (j : Fin 128) :
    Host.scatterAdd (F := Ideal) scatter_S15000x128_S215000x1_S215000x128_1_0_0_1 x idx upd (ix2 a j)
      = x (ix2 a j) + ∑ e : Fin 215000, if (idx (ix2 e (0 : Fin 1))).toInt = ((a : ℕ) : ℤ) then upd (ix2 e j) else 0 :=
  LibRowScatter.scatterAdd_rows_apply (scatter_S15000x128_S215000x1_S215000x128_1_0_0_1).wf x idx upd a j

/-- The source row of edge `e`: the `e`-th index read signed and clamped into [0, 14999]. -/
def srcRow (idx : IVec S215000x1 32) (e : Fin 215000) : Fin 15000 :=
  LibRowGather.clampRow 15000 (by decide) (idx (ix2 e (0 : Fin 1)))

/-- The width-10 row gather at an entry. -/
theorem gather10_apply (x : FVec Ideal S15000x10 .f32)
    (idx : IVec S215000x1 32) (e : Fin 215000) (k : Fin 10) :
    Host.gather gather_S15000x10_S215000x1_S215000x10_1_0_n_n_0_1_110 x idx (ix2 e k) = x (ix2 (srcRow idx e) k) :=
  LibRowGather.gather_rows_apply (by decide) (gather_S15000x10_S215000x1_S215000x10_1_0_n_n_0_1_110).wf x idx e k

/-- The width-128 row gather at an entry. -/
theorem gather128_apply (x : FVec Ideal S15000x128 .f32)
    (idx : IVec S215000x1 32) (e : Fin 215000) (j : Fin 128) :
    Host.gather gather_S15000x128_S215000x1_S215000x128_1_0_n_n_0_1_1128 x idx (ix2 e j) = x (ix2 (srcRow idx e) j) :=
  LibRowGather.gather_rows_apply (by decide) (gather_S15000x128_S215000x1_S215000x128_1_0_n_n_0_1_1128).wf x idx e j

/-- The edge weights laid out as a column and repeated along ten features, at an entry. -/
theorem nrm10_apply (nrm : FVec Ideal S215000 .f32) (e : Fin 215000) (k : Fin 10) :
    broadcastInDim S215000x10 ![0, 1] bcast_S215000x1_S215000x10_0_1
        (broadcastInDim S215000x1 ![0] bcast_S215000_S215000x1_0 nrm) (ix2 e k) = nrm (ix1 e) := by
  rw [broadcastInDim_apply _ bcast_S215000x1_S215000x10_0_1 _ (ix2 e k) (ix2 e (0 : Fin 1)) (fun a => match a with
    | ⟨0, _⟩ => by show e.val = if (215000 : Nat) = 1 then 0 else e.val; rw [if_neg (by decide)]
    | ⟨1, _⟩ => by show 0 = if (1 : Nat) = 1 then 0 else k.val; rw [if_pos rfl])]
  exact broadcastInDim_apply _ bcast_S215000_S215000x1_0 nrm (ix2 e (0 : Fin 1)) (ix1 e) (fun a => match a with
    | ⟨0, _⟩ => by show e.val = if (215000 : Nat) = 1 then 0 else e.val; rw [if_neg (by decide)])

/-- The edge weights laid out as a column and repeated along 128 features, at an entry. -/
theorem nrm128_apply (nrm : FVec Ideal S215000 .f32) (e : Fin 215000) (j : Fin 128) :
    broadcastInDim S215000x128 ![0, 1] bcast_S215000x1_S215000x128_0_1
        (broadcastInDim S215000x1 ![0] bcast_S215000_S215000x1_0 nrm) (ix2 e j) = nrm (ix1 e) := by
  rw [broadcastInDim_apply _ bcast_S215000x1_S215000x128_0_1 _ (ix2 e j) (ix2 e (0 : Fin 1)) (fun a => match a with
    | ⟨0, _⟩ => by show e.val = if (215000 : Nat) = 1 then 0 else e.val; rw [if_neg (by decide)]
    | ⟨1, _⟩ => by show 0 = if (1 : Nat) = 1 then 0 else j.val; rw [if_pos rfl])]
  exact broadcastInDim_apply _ bcast_S215000_S215000x1_0 nrm (ix2 e (0 : Fin 1)) (ix1 e) (fun a => match a with
    | ⟨0, _⟩ => by show e.val = if (215000 : Nat) = 1 then 0 else e.val; rw [if_neg (by decide)])

/-- The zero matrices the two segment sums start from. -/
theorem zeros10_apply (i : S15000x10.Idx) : val_main_v41 (F := Ideal) i = 0 := by
  rw [val_main_v41_apply, val_main_cst_8_apply]; exact Ideal.ofBits_zero_f32

theorem zeros128_apply (i : S15000x128.Idx) : val_main_v59 (F := Ideal) i = 0 := by
  rw [val_main_v59_apply, val_main_cst_11_apply]; exact Ideal.ofBits_zero_f32

/-- The law at an entry `(a, j)`: both sides are sums over the ten features and over the edges that end at node `a`. -/
theorem propagate_then_project_apply (h : FVec Ideal S15000x10 .f32) (w : FVec Ideal S10x128 .f32) (nrm : FVec Ideal S215000 .f32)
    (srcCol dstCol : IVec S215000x1 32)
    (hh : ∀ i, ∃ r : ℝ, h i = (r : EReal)) (hw : ∀ i, ∃ r : ℝ, w i = (r : EReal))
    (hn : ∀ i, ∃ r : ℝ, nrm i = (r : EReal)) (a : Fin 15000) (j : Fin 128) :
    Host.dotGeneral (F := Ideal) dot_S15000x10_S10x128_S15000x128_1_0_0_1_n_n none
        (Host.scatterAdd (F := Ideal) scatter_S15000x10_S215000x1_S215000x10_1_0_0_1 (val_main_v41 (F := Ideal)) dstCol
          (mulf (F := Ideal) (Host.gather gather_S15000x10_S215000x1_S215000x10_1_0_n_n_0_1_110 h srcCol)
            (broadcastInDim S215000x10 ![0, 1] bcast_S215000x1_S215000x10_0_1
              (broadcastInDim S215000x1 ![0] bcast_S215000_S215000x1_0 nrm))))
        w (ix2 a j)
      = Host.scatterAdd (F := Ideal) scatter_S15000x128_S215000x1_S215000x128_1_0_0_1 (val_main_v59 (F := Ideal)) dstCol
          (mulf (F := Ideal) (Host.gather gather_S15000x128_S215000x1_S215000x128_1_0_n_n_0_1_1128
                  (Host.dotGeneral (F := Ideal) dot_S15000x10_S10x128_S15000x128_1_0_0_1_n_n none h w) srcCol)
            (broadcastInDim S215000x128 ![0, 1] bcast_S215000x1_S215000x128_0_1
              (broadcastInDim S215000x1 ![0] bcast_S215000_S215000x1_0 nrm))) (ix2 a j) := by
  rw [dotW_apply, scatter128_apply, zeros128_apply]
  have hL : ∀ k : Fin 10,
      Host.scatterAdd (F := Ideal) scatter_S15000x10_S215000x1_S215000x10_1_0_0_1 (val_main_v41 (F := Ideal)) dstCol
          (mulf (F := Ideal) (Host.gather gather_S15000x10_S215000x1_S215000x10_1_0_n_n_0_1_110 h srcCol)
            (broadcastInDim S215000x10 ![0, 1] bcast_S215000x1_S215000x10_0_1
              (broadcastInDim S215000x1 ![0] bcast_S215000_S215000x1_0 nrm))) (ix2 a k)
        = 0 + ∑ e : Fin 215000, if (dstCol (ix2 e (0 : Fin 1))).toInt = ((a : ℕ) : ℤ)
            then h (ix2 (srcRow srcCol e) k) * nrm (ix1 e) else 0 := by
    intro k
    rw [scatter10_apply, zeros10_apply]
    refine congrArg (fun x => (0 : EReal) + x) (Finset.sum_congr rfl fun e _ => ?_)
    rw [mulf_apply, gather10_apply, nrm10_apply]
  have hR : ∀ e : Fin 215000,
      mulf (F := Ideal) (Host.gather gather_S15000x128_S215000x1_S215000x128_1_0_n_n_0_1_1128
                  (Host.dotGeneral (F := Ideal) dot_S15000x10_S10x128_S15000x128_1_0_0_1_n_n none h w) srcCol)
            (broadcastInDim S215000x128 ![0, 1] bcast_S215000x1_S215000x128_0_1
              (broadcastInDim S215000x1 ![0] bcast_S215000_S215000x1_0 nrm)) (ix2 e j)
        = (∑ k : Fin 10, h (ix2 (srcRow srcCol e) k) * w (ix2 k j)) * nrm (ix1 e) := by
    intro e
    rw [mulf_apply, gather128_apply, nrm128_apply, dotW_apply]
  rw [Finset.sum_congr rfl fun k _ => congrArg (fun x => x * w (ix2 k j)) (hL k)]
  rw [Finset.sum_congr rfl fun e _ => if_congr Iff.rfl (hR e) rfl]
  exact gcn_ereal (fun e => (dstCol (ix2 e (0 : Fin 1))).toInt = ((a : ℕ) : ℤ))
    (fun e k => h (ix2 (srcRow srcCol e) k)) (fun e => nrm (ix1 e)) (fun k => w (ix2 k j))
    (fun e k => hh _) (fun e => hn _) (fun k => hw _)

/-- THE ARRAY LAW: the layer applied to `h` and then multiplied by `w` is the layer applied to `h · w`, for real
    entries of `h`, `w` and the edge weights, whatever the index columns hold. -/
theorem propagate_then_project (h : FVec Ideal S15000x10 .f32) (w : FVec Ideal S10x128 .f32) (nrm : FVec Ideal S215000 .f32)
    (srcCol dstCol : IVec S215000x1 32)
    (hh : ∀ i, ∃ r : ℝ, h i = (r : EReal)) (hw : ∀ i, ∃ r : ℝ, w i = (r : EReal))
    (hn : ∀ i, ∃ r : ℝ, nrm i = (r : EReal)) :
    Host.dotGeneral (F := Ideal) dot_S15000x10_S10x128_S15000x128_1_0_0_1_n_n none
        (Host.scatterAdd (F := Ideal) scatter_S15000x10_S215000x1_S215000x10_1_0_0_1 (val_main_v41 (F := Ideal)) dstCol
          (mulf (F := Ideal) (Host.gather gather_S15000x10_S215000x1_S215000x10_1_0_n_n_0_1_110 h srcCol)
            (broadcastInDim S215000x10 ![0, 1] bcast_S215000x1_S215000x10_0_1
              (broadcastInDim S215000x1 ![0] bcast_S215000_S215000x1_0 nrm))))
        w
      = Host.scatterAdd (F := Ideal) scatter_S15000x128_S215000x1_S215000x128_1_0_0_1 (val_main_v59 (F := Ideal)) dstCol
          (mulf (F := Ideal) (Host.gather gather_S15000x128_S215000x1_S215000x128_1_0_n_n_0_1_1128
                  (Host.dotGeneral (F := Ideal) dot_S15000x10_S10x128_S15000x128_1_0_0_1_n_n none h w) srcCol)
            (broadcastInDim S215000x128 ![0, 1] bcast_S215000x1_S215000x128_0_1
              (broadcastInDim S215000x1 ![0] bcast_S215000_S215000x1_0 nrm))) := by
  funext i
  rw [eq_ix2 i]
  exact propagate_then_project_apply h w nrm srcCol dstCol hh hw hn (i 0) (i 1)

end Cert.ReferenceIdeal.RefGcn

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«117671_j50156628082716_2_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«117671_j50156628082716_2_alg».proof.Proof.LibERealMatrix
import proofs.«117671_j50156628082716_2_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.GcnFinite.lean ====
/-
  The reference's edge weights and hidden features are real numbers.

  The edge weight of edge e is dinv[src e] · dinv[dst e], where dinv = (deg > 0 ? 1/sqrt deg : 0) and deg is the sum,
  into zeros, of the constant 1 over the edges that end at a node.  A degree is therefore a finite sum of ones: a
  non-negative real; where it is positive its reciprocal square root is a positive real, elsewhere the weight factor
  is the literal 0.  Gathers only move entries, so the edge weights are real whatever the integer input holds.

  The hidden features are max(segment-sum(gather(x · W1) · weight) + b1, 0): products, finite sums and maxima of real
  numbers, real as soon as x, W1 and b1 have real entries.
-/
import proofs.«117671_j50156628082716_2_alg».proof.Proof.RefRead
import proofs.«117671_j50156628082716_2_alg».proof.Proof.LibERealMatrix
import proofs.«117671_j50156628082716_2_alg».proof.Proof.LibIdealFinite
import proofs.«117671_j50156628082716_2_alg».proof.Proof.LibGatherScatterFinite

noncomputable section

namespace Cert.ReferenceIdeal.RefGcn

open Cert.ReferenceIdeal Cert.ReferenceIdeal.Gen Cert.ReferenceIdeal.Read Idealize.ShloMosaic Idealize.ShloMosaic.TcCoe
  Idealize.SL.Sem Idealize.ShloMosaic.StableHlo LibERealMatrix LibIdealFinite LibGatherScatterFinite

/-- Entries that are images of reals are finite, and conversely. -/
theorem allFin_of_real {s : Shape} {v : s.Idx → EReal} (h : ∀ i, ∃ r : ℝ, v i = (r : EReal)) : AllFin v := fun i => by
  obtain ⟨r, hr⟩ := h i
  rw [hr]; exact Fin'.coe r

theorem real_of_allFin {s : Shape} {v : s.Idx → EReal} (h : AllFin v) (i : s.Idx) : ∃ r : ℝ, v i = (r : EReal) :=
  (h i).exists_real

/-- The word of `1.0` denotes the real 1. -/
theorem ofBits_one : Ideal.ofBits .f32 0x3F800000#32 = ((1 : ℝ) : EReal) := by
  simp [Ideal.ofBits, Ideal.ieee, -EReal.coe_mul]
  norm_num

/-! ### The degrees and the edge weights -/

/-- The degrees: finite sums of ones into zeros. -/
theorem allFin_v10 (x10 : (⟨S2x200000, .i32⟩ : BufTy).Contents (Elt Ideal)) : AllFin (val_main_v10 (F := Ideal) x10) :=
  allFin_scatterAdd _ _ (allFin_bcast_constant _ _ ofBits_zero_coe) (allFin_bcast_constant _ _ ofBits_one)

/-- One weight factor from one degree: the reciprocal square root where the degree is positive, zero elsewhere, is
    a real number as soon as the degree is. -/
theorem fin_dinv (d : Ideal .f32) (hd : Fin' d) :
    Fin' (Scalar.select (FloatOps.cmpf (F := Ideal) (φ := .f32) .ogt d (FloatOps.ofBits (F := Ideal) .f32 0x00000000#32))
      (FloatOps.hostUnary (F := Ideal) (φ := .f32) .rsqrt d) (FloatOps.ofBits (F := Ideal) .f32 0x00000000#32)) := by
  show Fin' (if Ideal.cmp .ogt d (Ideal.ofBits .f32 0x00000000#32) = 1#1 then Ideal.rsqrt d
    else Ideal.ofBits .f32 0x00000000#32)
  rw [Ideal.ofBits_zero_f32]
  by_cases hpos : (0 : EReal) < d
  · have hc : Ideal.cmp .ogt d 0 = 1#1 := by
      show BitVec.ofBool (decide ((0 : EReal) < d)) = 1#1
      rw [decide_eq_true hpos]; rfl
    rw [if_pos hc]
    exact (fin_rsqrt hd hpos).1
  · have hc : ¬ Ideal.cmp .ogt d 0 = 1#1 := by
      show ¬ BitVec.ofBool (decide ((0 : EReal) < d)) = 1#1
      rw [decide_eq_false hpos]; decide
    rw [if_neg hc]
    exact fin_zero

/-- The reciprocal square root of the degree where the degree is positive, zero elsewhere: a real number. -/
theorem allFin_v14 (x10 : (⟨S2x200000, .i32⟩ : BufTy).Contents (Elt Ideal)) : AllFin (val_main_v14 (F := Ideal) x10) := by
  intro i
  rw [val_main_v14_apply, val_main_v12_apply, val_main_v13_apply, val_main_v11_apply, val_main_cst_1_apply,
    val_main_call0_v1_apply, val_main_call0_v0_apply, val_main_cst_2_apply]
  exact fin_dinv _ (allFin_v10 x10 i)

/-- THE EDGE WEIGHTS ARE REAL, whatever the integer input holds. -/
theorem allFin_v29 (x10 : (⟨S2x200000, .i32⟩ : BufTy).Contents (Elt Ideal)) : AllFin (val_main_v29 (F := Ideal) x10) :=
  allFin_mulf (allFin_gather _ _ (allFin_v14 x10)) (allFin_gather _ _ (allFin_v14 x10))

theorem real_v29 (x10 : (⟨S2x200000, .i32⟩ : BufTy).Contents (Elt Ideal)) (i : S215000.Idx) :
    ∃ r : ℝ, val_main_v29 (F := Ideal) x10 i = (r : EReal) :=
  real_of_allFin (allFin_v29 x10) i

/-! ### The hidden features -/

/-- THE HIDDEN FEATURES ARE REAL when the node features, the first weight matrix and the first bias are. -/
theorem allFin_v47 (x0 : (⟨S15000x768, .f32⟩ : BufTy).Contents (Elt Ideal)) (x2 : (⟨S768x10, .f32⟩ : BufTy).Contents (Elt Ideal))
    (x3 : (⟨S10, .f32⟩ : BufTy).Contents (Elt Ideal)) (x10 : (⟨S2x200000, .i32⟩ : BufTy).Contents (Elt Ideal))
    (h0 : AllFin x0) (h2 : AllFin x2) (h3 : AllFin x3) : AllFin (val_main_v47 (F := Ideal) x0 x2 x3 x10) := by
  have h30 : AllFin (val_main_v30 (F := Ideal) x0 x2) := allFin_dotGeneral _ _ h0 h2
  have h37 : AllFin (val_main_v37 (F := Ideal) x0 x2 x10) := allFin_gather _ _ h30
  have h39 : AllFin (val_main_v39 (F := Ideal) x10) :=
    allFin_broadcastInDim _ _ _ (allFin_broadcastInDim _ _ _ (allFin_v29 x10))
  have h40 : AllFin (val_main_v40 (F := Ideal) x0 x2 x10) := allFin_mulf h37 h39
  have h43 : AllFin (val_main_v43 (F := Ideal) x0 x2 x10) :=
    allFin_scatterAdd _ _ (allFin_bcast_constant _ _ ofBits_zero_coe) h40
  have h45 : AllFin (val_main_v45 (F := Ideal) x3) := allFin_broadcastInDim _ _ _ (allFin_broadcastInDim _ _ _ h3)
  have h46 : AllFin (val_main_v46 (F := Ideal) x0 x2 x3 x10) := allFin_addf h43 h45
  exact allFin_maximumf_bcast_zero _ _ h46

theorem real_v47 (x0 : (⟨S15000x768, .f32⟩ : BufTy).Contents (Elt Ideal)) (x2 : (⟨S768x10, .f32⟩ : BufTy).Contents (Elt Ideal))
    (x3 : (⟨S10, .f32⟩ : BufTy).Contents (Elt Ideal)) (x10 : (⟨S2x200000, .i32⟩ : BufTy).Contents (Elt Ideal))
    (h0 : ∀ i, ∃ r : ℝ, x0 i = (r : EReal)) (h2 : ∀ i, ∃ r : ℝ, x2 i = (r : EReal))
    (h3 : ∀ i, ∃ r : ℝ, x3 i = (r : EReal)) (i : S15000x10.Idx) :
    ∃ r : ℝ, val_main_v47 (F := Ideal) x0 x2 x3 x10 i = (r : EReal) :=
  real_of_allFin (allFin_v47 x0 x2 x3 x10 (allFin_of_real h0) (allFin_of_real h2) (allFin_of_real h3)) i

end Cert.ReferenceIdeal.RefGcn

end
-- ==== Proof.GcnStage.lean ====
/-
  The reference's second layer, re-associated.

  The reference multiplies the hidden features by the second weight matrix and then propagates the 128-wide rows
  along the edges; propagating the 10-wide hidden rows first and multiplying afterwards gives the same array,
  because the hidden features, the edge weights and (by hypothesis) the weight matrix have real entries.
-/
import proofs.«117671_j50156628082716_2_alg».proof.Proof.RefRead
import proofs.«117671_j50156628082716_2_alg».proof.Proof.GcnArrays
import proofs.«117671_j50156628082716_2_alg».proof.Proof.GcnFinite

noncomputable section

namespace Cert.ReferenceIdeal.RefGcn

open Cert.ReferenceIdeal Cert.ReferenceIdeal.Gen Cert.ReferenceIdeal.Read Idealize.ShloMosaic Idealize.ShloMosaic.TcCoe
  Idealize.SL.Sem Idealize.ShloMosaic.StableHlo

/-- The reference's second-layer segment sum (before the bias) is the product by the second weight matrix of the
    first-layer-shaped propagation of the hidden features. -/
theorem val_main_v61_eq (x0 : (⟨S15000x768, .f32⟩ : BufTy).Contents (Elt Ideal)) (x2 : (⟨S768x10, .f32⟩ : BufTy).Contents (Elt Ideal))
    (x3 : (⟨S10, .f32⟩ : BufTy).Contents (Elt Ideal)) (x4 : (⟨S10x128, .f32⟩ : BufTy).Contents (Elt Ideal))
    (x10 : (⟨S2x200000, .i32⟩ : BufTy).Contents (Elt Ideal))
    (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal)) :
    val_main_v61 (F := Ideal) x0 x2 x3 x4 x10
      = Host.dotGeneral (F := Ideal) (φ₁ := .f32) (φ₂ := .f32) dot_S15000x10_S10x128_S15000x128_1_0_0_1_n_n none
          (Host.scatterAdd (F := Ideal) (φ := .f32) scatter_S15000x10_S215000x1_S215000x10_1_0_0_1 (val_main_v41 (F := Ideal))
            (val_main_v60 (F := Ideal) x10)
            (mulf (F := Ideal) (φ := .f32)
              (Host.gather (α := Ideal .f32) gather_S15000x10_S215000x1_S215000x10_1_0_n_n_0_1_110 (val_main_v47 (F := Ideal) x0 x2 x3 x10)
                (val_main_v54 (F := Ideal) x10))
              (val_main_v39 (F := Ideal) x10)))
          x4 := by
  unfold val_main_v61 val_main_v58 val_main_v55 val_main_v57 val_main_v56 val_main_v48 val_main_v39 val_main_v38
  exact (propagate_then_project (val_main_v47 (F := Ideal) x0 x2 x3 x10) x4 (val_main_v29 (F := Ideal) x10)
    (val_main_v54 (F := Ideal) x10) (val_main_v60 (F := Ideal) x10) (real_v47 x0 x2 x3 x10 h0 h2 h3) h4
    (real_v29 x10)).symm

end Cert.ReferenceIdeal.RefGcn

end
-- ==== Proof.LstmJoin.lean ====
/-
  The joined feature row read at an entry.

  The reference joins three row blocks of 128, 768 and 128 columns along the column axis into one 1024-column block.
  At row `p` the joined block holds, at column `k` of the first span, the first piece at `(p, k)`; at column `128 + k`,
  the second piece at `(p, k)`; at column `896 + k`, the third piece at `(p, k)`.
-/
import proofs.«117671_j50156628082716_2_alg».proof.Proof.Gen.ReferenceIdeal
import proofs.«117671_j50156628082716_2_alg».proof.Proof.LstmSpec
import Idealize.ShloMosaic.Lib.Pipeline.Value
import Idealize.ShloMosaic.Lib.ValueIdx

noncomputable section

namespace Cert.ReferenceIdeal.RefLstm

open Cert.ReferenceIdeal Cert.ReferenceIdeal.Gen Idealize.ShloMosaic Idealize.ShloMosaic.ValueIdx Cert.Lstm

variable {α : Type}

/-- Columns `0‥127` of the joined block are the first piece. -/
theorem join_colH (y0 : S100000x128.Idx → α) (y1 : S100000x768.Idx → α) (y2 : S100000x128.Idx → α)
    (p : Fin 100000) (k : Fin 128) :
    concatenate S100000x1024 1 [⟨S100000x128, y0⟩, ⟨S100000x768, y1⟩, ⟨S100000x128, y2⟩]
        concatenates_S100000x128_S100000x768_S100000x128_S100000x1024_d1 (ix2 p (colH k)) = y0 (ix2 p k) :=
  concatenate_apply_piece (1 : Fin S100000x1024.rank) [⟨S100000x128, y0⟩, ⟨S100000x768, y1⟩, ⟨S100000x128, y2⟩] concatenates_S100000x128_S100000x768_S100000x128_S100000x1024_d1
    (ix2 p (colH k)) 0 (by show 0 < 3; omega) S100000x128 y0 rfl rfl 0 rfl (ix2 p k)
    (fun b hb => by
      match b with
      | ⟨0, _⟩ => rfl
      | ⟨1, _⟩ => exact absurd rfl hb)
    (Nat.zero_add _)

/-- Columns `128‥895` are the second piece. -/
theorem join_colR (y0 : S100000x128.Idx → α) (y1 : S100000x768.Idx → α) (y2 : S100000x128.Idx → α)
    (p : Fin 100000) (k : Fin 768) :
    concatenate S100000x1024 1 [⟨S100000x128, y0⟩, ⟨S100000x768, y1⟩, ⟨S100000x128, y2⟩]
        concatenates_S100000x128_S100000x768_S100000x128_S100000x1024_d1 (ix2 p (colR k)) = y1 (ix2 p k) :=
  concatenate_apply_piece (1 : Fin S100000x1024.rank) [⟨S100000x128, y0⟩, ⟨S100000x768, y1⟩, ⟨S100000x128, y2⟩] concatenates_S100000x128_S100000x768_S100000x128_S100000x1024_d1
    (ix2 p (colR k)) 1 (by show 1 < 3; omega) S100000x768 y1 rfl rfl 128 rfl (ix2 p k)
    (fun b hb => by
      match b with
      | ⟨0, _⟩ => rfl
      | ⟨1, _⟩ => exact absurd rfl hb)
    rfl

/-- Columns `896‥1023` are the third piece. -/
theorem join_colT (y0 : S100000x128.Idx → α) (y1 : S100000x768.Idx → α) (y2 : S100000x128.Idx → α)
    (p : Fin 100000) (k : Fin 128) :
    concatenate S100000x1024 1 [⟨S100000x128, y0⟩, ⟨S100000x768, y1⟩, ⟨S100000x128, y2⟩]
        concatenates_S100000x128_S100000x768_S100000x128_S100000x1024_d1 (ix2 p (colT k)) = y2 (ix2 p k) :=
  concatenate_apply_piece (1 : Fin S100000x1024.rank) [⟨S100000x128, y0⟩, ⟨S100000x768, y1⟩, ⟨S100000x128, y2⟩] concatenates_S100000x128_S100000x768_S100000x128_S100000x1024_d1
    (ix2 p (colT k)) 2 (by show 2 < 3; omega) S100000x128 y2 rfl rfl 896 rfl (ix2 p k)
    (fun b hb => by
      match b with
      | ⟨0, _⟩ => rfl
      | ⟨1, _⟩ => exact absurd rfl hb)
    rfl

end Cert.ReferenceIdeal.RefLstm

end
-- ==== Proof.LstmRef.lean ====
/-
  The reference's score at one row.

  The reference joins the two gathered embeddings and the relation row into one 1024-wide row, contracts it against
  the transposed weight matrix in one product, adds the sum of the two bias vectors to every row, cuts the input-gate,
  cell-candidate and output-gate bands, and forms
  `sigmoid (Σ_j sigmoid(o_j) · tanh (sigmoid(i_j) · tanh(g_j)))`, each sigmoid spelled as negate, exponential, add one,
  divide. At the extended reals that spelling is the logistic function, so the result at row `p` is
  `Cert.Lstm.scoreOf` of the row's pre-activations in the one-sum grouping, which is `Cert.Lstm.scoreAt`.
-/
import proofs.«117671_j50156628082716_2_alg».proof.Proof.RefRead
import proofs.«117671_j50156628082716_2_alg».proof.Proof.LstmSpec
import proofs.«117671_j50156628082716_2_alg».proof.Proof.LstmJoin
import Idealize.ShloMosaic.Lib.IdealHost

noncomputable section

open scoped BigOperators

namespace Cert.ReferenceIdeal.RefLstm

open Cert.ReferenceIdeal Cert.ReferenceIdeal.Gen Cert.ReferenceIdeal.Read Idealize.ShloMosaic Idealize.ShloMosaic.ValueIdx Cert.Lstm

/-! ## Index equations: the generated index maps at coordinates -/

theorem lidx85_eq (p : Fin 100000) (n : Fin 512) (j : Fin 1024) : lidx_main_v85 (ix2 p n) j = ix2 p j :=
  funext fun a => by match a with | ⟨0, _⟩ => rfl | ⟨1, _⟩ => rfl

theorem ridx85_eq (p : Fin 100000) (n : Fin 512) (j : Fin 1024) :
    idx_main_v84 (ridx_main_v85 (ix2 p n) j) = ix2 n j :=
  funext fun a => by match a with | ⟨0, _⟩ => rfl | ⟨1, _⟩ => rfl

theorem bias_idx_eq (p : Fin 100000) (n : Fin 512) : idx_main_v87 (idx_main_v88 (ix2 p n)) = ix1 n :=
  funext fun a => by match a with | ⟨0, _⟩ => rfl

theorem idx90_eq (p : Fin 100000) (k : Fin 128) : idx_main_v90 (idx_main_v110 (ix1 p) k) = ix2 p (gI k) :=
  funext fun a => by match a with | ⟨0, _⟩ => rfl | ⟨1, _⟩ => rfl

theorem idx92_eq (p : Fin 100000) (k : Fin 128) : idx_main_v92 (idx_main_v110 (ix1 p) k) = ix2 p (gG k) :=
  funext fun a => by match a with | ⟨0, _⟩ => rfl | ⟨1, _⟩ => rfl

theorem idx93_eq (p : Fin 100000) (k : Fin 128) : idx_main_v93 (idx_main_v110 (ix1 p) k) = ix2 p (gO k) :=
  funext fun a => by match a with | ⟨0, _⟩ => rfl | ⟨1, _⟩ => rfl

/-! ## The sigmoid's spelling -/

/-- One over one plus the exponential of the negation is the logistic function. -/
theorem sigmoid_spelled (x : EReal) :
    Ideal.div (Ideal.ofBits .f32 0x3F800000#32) (Ideal.ofBits .f32 0x3F800000#32 + Ideal.exp (-x)) = Ideal.logistic x := by
  rw [Ideal.ofBits_one_f32]; rfl

section
variable (x0 : (⟨S15000x768, .f32⟩ : BufTy).Contents (Elt Ideal)) (x1 : (⟨S100000x768, .f32⟩ : BufTy).Contents (Elt Ideal))
  (x2 : (⟨S768x10, .f32⟩ : BufTy).Contents (Elt Ideal)) (x3 : (⟨S10, .f32⟩ : BufTy).Contents (Elt Ideal))
  (x4 : (⟨S10x128, .f32⟩ : BufTy).Contents (Elt Ideal)) (x5 : (⟨S128, .f32⟩ : BufTy).Contents (Elt Ideal))
  (x6 : (⟨S512x1024, .f32⟩ : BufTy).Contents (Elt Ideal)) (x8 x9 : (⟨S512, .f32⟩ : BufTy).Contents (Elt Ideal))
  (x10 : (⟨S2x200000, .i32⟩ : BufTy).Contents (Elt Ideal)) (x11 : (⟨S100000x3, .i32⟩ : BufTy).Contents (Elt Ideal))

/-! ## The joined row at an entry -/

theorem v83_colH (p : Fin 100000) (k : Fin 128) :
    val_main_v83 (F := Ideal) x0 x1 x2 x3 x4 x5 x10 x11 (ix2 p (colH k))
      = val_main_v73 (F := Ideal) x0 x2 x3 x4 x5 x10 x11 (ix2 p k) := by
  unfold val_main_v83; exact join_colH _ _ _ p k

theorem v83_colR (p : Fin 100000) (k : Fin 768) :
    val_main_v83 (F := Ideal) x0 x1 x2 x3 x4 x5 x10 x11 (ix2 p (colR k)) = x1 (ix2 p k) := by
  unfold val_main_v83; exact join_colR _ _ _ p k

theorem v83_colT (p : Fin 100000) (k : Fin 128) :
    val_main_v83 (F := Ideal) x0 x1 x2 x3 x4 x5 x10 x11 (ix2 p (colT k))
      = val_main_v82 (F := Ideal) x0 x2 x3 x4 x5 x10 x11 (ix2 p k) := by
  unfold val_main_v83; exact join_colT _ _ _ p k

/-! ## The pre-activations at an entry -/

/-- The biased product at `(p, n)` is gate `n` of row `p`, three partial sums and the bias. -/
theorem v89_apply (p : Fin 100000) (n : Fin 512) :
    val_main_v89 (F := Ideal) x0 x1 x2 x3 x4 x5 x6 x8 x9 x10 x11 (ix2 p n)
      = gateK (fun k => val_main_v73 (F := Ideal) x0 x2 x3 x4 x5 x10 x11 (ix2 p k)) (fun k => x1 (ix2 p k))
          (fun k => val_main_v82 (F := Ideal) x0 x2 x3 x4 x5 x10 x11 (ix2 p k)) (fun n j => x6 (ix2 n j))
          (fun n => x8 (ix1 n) + x9 (ix1 n)) n := by
  rw [val_main_v89_apply, val_main_v85_apply, val_main_v88_apply, val_main_v87_apply, val_main_v86_apply,
    bias_idx_eq, Ideal.addf_def, Ideal.addf_def, sum_split]
  unfold gateK
  refine congrArg (· + (x8 (ix1 n) + x9 (ix1 n))) ?_
  refine congrArg₂ (· + ·) (congrArg₂ (· + ·) ?_ ?_) ?_
  · exact Finset.sum_congr rfl fun k _ => by rw [lidx85_eq, v83_colH, val_main_v84_apply, ridx85_eq]
  · exact Finset.sum_congr rfl fun k _ => by rw [lidx85_eq, v83_colR, val_main_v84_apply, ridx85_eq]
  · exact Finset.sum_congr rfl fun k _ => by rw [lidx85_eq, v83_colT, val_main_v84_apply, ridx85_eq]

/-! ## The score from the pre-activations -/

/-- The last stage at row `p` is the score of the row's 512 biased products. -/
theorem v116_of_v89 (p : Fin 100000) :
    val_main_v116 (F := Ideal) x0 x1 x2 x3 x4 x5 x6 x8 x9 x10 x11 (ix1 p)
      = scoreOf fun n => val_main_v89 (F := Ideal) x0 x1 x2 x3 x4 x5 x6 x8 x9 x10 x11 (ix2 p n) := by
  rw [val_main_v116_apply, val_main_v115_apply, val_main_cst_22_apply, val_main_v114_apply, val_main_v113_apply,
    val_main_cst_21_apply, val_main_v112_apply, val_main_v111_apply, val_main_v110_apply, val_main_cst_20_apply]
  simp only [val_main_v109_apply, val_main_v107_apply, val_main_v106_apply, val_main_cst_19_apply, val_main_v105_apply,
    val_main_v104_apply, val_main_cst_18_apply, val_main_v103_apply, val_main_v102_apply, val_main_v93_apply,
    val_main_v108_apply, val_main_v101_apply, val_main_v99_apply, val_main_v98_apply, val_main_cst_17_apply,
    val_main_v97_apply, val_main_v96_apply, val_main_cst_16_apply, val_main_v95_apply, val_main_v94_apply,
    val_main_v90_apply, val_main_v100_apply, val_main_v92_apply,
    Ideal.hostDivf_def, Ideal.addf_def, Ideal.mulf_def, Ideal.hostUnary_exp_def, Ideal.hostUnary_tanh_def,
    Ideal.hostNegf_def, Ideal.negf_def, Ideal.ofBits_def, sigmoid_spelled, Ideal.ofBits_zero_f32, zero_add]
  unfold scoreOf
  refine congrArg Ideal.logistic (Finset.sum_congr rfl fun k _ => ?_)
  rw [idx90_eq, idx92_eq, idx93_eq]

/-! ## The reference's result at a row -/

/-- **The reference's result at row `p`** is the score of the row: the two gathered embeddings and the relation row
    as the three pieces, the weight matrix as it stands, and the sum of the two bias vectors. -/
theorem val_main_v116_row (p : Fin 100000) :
    val_main_v116 (F := Ideal) x0 x1 x2 x3 x4 x5 x6 x8 x9 x10 x11 (ix1 p)
      = scoreAt (fun k => val_main_v73 (F := Ideal) x0 x2 x3 x4 x5 x10 x11 (ix2 p k)) (fun k => x1 (ix2 p k))
          (fun k => val_main_v82 (F := Ideal) x0 x2 x3 x4 x5 x10 x11 (ix2 p k)) (fun n j => x6 (ix2 n j))
          (fun n => x8 (ix1 n) + x9 (ix1 n)) := by
  rw [v116_of_v89]
  unfold scoreAt
  exact congrArg scoreOf (funext fun n => v89_apply x0 x1 x2 x3 x4 x5 x6 x8 x9 x10 x11 p n)

end

end Cert.ReferenceIdeal.RefLstm

end
-- ==== Proof.Chain.lean ====
/-
  The kernel program's result array, read back to the arguments: it is the reference's result.

  The buffers' contents between the items of the kernel program are folded from the launch memory: a host stretch
  applies its operations, a region replaces its result array by what the region leaves. Reading that fold stage by
  stage: region 0 leaves `x · W1`, the reference's first product; the host operations up to the relu are the
  reference's, so the hidden features agree; region 1 multiplies the PROPAGATED hidden features by `W2` where the
  reference propagates the product — equal because the hidden features, the edge weights and `W2` are real numbers
  under the precondition; the bias, the narrowing (the identity at exact arithmetic) and the row gathers are the
  reference's; and region 2 scores each row as the reference's tail does, the 1024-wide product split in three.
-/
import proofs.«117671_j50156628082716_2_alg».proof.Proof.Value01
import proofs.«117671_j50156628082716_2_alg».proof.Proof.Value2
import proofs.«117671_j50156628082716_2_alg».proof.Proof.HostChain
import proofs.«117671_j50156628082716_2_alg».proof.Proof.GcnArrays
import proofs.«117671_j50156628082716_2_alg».proof.Proof.GcnFinite
import proofs.«117671_j50156628082716_2_alg».proof.Proof.GcnStage
import proofs.«117671_j50156628082716_2_alg».proof.Proof.LstmRef

set_option maxRecDepth 16384
set_option maxHeartbeats 4000000

noncomputable section

namespace Cert.KernelIdeal.Chain

open Cert.KernelIdeal Cert.KernelIdeal.Gen Cert.KernelIdeal.Hand Cert.KernelIdeal.HandValue Cert.KernelIdeal.HostChain Cert.Lstm
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The fold of the buffers' contents through @main -/

abbrev X3 : Valuation τ sig (Elt Ideal) := Gen.V3 m c
abbrev X3r : (c : Dev nD) → (b : Ref sig .tc) → Buf (Elt Ideal) ((c : Thread nD τ).loc b) := fun c b => Gen.V3 m c b
abbrev X4 : Valuation τ sig (Elt Ideal) := Function.update (X3 m c) main_v30 ((dat0 (X3r m) c).arrAt 2 cfg0.N)
abbrev X5 : Valuation τ sig (Elt Ideal) := StableHlo.after hostOps1 (X4 m c)
abbrev X6 : Valuation τ sig (Elt Ideal) := StableHlo.after hostOps1_1 (X5 m c)
abbrev X7 : Valuation τ sig (Elt Ideal) := StableHlo.after hostOps1_2 (X6 m c)
abbrev X7r : (c : Dev nD) → (b : Ref sig .tc) → Buf (Elt Ideal) ((c : Thread nD τ).loc b) := fun c b => X7 m c b
abbrev X8 : Valuation τ sig (Elt Ideal) := Function.update (X7 m c) main_v61 ((dat1 (X7r m) c).arrAt 2 cfg1.N)
abbrev X9 : Valuation τ sig (Elt Ideal) := StableHlo.after hostOps2 (X8 m c)
abbrev X9r : (c : Dev nD) → (b : Ref sig .tc) → Buf (Elt Ideal) ((c : Thread nD τ).loc b) := fun c b => X9 m c b

/-- The argument arrays as launched. -/
abbrev a0 : Cert.ReferenceIdeal.S15000x768.Idx → EReal := m ((c.tc : Thread nD τ).loc main_arg0)
abbrev a1 : Cert.ReferenceIdeal.S100000x768.Idx → EReal := m ((c.tc : Thread nD τ).loc main_arg1)
abbrev a2 : Cert.ReferenceIdeal.S768x10.Idx → EReal := m ((c.tc : Thread nD τ).loc main_arg2)
abbrev a3 : Cert.ReferenceIdeal.S10.Idx → EReal := m ((c.tc : Thread nD τ).loc main_arg3)
abbrev a4 : Cert.ReferenceIdeal.S10x128.Idx → EReal := m ((c.tc : Thread nD τ).loc main_arg4)
abbrev a5 : Cert.ReferenceIdeal.S128.Idx → EReal := m ((c.tc : Thread nD τ).loc main_arg5)
abbrev a6 : Cert.ReferenceIdeal.S512x1024.Idx → EReal := m ((c.tc : Thread nD τ).loc main_arg6)
abbrev a8 : Cert.ReferenceIdeal.S512.Idx → EReal := m ((c.tc : Thread nD τ).loc main_arg8)
abbrev a9 : Cert.ReferenceIdeal.S512.Idx → EReal := m ((c.tc : Thread nD τ).loc main_arg9)
abbrev a10 : Cert.ReferenceIdeal.S2x200000.Idx → BitVec 32 := m ((c.tc : Thread nD τ).loc main_arg10)
abbrev a11 : Cert.ReferenceIdeal.S100000x3.Idx → BitVec 32 := m ((c.tc : Thread nD τ).loc main_arg11)

/-! ## What no stretch writes is carried along -/

theorem keep0 (W : Valuation τ sig (Elt Ideal)) (r : Ref sig .tc) (h : r ∉ hostOps0_W) :
    StableHlo.after hostOps0 W (Proc.devRef .tc r) = W (Proc.devRef .tc r) := StableHlo.after_of_writes_sub hostOps0 _ hostOps0_writes h
theorem keep01 (W : Valuation τ sig (Elt Ideal)) (r : Ref sig .tc) (h : r ∉ hostOps0_1_W) :
    StableHlo.after hostOps0_1 W (Proc.devRef .tc r) = W (Proc.devRef .tc r) := StableHlo.after_of_writes_sub hostOps0_1 _ hostOps0_1_writes h
theorem keep02 (W : Valuation τ sig (Elt Ideal)) (r : Ref sig .tc) (h : r ∉ hostOps0_2_W) :
    StableHlo.after hostOps0_2 W (Proc.devRef .tc r) = W (Proc.devRef .tc r) := StableHlo.after_of_writes_sub hostOps0_2 _ hostOps0_2_writes h
theorem keep1 (W : Valuation τ sig (Elt Ideal)) (r : Ref sig .tc) (h : r ∉ hostOps1_W) :
    StableHlo.after hostOps1 W (Proc.devRef .tc r) = W (Proc.devRef .tc r) := StableHlo.after_of_writes_sub hostOps1 _ hostOps1_writes h
theorem keep11 (W : Valuation τ sig (Elt Ideal)) (r : Ref sig .tc) (h : r ∉ hostOps1_1_W) :
    StableHlo.after hostOps1_1 W (Proc.devRef .tc r) = W (Proc.devRef .tc r) := StableHlo.after_of_writes_sub hostOps1_1 _ hostOps1_1_writes h
theorem keep12 (W : Valuation τ sig (Elt Ideal)) (r : Ref sig .tc) (h : r ∉ hostOps1_2_W) :
    StableHlo.after hostOps1_2 W (Proc.devRef .tc r) = W (Proc.devRef .tc r) := StableHlo.after_of_writes_sub hostOps1_2 _ hostOps1_2_writes h
theorem keep2 (W : Valuation τ sig (Elt Ideal)) (r : Ref sig .tc) (h : r ∉ hostOps2_W) :
    StableHlo.after hostOps2 W (Proc.devRef .tc r) = W (Proc.devRef .tc r) := StableHlo.after_of_writes_sub hostOps2 _ hostOps2_writes h

/-- What is launched reaches region 0 when no stretch before it writes it. -/
theorem X3_of (r : Ref sig .tc) (h0 : r ∉ hostOps0_W) (h1 : r ∉ hostOps0_1_W) (h2 : r ∉ hostOps0_2_W) :
    X3 m c (Proc.devRef .tc r) = m ((c.tc : Thread nD τ).loc r) :=
  (keep02 _ r h2).trans ((keep01 _ r h1).trans ((keep0 _ r h0).trans rfl))
theorem X4_of (r : Ref sig .tc) (h : r ≠ main_v30) : X4 m c (Proc.devRef .tc r) = X3 m c (Proc.devRef .tc r) :=
  Function.update_of_ne (StableHlo.devRef_ne_of_ne h) _ _
theorem X8_of (r : Ref sig .tc) (h : r ≠ main_v61) : X8 m c (Proc.devRef .tc r) = X7 m c (Proc.devRef .tc r) :=
  Function.update_of_ne (StableHlo.devRef_ne_of_ne h) _ _
/-- From region 0's entry to region 1's. -/
theorem X7_of (r : Ref sig .tc) (h : r ≠ main_v30) (h1 : r ∉ hostOps1_W) (h11 : r ∉ hostOps1_1_W) (h12 : r ∉ hostOps1_2_W) :
    X7 m c (Proc.devRef .tc r) = X3 m c (Proc.devRef .tc r) :=
  (keep12 _ r h12).trans ((keep11 _ r h11).trans ((keep1 _ r h1).trans (X4_of m c r h)))

/-! ## Before region 0 -/

theorem v3_V1 : Gen.V1 m c (Proc.devRef .tc main_v3) = Cert.ReferenceIdeal.Read.val_main_v3 (F := Ideal) (a10 m c) := s0_v3 (Gen.V0 m c) (a10 m c) rfl
theorem v6_V1 : Gen.V1 m c (Proc.devRef .tc main_v6) = Cert.ReferenceIdeal.Read.val_main_v6 (F := Ideal) (a10 m c) := s0_v6 (Gen.V0 m c) (a10 m c) rfl
theorem v3_X3 : X3 m c (Proc.devRef .tc main_v3) = Cert.ReferenceIdeal.Read.val_main_v3 (F := Ideal) (a10 m c) :=
  (keep02 _ main_v3 (by decide)).trans ((keep01 _ main_v3 (by decide)).trans (v3_V1 m c))
theorem v6_X3 : X3 m c (Proc.devRef .tc main_v6) = Cert.ReferenceIdeal.Read.val_main_v6 (F := Ideal) (a10 m c) :=
  (keep02 _ main_v6 (by decide)).trans ((keep01 _ main_v6 (by decide)).trans (v6_V1 m c))
theorem v14_V2 : Gen.V2 m c (Proc.devRef .tc main_v14) = Cert.ReferenceIdeal.Read.val_main_v14 (F := Ideal) (a10 m c) :=
  s01_v14 (Gen.V1 m c) (a10 m c) (s0_v12 (Gen.V0 m c) (a10 m c) rfl) (s0_v13 (Gen.V0 m c) (a10 m c) rfl) (s0_cst2 (Gen.V0 m c))
/-- The edge weights region 0 is entered with are the reference's. -/
theorem v29_X3 : X3 m c (Proc.devRef .tc main_v29) = Cert.ReferenceIdeal.Read.val_main_v29 (F := Ideal) (a10 m c) :=
  s02_v29 (Gen.V2 m c) (a10 m c) ((keep01 _ main_v3 (by decide)).trans (v3_V1 m c)) ((keep01 _ main_v6 (by decide)).trans (v6_V1 m c)) (v14_V2 m c)

/-! ## Region 0 and layer 1 -/

/-- Region 0 leaves the reference's first product. -/
theorem v30_X4 : X4 m c (Proc.devRef .tc main_v30) = Cert.ReferenceIdeal.Read.val_main_v30 (F := Ideal) (a0 m c) (a2 m c) := by
  refine (Function.update_self _ _ _).trans ?_
  rw [final0 (X3r m) c]
  show prod0 (X3 m c (Proc.devRef .tc main_arg0)) (X3 m c (Proc.devRef .tc main_arg2)) = _
  rw [X3_of m c main_arg0 (by decide) (by decide) (by decide), X3_of m c main_arg2 (by decide) (by decide) (by decide)]
  rfl

/-- The hidden features region 1's host stretch is entered with are the reference's. -/
theorem v47_X6 : X6 m c (Proc.devRef .tc main_v47) = Cert.ReferenceIdeal.Read.val_main_v47 (F := Ideal) (a0 m c) (a2 m c) (a3 m c) (a10 m c) :=
  s11_v47 (X5 m c) (a0 m c) (a2 m c) (a3 m c) (a10 m c)
    (s1_v46 (X4 m c) (a0 m c) (a2 m c) (a3 m c) (a10 m c) (v30_X4 m c)
      ((X4_of m c main_v3 (by decide)).trans (v3_X3 m c)) ((X4_of m c main_v6 (by decide)).trans (v6_X3 m c))
      ((X4_of m c main_v29 (by decide)).trans (v29_X3 m c))
      ((X4_of m c main_arg3 (by decide)).trans (X3_of m c main_arg3 (by decide) (by decide) (by decide))))

/-- Layer 2's propagated hidden features: region 1's left factor. -/
theorem v60_X7 : @Eq (S15000x10.Idx → EReal) (X7 m c (Proc.devRef .tc main_v60))
    (Host.scatterAdd (F := Ideal) (φ := .f32) Cert.ReferenceIdeal.scatter_S15000x10_S215000x1_S215000x10_1_0_0_1 (Cert.ReferenceIdeal.Read.val_main_v41 (F := Ideal))
      (Cert.ReferenceIdeal.Read.val_main_v60 (F := Ideal) (a10 m c))
      (mulf (F := Ideal) (φ := .f32) (Host.gather (α := Ideal .f32) Cert.ReferenceIdeal.gather_S15000x10_S215000x1_S215000x10_1_0_n_n_0_1_110
          (Cert.ReferenceIdeal.Read.val_main_v47 (F := Ideal) (a0 m c) (a2 m c) (a3 m c) (a10 m c)) (Cert.ReferenceIdeal.Read.val_main_v54 (F := Ideal) (a10 m c)))
        (Cert.ReferenceIdeal.Read.val_main_v39 (F := Ideal) (a10 m c)))) :=
  s12_v60 (X6 m c) (a0 m c) (a2 m c) (a3 m c) (a10 m c) (v47_X6 m c)
    ((keep11 _ main_v3 (by decide)).trans ((keep1 _ main_v3 (by decide)).trans ((X4_of m c main_v3 (by decide)).trans (v3_X3 m c))))
    ((keep11 _ main_v6 (by decide)).trans ((keep1 _ main_v6 (by decide)).trans ((X4_of m c main_v6 (by decide)).trans (v6_X3 m c))))
    ((keep11 _ main_v29 (by decide)).trans ((keep1 _ main_v29 (by decide)).trans ((X4_of m c main_v29 (by decide)).trans (v29_X3 m c))))

/-! ## Region 1 and layer 2 -/

section
variable (hx0 : ∀ i, ∃ r : ℝ, a0 m c i = (r : EReal)) (hx2 : ∀ i, ∃ r : ℝ, a2 m c i = (r : EReal))
  (hx3 : ∀ i, ∃ r : ℝ, a3 m c i = (r : EReal)) (hx4 : ∀ i, ∃ r : ℝ, a4 m c i = (r : EReal))

include hx0 hx2 hx3 hx4 in
/-- Region 1 leaves the reference's propagated second product: the two orders of propagating and multiplying agree on
    real entries. -/
theorem v61_X8 : @Eq (S15000x128.Idx → EReal) (X8 m c (Proc.devRef .tc main_v61))
    (Cert.ReferenceIdeal.Read.val_main_v61 (F := Ideal) (a0 m c) (a2 m c) (a3 m c) (a4 m c) (a10 m c)) := by
  refine (Function.update_self _ _ _).trans ?_
  rw [final1 (X7r m) c]
  show prod1 (X7 m c (Proc.devRef .tc main_v60)) (X7 m c (Proc.devRef .tc main_arg4)) = _
  rw [v60_X7 m c, X7_of m c main_arg4 (by decide) (by decide) (by decide) (by decide),
    X3_of m c main_arg4 (by decide) (by decide) (by decide)]
  exact (Cert.ReferenceIdeal.RefGcn.val_main_v61_eq (a0 m c) (a2 m c) (a3 m c) (a4 m c) (a10 m c) hx0 hx2 hx3 hx4).symm

/-! ## Region 2 -/

/-- The weight matrix and the summed bias, as the score reads them. -/
abbrev Wm : Fin 512 → Fin 1024 → EReal := fun n j => a6 m c (ix2 (n0 := 512) (n1 := 1024) n j)
abbrev bm : Fin 512 → EReal := fun n => a8 m c (ix1 n) + a9 m c (ix1 n)

theorem arg6_X8 : X8 m c (Proc.devRef .tc main_arg6) = a6 m c :=
  (X8_of m c main_arg6 (by decide)).trans ((X7_of m c main_arg6 (by decide) (by decide) (by decide) (by decide)).trans
    (X3_of m c main_arg6 (by decide) (by decide) (by decide)))

theorem hW6 (k : Fin 128) (n : Fin 512) : X9r m c main_v85 (ix2 (n0 := 128) (n1 := 512) k n) = Wm m c n (colH k) := by
  refine (congrFun (s2_v85 (X8 m c) (a6 m c) (arg6_X8 m c)) (ix2 k n)).trans ?_
  rw [transpose_apply [1, 0] _ transposes_S512x128_S128x512_1_0 (ix2 k n) (ix2 (n0 := 512) (n1 := 128) n k)
    (fun b => by match b with | ⟨0, _⟩ => rfl | ⟨1, _⟩ => rfl)]
  exact extractStridedSlice_apply ![0, 0] _ slices_S512x1024_S512x128_0_0 (ix2 n k) (ix2 (n0 := 512) (n1 := 1024) n (colH k))
    (fun a => by match a with | ⟨0, _⟩ => (show n.val = 0 + n.val; omega) | ⟨1, _⟩ => (show k.val = 0 + k.val; omega))

theorem hW9 (k : Fin 768) (n : Fin 512) : X9r m c main_v87 (ix2 (n0 := 768) (n1 := 512) k n) = Wm m c n (colR k) := by
  refine (congrFun (s2_v87 (X8 m c) (a6 m c) (arg6_X8 m c)) (ix2 k n)).trans ?_
  rw [transpose_apply [1, 0] _ transposes_S512x768_S768x512_1_0 (ix2 k n) (ix2 (n0 := 512) (n1 := 768) n k)
    (fun b => by match b with | ⟨0, _⟩ => rfl | ⟨1, _⟩ => rfl)]
  exact extractStridedSlice_apply ![0, 128] _ slices_S512x1024_S512x768_0_128 (ix2 n k) (ix2 (n0 := 512) (n1 := 1024) n (colR k))
    (fun a => by match a with | ⟨0, _⟩ => (show n.val = 0 + n.val; omega) | ⟨1, _⟩ => (show 128 + k.val = 128 + k.val; rfl))

theorem hW12 (k : Fin 128) (n : Fin 512) : X9r m c main_v89 (ix2 (n0 := 128) (n1 := 512) k n) = Wm m c n (colT k) := by
  refine (congrFun (s2_v89 (X8 m c) (a6 m c) (arg6_X8 m c)) (ix2 k n)).trans ?_
  rw [transpose_apply [1, 0] _ transposes_S512x128_S128x512_1_0 (ix2 k n) (ix2 (n0 := 512) (n1 := 128) n k)
    (fun b => by match b with | ⟨0, _⟩ => rfl | ⟨1, _⟩ => rfl)]
  exact extractStridedSlice_apply ![0, 896] _ slices_S512x1024_S512x128_0_896 (ix2 n k) (ix2 (n0 := 512) (n1 := 1024) n (colT k))
    (fun a => by match a with | ⟨0, _⟩ => (show n.val = 0 + n.val; omega) | ⟨1, _⟩ => (show 896 + k.val = 896 + k.val; rfl))

theorem hb (n : Fin 512) : X9r m c main_v91 (ix2 (n0 := 1) (n1 := 512) (0 : Fin 1) n) = bm m c n := by
  refine (congrFun (s2_v91 (X8 m c) (a8 m c) (a9 m c)
    ((X8_of m c main_arg8 (by decide)).trans ((X7_of m c main_arg8 (by decide) (by decide) (by decide) (by decide)).trans
      (X3_of m c main_arg8 (by decide) (by decide) (by decide))))
    ((X8_of m c main_arg9 (by decide)).trans ((X7_of m c main_arg9 (by decide) (by decide) (by decide) (by decide)).trans
      (X3_of m c main_arg9 (by decide) (by decide) (by decide))))) (ix2 (0 : Fin 1) n)).trans ?_
  rw [shapeCast_addUnit_apply ![512] _ shapeCasts_S512_S1x512 (ix2 (0 : Fin 1) n)]
  show a8 m c _ + a9 m c _ = a8 m c (ix1 n) + a9 m c (ix1 n)
  have e : (fun a : Fin 1 => (ix2 (n0 := 1) (n1 := 512) (0 : Fin 1) n) a.succ) = ix1 n :=
    funext fun a => by match a with | ⟨0, _⟩ => rfl
  rw [e]

include hx0 hx2 hx3 hx4 in
/-- **The kernel program's result array is the reference's result.** -/
theorem result_eq : @Eq (S100000.Idx → EReal) ((dat2 (X9r m) c).arrAt 7 cfg2.N)
    (Cert.ReferenceIdeal.Read.val_main_v116 (F := Ideal) (a0 m c) (a1 m c) (a2 m c) (a3 m c) (a4 m c) (a5 m c) (a6 m c) (a8 m c) (a9 m c) (a10 m c) (a11 m c)) := by
  rw [final2 (X9r m) c (Wm m c) (bm m c) (hW6 m c) (hW9 m c) (hW12 m c) (hb m c)]
  have h61 := v61_X8 m c hx0 hx2 hx3 hx4
  have ha5 : X8 m c (Proc.devRef .tc main_arg5) = a5 m c :=
    (X8_of m c main_arg5 (by decide)).trans ((X7_of m c main_arg5 (by decide) (by decide) (by decide) (by decide)).trans
      (X3_of m c main_arg5 (by decide) (by decide) (by decide)))
  have ha11 : X8 m c (Proc.devRef .tc main_arg11) = a11 m c :=
    (X8_of m c main_arg11 (by decide)).trans ((X7_of m c main_arg11 (by decide) (by decide) (by decide) (by decide)).trans
      (X3_of m c main_arg11 (by decide) (by decide) (by decide)))
  have h74 : X9 m c (Proc.devRef .tc main_v74) = _ := s2_v74 (X8 m c) (a0 m c) (a2 m c) (a3 m c) (a4 m c) (a5 m c) (a10 m c) (a11 m c) h61 ha5 ha11
  have h83 : X9 m c (Proc.devRef .tc main_v83) = _ := s2_v83 (X8 m c) (a0 m c) (a2 m c) (a3 m c) (a4 m c) (a5 m c) (a10 m c) (a11 m c) h61 ha5 ha11
  have h1 : X9 m c (Proc.devRef .tc main_arg1) = a1 m c :=
    (keep2 _ main_arg1 (by decide)).trans ((X8_of m c main_arg1 (by decide)).trans
      ((X7_of m c main_arg1 (by decide) (by decide) (by decide) (by decide)).trans (X3_of m c main_arg1 (by decide) (by decide) (by decide))))
  funext i
  obtain ⟨p, rfl⟩ : ∃ p : Fin 100000, i = ix1 p := ⟨i 0, eq_ix1 (n := 100000) i⟩
  rw [Cert.ReferenceIdeal.RefLstm.val_main_v116_row]
  unfold score2
  show scoreAt (fun k => X9 m c (Proc.devRef .tc main_v74) (ix2 (n0 := 100000) (n1 := 128) p k))
      (fun k => X9 m c (Proc.devRef .tc main_arg1) (ix2 (n0 := 100000) (n1 := 768) p k))
      (fun k => X9 m c (Proc.devRef .tc main_v83) (ix2 (n0 := 100000) (n1 := 128) p k)) (Wm m c) (bm m c) = _
  rw [h74, h83, h1]
end

end Cert.KernelIdeal.Chain

end
-- ==== Proof.Assemble.lean ====
/-
  The certificate's five claims, assembled.

  The two frames of the kernel programs are the launch over @main's segments (the word-level program at the body
  obligations that hold for every float type; the idealized one at the valued run). The reference's frame is its run
  read back. The idealization rewrote nothing. The algebraic claim: the idealized kernel program's run ends with the
  result array at what region 2's write-backs leave, which read back through @main to the arguments is the reference's
  result term, the float arguments being real numbers under the precondition; the reference's run ends at that term of
  its own arguments, which agree with the kernel's.
-/
import proofs.«117671_j50156628082716_2_alg».proof.Defs
import proofs.«117671_j50156628082716_2_alg».proof.Proof.Gen.Kernel
import proofs.«117671_j50156628082716_2_alg».proof.Proof.Gen.KernelIdeal
import proofs.«117671_j50156628082716_2_alg».proof.Proof.Gen.ReferenceIdeal
import proofs.«117671_j50156628082716_2_alg».proof.Proof.Gen.Pre_finite_inputs
import proofs.«117671_j50156628082716_2_alg».proof.Proof.KFrame
import proofs.«117671_j50156628082716_2_alg».proof.Proof.RunIdeal
import proofs.«117671_j50156628082716_2_alg».proof.Proof.RefRun
import proofs.«117671_j50156628082716_2_alg».proof.Proof.RefRead
import proofs.«117671_j50156628082716_2_alg».proof.Proof.GcnPre
import proofs.«117671_j50156628082716_2_alg».proof.Proof.Chain

set_option maxRecDepth 16384

noncomputable section

namespace Cert.Proof.Parts

open Idealize.ShloMosaic Idealize.ShloMosaic.TcCoe Idealize.SL.Sem

/-- The word-level program runs to the end and keeps its arguments: the frame proved for every float type, at the
    bit-exact one. -/
theorem frame_k : Cert.frame_Kernel := fun m g _ => Cert.Kernel.Hand.frame m g

/-- The idealized kernel program runs to the end and keeps its arguments: the valued run, its result forgotten. -/
theorem frame_ki : Cert.frame_KernelIdeal := fun m g _ =>
  (θ_run Cert.KernelIdeal.defs _ _).mono (fun _ h c => (h c).2) (Cert.KernelIdeal.Hand.run_valued m g)

/-- The idealized reference runs to the end and keeps its arguments: its run read back, the result forgotten. -/
theorem frame_ri : Cert.frame_ReferenceIdeal := fun m g _ =>
  (θ_run Cert.ReferenceIdeal.defs _ _).mono (fun _ h c => (h c).2) (Cert.ReferenceIdeal.Value.run (F := Ideal) m g)

/-- The idealization rewrote no operation. -/
theorem preserves : Cert.preserves_Kernel_KernelIdeal := trivial

/-- What region 2 leaves in the result array is the fold of its write-backs from the contents folded through @main. -/
theorem o10_eq (m : (ℓ : Loc Cert.KernelIdeal.nD Cert.KernelIdeal.τ Cert.KernelIdeal.sig) → Buf (Elt Ideal) ℓ) (c : Dev Cert.KernelIdeal.nD) :
    Cert.KernelIdeal.Hand.o10 m c = (Cert.KernelIdeal.Hand.dat2 (Cert.KernelIdeal.Chain.X9r m) c).arrAt 7 Cert.KernelIdeal.cfg2.N := by
  unfold Cert.KernelIdeal.Hand.o10
  rfl

/-- From memories that agree on the arguments, under the precondition, the idealized kernel program and the idealized
    reference both run, keep their arguments, and end with the same result: the kernel program's result array is
    the reference's result as a term of the arguments (the float arguments being real numbers under the
    precondition), and the reference's run ends at that term of ITS arguments, which are the kernel's. -/
theorem algebraic : Cert.algebraic_KernelIdeal_ReferenceIdeal := by
  intro m g m' g' hpre hagree
  refine ⟨fun c => Cert.KernelIdeal.Hand.o10 m c, Cert.KernelIdeal.Hand.run_valued m g, ?_⟩
  refine (θ_run Cert.ReferenceIdeal.defs _ _).mono (fun r h c => ⟨?_, (h c).2⟩) (Cert.ReferenceIdeal.Value.run (F := Ideal) m' g')
  obtain ⟨e0, e1, e2, e3, e4, e5, e6, -, e8, e9, e10, e11⟩ := hagree c
  obtain ⟨hx0, -, hx2, hx3, hx4, -⟩ := Cert.ReferenceIdeal.RefGcn.real_inputs_of_pre _ _ _ _ _ _ _ _ _ _ _ _ (hpre c)
  refine (h c).1.trans ?_
  rw [Cert.ReferenceIdeal.Read.val_main_v116_eq, e0, e1, e2, e3, e4, e5, e6, e8, e9, e10, e11]
  exact ((o10_eq m c).trans (Cert.KernelIdeal.Chain.result_eq m c hx0 hx2 hx3 hx4)).symm

/-- Everything the certificate claims, at the programs' stated facts as the generated modules prove them. -/
theorem claim_parts : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Parts

end
-- ==== Proof.lean ====
/-
  The proof of `Cert.Claim`: a two-layer graph convolution over 15000 nodes feeding a one-step LSTM score of 100000
  triples, as a program of three TensorCore kernel regions among host operations, against its plain reference.

  The kernel program computes the first dense product `x · W1` in a row-blocked region, applies the symmetric
  normalisation, bias and relu on the host, PROPAGATES the ten hidden features along the edges before multiplying by
  `W2` in a second row-blocked region (the reference multiplies first and propagates 128 features), and scores each
  triple in a third region whose blocks of 2048 rows overhang the 100000 rows at the last grid point, forming the 512
  gate pre-activations as three partial products (head, relation, tail columns of the weight matrix) where the
  reference forms one product over the 1024 concatenated columns.

  * The frames. Every region's body is whole loads, one computed value, one whole store; the launch of @main is the
    chain of its host stretches and the three regions, each region entered with the buffers' contents folded so far
    and left with its result array replaced. In the third region the moved part of an overhanging block is all that is
    named; at the word level what the body computes from the unnamed rows is forgotten, at exact arithmetic a score
    depends on its own row alone.
  * The values, at exact arithmetic (floats are extended reals, every change of float format is the identity): a
    product into a zero accumulator is the sum over the contracted axis, so the two dense regions leave the host's
    products of the whole factors; propagation and the product by `W2` commute because the hidden features, the edge
    weights and `W2` are REAL numbers under the precondition (distributivity and the exchange of the two sums need
    finiteness on the extended reals); the 1024-term sum splits into its three column bands by associativity and
    commutativity alone; the sigmoid is one over one plus the exponential of the negation on both sides.
  * The idealization rewrote no operation, so there is nothing to preserve.
-/
import proofs.«117671_j50156628082716_2_alg».proof.Defs
import proofs.«117671_j50156628082716_2_alg».proof.Proof.Assemble

noncomputable section

namespace Cert.Proof

theorem claim : Cert.Claim := Cert.Proof.Parts.claim_parts

end Cert.Proof

end
